-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v98)) (v3 : (c : Dev Cert.KernelIdeal.nD) → Buf (Elt Ideal) ((c.tc : Thread Cert.KernelIdeal.nD Cert.KernelIdeal.τ).loc Cert.KernelIdeal.main_v135)) (v4 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_v135) = v3 c
          ∧ r.2.mem ((c.tc : Thread Cert.KernelIdeal.nD Cert.KernelIdeal.τ).loc Cert.KernelIdeal.main_v172) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x256x64x64 : Shape := ⟨4, ![8, 256, 64, 64]⟩
abbrev S8x256x32x32 : Shape := ⟨4, ![8, 256, 32, 32]⟩
abbrev S8x256x16x16 : Shape := ⟨4, ![8, 256, 16, 16]⟩
abbrev S8x256x8x8 : Shape := ⟨4, ![8, 256, 8, 8]⟩
abbrev S5x16x256 : Shape := ⟨3, ![5, 16, 256]⟩
abbrev S5x16 : Shape := ⟨2, ![5, 16]⟩
abbrev S5x256x16 : Shape := ⟨3, ![5, 256, 16]⟩
abbrev S5x256 : Shape := ⟨2, ![5, 256]⟩
abbrev S5x1x16 : Shape := ⟨3, ![5, 1, 16]⟩
abbrev S5x1 : Shape := ⟨2, ![5, 1]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  bcast_S_S8x256x32x32 : S_.BroadcastsInDim S8x256x32x32 (![] : Fin 0 → Fin S8x256x32x32.rank)
  reducesTo_S8x256x32x32_S_d0_1_2_3 : S8x256x32x32.ReducesTo [0, 1, 2, 3] S_
  bcast_S_S8x256x16x16 : S_.BroadcastsInDim S8x256x16x16 (![] : Fin 0 → Fin S8x256x16x16.rank)
  reducesTo_S8x256x16x16_S_d0_1_2_3 : S8x256x16x16.ReducesTo [0, 1, 2, 3] S_
  bcast_S_S8x256x8x8 : S_.BroadcastsInDim S8x256x8x8 (![] : Fin 0 → Fin S8x256x8x8.rank)
  reducesTo_S8x256x8x8_S_d0_1_2_3 : S8x256x8x8.ReducesTo [0, 1, 2, 3] S_
  bcast_S_S5x16x256 : S_.BroadcastsInDim S5x16x256 (![] : Fin 0 → Fin S5x16x256.rank)
  reducesTo_S5x16x256_S_d0_1_2 : S5x16x256.ReducesTo [0, 1, 2] S_
  bcast_S_S5x16 : S_.BroadcastsInDim S5x16 (![] : Fin 0 → Fin S5x16.rank)
  reducesTo_S5x16_S_d0_1 : S5x16.ReducesTo [0, 1] S_
  bcast_S_S5x256x16 : S_.BroadcastsInDim S5x256x16 (![] : Fin 0 → Fin S5x256x16.rank)
  reducesTo_S5x256x16_S_d0_1_2 : S5x256x16.ReducesTo [0, 1, 2] S_
  bcast_S_S5x256 : S_.BroadcastsInDim S5x256 (![] : Fin 0 → Fin S5x256.rank)
  reducesTo_S5x256_S_d0_1 : S5x256.ReducesTo [0, 1] S_
  bcast_S_S5x1x16 : S_.BroadcastsInDim S5x1x16 (![] : Fin 0 → Fin S5x1x16.rank)
  reducesTo_S5x1x16_S_d0_1_2 : S5x1x16.ReducesTo [0, 1, 2] S_
  bcast_S_S5x1 : S_.BroadcastsInDim S5x1 (![] : Fin 0 → Fin S5x1.rank)
  reducesTo_S5x1_S_d0_1 : S5x1.ReducesTo [0, 1] S_

variable [Facts]

def fn_part3 {F : FTy → Type} [FloatOps F] (main_v48 : IVec S_ 1) (main_v49 : FVec F S5x1 .f32) (main_v50 : FVec F S5x1 .f32) : IVec S_ 1 :=
  let main_v51 : IVec S5x1 1 := cmpf .olt main_v49 main_v50
  let main_c_19 : IVec S_ 1 := constantI S_ 1 1#1
  let main_v52 : IVec S_ 1 := (fun x v => Host.reduce IntOp.andi x v reducesTo_S5x1_S_d0_1 h_S_) main_v51 main_c_19
  let main_v53 : IVec S_ 1 := andi main_v48 main_v52
  main_v53

def fn_part2 {F : FTy → Type} [FloatOps F] (main_arg7 : FVec F S5x256x16 .f32) (main_arg8 : FVec F S5x256 .f32) (main_arg9 : FVec F S5x1x16 .f32) (main_arg10 : FVec F S5x1 .f32) (main_v33 : IVec S_ 1) : IVec S_ 1 :=
  let main_v34 : FVec F S5x256x16 .f32 := Host.absf main_arg7
  let main_cst_12 : FVec F S_ .f32 := constant S_ .f32 0x7F800000#32
  let main_v35 : FVec F S5x256x16 .f32 := broadcastInDim S5x256x16 ![] bcast_S_S5x256x16 main_cst_12
  let main_v36 : IVec S5x256x16 1 := cmpf .olt main_v34 main_v35
  let main_c_13 : IVec S_ 1 := constantI S_ 1 1#1
  let main_v37 : IVec S_ 1 := (fun x v => Host.reduce IntOp.andi x v reducesTo_S5x256x16_S_d0_1_2 h_S_) main_v36 main_c_13
  let main_v38 : IVec S_ 1 := andi main_v33 main_v37
  let main_v39 : FVec F S5x256 .f32 := Host.absf main_arg8
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x1x16 .f32 := Host.absf main_arg9
  let main_cst_16 : FVec F S_ .f32 := constant S_ .f32 0x7F800000#32
  let main_v45 : FVec F S5x1x16 .f32 := broadcastInDim S5x1x16 ![] bcast_S_S5x1x16 main_cst_16
  let main_v46 : IVec S5x1x16 1 := cmpf .olt main_v44 main_v45
  let main_c_17 : IVec S_ 1 := constantI S_ 1 1#1
  let main_v47 : IVec S_ 1 := (fun x v => Host.reduce IntOp.andi x v reducesTo_S5x1x16_S_d0_1_2 h_S_) main_v46 main_c_17
  let main_v48 : IVec S_ 1 := andi main_v43 main_v47
  let main_v49 : FVec F S5x1 .f32 := Host.absf main_arg10
  let main_cst_18 : FVec F S_ .f32 := constant S_ .f32 0x7F800000#32
  let main_v50 : FVec F S5x1 .f32 := broadcastInDim S5x1 ![] bcast_S_S5x1 main_cst_18
  fn_part3 (F := F) main_v48 main_v49 main_v50

def fn_part1 {F : FTy → Type} [FloatOps F] (main_arg4 : FVec F S8x256x8x8 .f32) (main_arg5 : FVec F S5x16x256 .f32) (main_arg6 : FVec F S5x16 .f32) (main_arg7 : FVec F S5x256x16 .f32) (main_arg8 : FVec F S5x256 .f32) (main_arg9 : FVec F S5x1x16 .f32) (main_arg10 : FVec F S5x1 .f32) (main_v13 : IVec S_ 1) (main_v16 : IVec S8x256x16x16 1) : IVec S_ 1 :=
  let main_c_5 : IVec S_ 1 := constantI S_ 1 1#1
  let main_v17 : IVec S_ 1 := (fun x v => Host.reduce IntOp.andi x v reducesTo_S8x256x16x16_S_d0_1_2_3 h_S_) main_v16 main_c_5
  let main_v18 : IVec S_ 1 := andi main_v13 main_v17
  let main_v19 : FVec F S8x256x8x8 .f32 := Host.absf main_arg4
  let main_cst_6 : FVec F S_ .f32 := constant S_ .f32 0x7F800000#32
  let main_v20 : FVec F S8x256x8x8 .f32 := broadcastInDim S8x256x8x8 ![] bcast_S_S8x256x8x8 main_cst_6
  let main_v21 : IVec S8x256x8x8 1 := cmpf .olt main_v19 main_v20
  let main_c_7 : IVec S_ 1 := constantI S_ 1 1#1
  let main_v22 : IVec S_ 1 := (fun x v => Host.reduce IntOp.andi x v reducesTo_S8x256x8x8_S_d0_1_2_3 h_S_) main_v21 main_c_7
  let main_v23 : IVec S_ 1 := andi main_v18 main_v22
  let main_v24 : FVec F S5x16x256 .f32 := Host.absf main_arg5
  let main_cst_8 : FVec F S_ .f32 := constant S_ .f32 0x7F800000#32
  let main_v25 : FVec F S5x16x256 .f32 := broadcastInDim S5x16x256 ![] bcast_S_S5x16x256 main_cst_8
  let main_v26 : IVec S5x16x256 1 := cmpf .olt main_v24 main_v25
  let main_c_9 : IVec S_ 1 := constantI S_ 1 1#1
  let main_v27 : IVec S_ 1 := (fun x v => Host.reduce IntOp.andi x v reducesTo_S5x16x256_S_d0_1_2 h_S_) main_v26 main_c_9
  let main_v28 : IVec S_ 1 := andi main_v23 main_v27
  let main_v29 : FVec F S5x16 .f32 := Host.absf main_arg6
  let main_cst_10 : FVec F S_ .f32 := constant S_ .f32 0x7F800000#32
  let main_v30 : FVec F S5x16 .f32 := broadcastInDim S5x16 ![] bcast_S_S5x16 main_cst_10
  let main_v31 : IVec S5x16 1 := cmpf .olt main_v29 main_v30
  let main_c_11 : IVec S_ 1 := constantI S_ 1 1#1
  let main_v32 : IVec S_ 1 := (fun x v => Host.reduce IntOp.andi x v reducesTo_S5x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8x256x128x128 .f32) (main_arg1 : FVec F S8x256x64x64 .f32) (main_arg2 : FVec F S8x256x32x32 .f32) (main_arg3 : FVec F S8x256x16x16 .f32) (main_arg4 : FVec F S8x256x8x8 .f32) (main_arg5 : FVec F S5x16x256 .f32) (main_arg6 : FVec F S5x16 .f32) (main_arg7 : FVec F S5x256x16 .f32) (main_arg8 : FVec F S5x256 .f32) (main_arg9 : FVec F S5x1x16 .f32) (main_arg10 : FVec F S5x1 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x64x64 .f32 := Host.absf main_arg1
  let main_cst_0 : FVec F S_ .f32 := constant S_ .f32 0x7F800000#32
  let main_v5 : FVec F S8x256x64x64 .f32 := broadcastInDim S8x256x64x64 ![] bcast_S_S8x256x64x64 main_cst_0
  let main_v6 : IVec S8x256x64x64 1 := cmpf .olt main_v4 main_v5
  let main_c_1 : IVec S_ 1 := constantI S_ 1 1#1
  let main_v7 : IVec S_ 1 := (fun x v => Host.reduce IntOp.andi x v reducesTo_S8x256x64x64_S_d0_1_2_3 h_S_) main_v6 main_c_1
  let main_v8 : IVec S_ 1 := andi main_v3 main_v7
  let main_v9 : FVec F S8x256x32x32 .f32 := Host.absf main_arg2
  let main_cst_2 : FVec F S_ .f32 := constant S_ .f32 0x7F800000#32
  let main_v10 : FVec F S8x256x32x32 .f32 := broadcastInDim S8x256x32x32 ![] bcast_S_S8x256x32x32 main_cst_2
  let main_v11 : IVec S8x256x32x32 1 := cmpf .olt main_v9 main_v10
  let main_c_3 : IVec S_ 1 := constantI S_ 1 1#1
  let main_v12 : IVec S_ 1 := (fun x v => Host.reduce IntOp.andi x v reducesTo_S8x256x32x32_S_d0_1_2_3 h_S_) main_v11 main_c_3
  let main_v13 : IVec S_ 1 := andi main_v8 main_v12
  let main_v14 : FVec F S8x256x16x16 .f32 := Host.absf main_arg3
  let main_cst_4 : FVec F S_ .f32 := constant S_ .f32 0x7F800000#32
  let main_v15 : FVec F S8x256x16x16 .f32 := broadcastInDim S8x256x16x16 ![] bcast_S_S8x256x16x16 main_cst_4
  let main_v16 : IVec S8x256x16x16 1 := cmpf .olt main_v14 main_v15
  fn_part1 (F := F) main_arg4 main_arg5 main_arg6 main_arg7 main_arg8 main_arg9 main_arg10 main_v13 main_v16
-- ==== Kernel.lean ====
abbrev S8x256x128x128 : Shape := ⟨4, ![8, 256, 128, 128]⟩
abbrev S8x256x64x64 : Shape := ⟨4, ![8, 256, 64, 64]⟩
abbrev S8x256x32x32 : Shape := ⟨4, ![8, 256, 32, 32]⟩
abbrev S8x256x16x16 : Shape := ⟨4, ![8, 256, 16, 16]⟩
abbrev S8x256x8x8 : Shape := ⟨4, ![8, 256, 8, 8]⟩
abbrev S5x16x256 : Shape := ⟨3, ![5, 16, 256]⟩
abbrev S5x16 : Shape := ⟨2, ![5, 16]⟩
abbrev S5x256x16 : Shape := ⟨3, ![5, 256, 16]⟩
abbrev S5x256 : Shape := ⟨2, ![5, 256]⟩
abbrev S5x1x16 : Shape := ⟨3, ![5, 1, 16]⟩
abbrev S5x1 : Shape := ⟨2, ![5, 1]⟩
abbrev S1x16x256 : Shape := ⟨3, ![1, 16, 256]⟩
abbrev S16x256 : Shape := ⟨2, ![16, 256]⟩
abbrev S1x16 : Shape := ⟨2, ![1, 16]⟩
abbrev S16 : Shape := ⟨1, ![16]⟩
abbrev S1x256x16 : Shape := ⟨3, ![1, 256, 16]⟩
abbrev S256x16 : Shape := ⟨2, ![256, 16]⟩
abbrev S1x256 : Shape := ⟨2, ![1, 256]⟩
abbrev S256 : Shape := ⟨1, ![256]⟩
abbrev S1x1x16 : Shape := ⟨3, ![1, 1, 16]⟩
abbrev S1x1 : Shape := ⟨2, ![1, 1]⟩
abbrev S1 : Shape := ⟨1, ![1]⟩
abbrev S8x256 : Shape := ⟨2, ![8, 256]⟩
abbrev S8x128x16x128 : Shape := ⟨4, ![8, 128, 16, 128]⟩
abbrev S8x128 : Shape := ⟨2, ![8, 128]⟩
abbrev S8x128x16 : Shape := ⟨3, ![8, 128, 16]⟩
abbrev S_ : Shape := ⟨0, ![]⟩
abbrev S8x16 : Shape := ⟨2, ![8, 16]⟩
abbrev S16x1 : Shape := ⟨2, ![16, 1]⟩
abbrev S8x1 : Shape := ⟨2, ![8, 1]⟩
abbrev S8x256x8x128 : Shape := ⟨4, ![8, 256, 8, 128]⟩
abbrev S8x256x1x1 : Shape := ⟨4, ![8, 256, 1, 1]⟩
abbrev S8x1x1x1 : Shape := ⟨4, ![8, 1, 1, 1]⟩
abbrev S8x128x16x64 : Shape := ⟨4, ![8, 128, 16, 64]⟩
abbrev S8x256x8x64 : Shape := ⟨4, ![8, 256, 8, 64]⟩

abbrev nBuf : Space → Nat
  | .hbm => 192
  | .vmem => 20
  | .smem => 0
  | _ => 0

abbrev hbmTy0_0 (i : Nat) : BufTy := match i % 128 with
  | 0 => ⟨S8x256x128x128, .f32⟩
  | 1 => ⟨S8x256x64x64, .f32⟩
  | 2 => ⟨S8x256x32x32, .f32⟩
  | 3 => ⟨S8x256x16x16, .f32⟩
  | 4 => ⟨S8x256x8x8, .f32⟩
  | 5 => ⟨S5x16x256, .f32⟩
  | 6 => ⟨S5x16, .f32⟩
  | 7 => ⟨S5x256x16, .f32⟩
  | 8 => ⟨S5x256, .f32⟩
  | 9 => ⟨S5x1x16, .f32⟩
  | 10 => ⟨S5x1, .f32⟩
  | 11 => ⟨S1x16x256, .f32⟩
  | 12 => ⟨S16x256, .f32⟩
  | 13 => ⟨S1x16, .f32⟩
  | 14 => ⟨S16, .f32⟩
  | 15 => ⟨S1x256x16, .f32⟩
  | 16 => ⟨S256x16, .f32⟩
  | 17 => ⟨S1x256, .f32⟩
  | 18 => ⟨S256, .f32⟩
  | 19 => ⟨S1x1x16, .f32⟩
  | 20 => ⟨S1x16, .f32⟩
  | 21 => ⟨S1x1, .f32⟩
  | 22 => ⟨S1, .f32⟩
  | 23 => ⟨S8x256, .f32⟩
  | 24 => ⟨S_, .f32⟩
  | 25 => ⟨S8x256, .f32⟩
  | 26 => ⟨S8x256, .f32⟩
  | 27 => ⟨S256x16, .f32⟩
  | 28 => ⟨S8x16, .f32⟩
  | 29 => ⟨S1x16, .f32⟩
  | 30 => ⟨S8x16, .f32⟩
  | 31 => ⟨S8x16, .f32⟩
  | 32 => ⟨S16x256, .f32⟩
  | 33 => ⟨S8x256, .f32⟩
  | 34 => ⟨S1x256, .f32⟩
  | 35 => ⟨S8x256, .f32⟩
  | 36 => ⟨S8x256, .f32⟩
  | 37 => ⟨S16x1, .f32⟩
  | 38 => ⟨S8x1, .f32⟩
  | 39 => ⟨S1x1, .f32⟩
  | 40 => ⟨S8x1, .f32⟩
  | 41 => ⟨S8x1, .f32⟩
  | 42 => ⟨S8x256x128x128, .f32⟩
  | 43 => ⟨S1x16x256, .f32⟩
  | 44 => ⟨S16x256, .f32⟩
  | 45 => ⟨S1x16, .f32⟩
  | 46 => ⟨S16, .f32⟩
  | 47 => ⟨S1x256x16, .f32⟩
  | 48 => ⟨S256x16, .f32⟩
  | 49 => ⟨S1x256, .f32⟩
  | 50 => ⟨S256, .f32⟩
  | 51 => ⟨S1x1x16, .f32⟩
  | 52 => ⟨S1x16, .f32⟩
  | 53 => ⟨S1x1, .f32⟩
  | 54 => ⟨S1, .f32⟩
  | 55 => ⟨S8x256, .f32⟩
  | 56 => ⟨S_, .f32⟩
  | 57 => ⟨S8x256, .f32⟩
  | 58 => ⟨S8x256, .f32⟩
  | 59 => ⟨S256x16, .f32⟩
  | 60 => ⟨S8x16, .f32⟩
  | 61 => ⟨S1x16, .f32⟩
  | 62 => ⟨S8x16, .f32⟩
  | 63 => ⟨S8x16, .f32⟩
  | 64 => ⟨S16x256, .f32⟩
  | 65 => ⟨S8x256, .f32⟩
  | 66 => ⟨S1x256, .f32⟩
  | 67 => ⟨S8x256, .f32⟩
  | 68 => ⟨S8x256, .f32⟩
  | 69 => ⟨S16x1, .f32⟩
  | 70 => ⟨S8x1, .f32⟩
  | 71 => ⟨S1x1, .f32⟩
  | 72 => ⟨S8x1, .f32⟩
  | 73 => ⟨S8x1, .f32⟩
  | 74 => ⟨S8x256x64x64, .f32⟩
  | 75 => ⟨S1x16x256, .f32⟩
  | 76 => ⟨S16x256, .f32⟩
  | 77 => ⟨S1x16, .f32⟩
  | 78 => ⟨S16, .f32⟩
  | 79 => ⟨S1x256x16, .f32⟩
  | 80 => ⟨S256x16, .f32⟩
  | 81 => ⟨S1x256, .f32⟩
  | 82 => ⟨S256, .f32⟩
  | 83 => ⟨S1x1x16, .f32⟩
  | 84 => ⟨S1x16, .f32⟩
  | 85 => ⟨S1x1, .f32⟩
  | 86 => ⟨S1, .f32⟩
  | 87 => ⟨S_, .f32⟩
  | 88 => ⟨S8x256, .f32⟩
  | 89 => ⟨S_, .f32⟩
  | 90 => ⟨S8x256, .f32⟩
  | 91 => ⟨S8x256, .f32⟩
  | 92 => ⟨S256x16, .f32⟩
  | 93 => ⟨S8x16, .f32⟩
  | 94 => ⟨S1x16, .f32⟩
  | 95 => ⟨S8x16, .f32⟩
  | 96 => ⟨S8x16, .f32⟩
  | 97 => ⟨S16x256, .f32⟩
  | 98 => ⟨S8x256, .f32⟩
  | 99 => ⟨S1x256, .f32⟩
  | 100 => ⟨S8x256, .f32⟩
  | 101 => ⟨S8x256, .f32⟩
  | 102 => ⟨S16x1, .f32⟩
  | 103 => ⟨S8x1, .f32⟩
  | 104 => ⟨S1x1, .f32⟩
  | 105 => ⟨S8x1, .f32⟩
  | 106 => ⟨S8x1, .f32⟩
  | 107 => ⟨S8x256x1x1, .f32⟩
  | 108 => ⟨S8x256x32x32, .f32⟩
  | 109 => ⟨S8x256x32x32, .f32⟩
  | 110 => ⟨S8x256x32x32, .f32⟩
  | 111 => ⟨S8x1x1x1, .f32⟩
  | 112 => ⟨S8x256x32x32, .f32⟩
  | 113 => ⟨S8x256x32x32, .f32⟩
  | 114 => ⟨S1x16x256, .f32⟩
  | 115 => ⟨S16x256, .f32⟩
  | 116 => ⟨S1x16, .f32⟩
  | 117 => ⟨S16, .f32⟩
  | 118 => ⟨S1x256x16, .f32⟩
  | 119 => ⟨S256x16, .f32⟩
  | 120 => ⟨S1x256, .f32⟩
  | 121 => ⟨S256, .f32⟩
  | 122 => ⟨S1x1x16, .f32⟩
  | 123 => ⟨S1x16, .f32⟩
  | 124 => ⟨S1x1, .f32⟩
  | 125 => ⟨S1, .f32⟩
  | 126 => ⟨S_, .f32⟩
  | 127 => ⟨S8x256, .f32⟩
  | _ => ⟨S8x256x128x128, .f32⟩

abbrev hbmTy0_1 (i : Nat) : BufTy := match i % 128 with
  | 0 => ⟨S_, .f32⟩
  | 1 => ⟨S8x256, .f32⟩
  | 2 => ⟨S8x256, .f32⟩
  | 3 => ⟨S256x16, .f32⟩
  | 4 => ⟨S8x16, .f32⟩
  | 5 => ⟨S1x16, .f32⟩
  | 6 => ⟨S8x16, .f32⟩
  | 7 => ⟨S8x16, .f32⟩
  | 8 => ⟨S16x256, .f32⟩
  | 9 => ⟨S8x256, .f32⟩
  | 10 => ⟨S1x256, .f32⟩
  | 11 => ⟨S8x256, .f32⟩
  | 12 => ⟨S8x256, .f32⟩
  | 13 => ⟨S16x1, .f32⟩
  | 14 => ⟨S8x1, .f32⟩
  | 15 => ⟨S1x1, .f32⟩
  | 16 => ⟨S8x1, .f32⟩
  | 17 => ⟨S8x1, .f32⟩
  | 18 => ⟨S8x256x1x1, .f32⟩
  | 19 => ⟨S8x256x16x16, .f32⟩
  | 20 => ⟨S8x256x16x16, .f32⟩
  | 21 => ⟨S8x256x16x16, .f32⟩
  | 22 => ⟨S8x1x1x1, .f32⟩
  | 23 => ⟨S8x256x16x16, .f32⟩
  | 24 => ⟨S8x256x16x16, .f32⟩
  | 25 => ⟨S1x16x256, .f32⟩
  | 26 => ⟨S16x256, .f32⟩
  | 27 => ⟨S1x16, .f32⟩
  | 28 => ⟨S16, .f32⟩
  | 29 => ⟨S1x256x16, .f32⟩
  | 30 => ⟨S256x16, .f32⟩
  | 31 => ⟨S1x256, .f32⟩
  | 32 => ⟨S256, .f32⟩
  | 33 => ⟨S1x1x16, .f32⟩
  | 34 => ⟨S1x16, .f32⟩
  | 35 => ⟨S1x1, .f32⟩
  | 36 => ⟨S1, .f32⟩
  | 37 => ⟨S_, .f32⟩
  | 38 => ⟨S8x256, .f32⟩
  | 39 => ⟨S_, .f32⟩
  | 40 => ⟨S8x256, .f32⟩
  | 41 => ⟨S8x256, .f32⟩
  | 42 => ⟨S256x16, .f32⟩
  | 43 => ⟨S8x16, .f32⟩
  | 44 => ⟨S1x16, .f32⟩
  | 45 => ⟨S8x16, .f32⟩
  | 46 => ⟨S8x16, .f32⟩
  | 47 => ⟨S16x256, .f32⟩
  | 48 => ⟨S8x256, .f32⟩
  | 49 => ⟨S1x256, .f32⟩
  | 50 => ⟨S8x256, .f32⟩
  | 51 => ⟨S8x256, .f32⟩
  | 52 => ⟨S16x1, .f32⟩
  | 53 => ⟨S8x1, .f32⟩
  | 54 => ⟨S1x1, .f32⟩
  | 55 => ⟨S8x1, .f32⟩
  | 56 => ⟨S8x1, .f32⟩
  | 57 => ⟨S8x256x1x1, .f32⟩
  | 58 => ⟨S8x256x8x8, .f32⟩
  | 59 => ⟨S8x256x8x8, .f32⟩
  | 60 => ⟨S8x256x8x8, .f32⟩
  | 61 => ⟨S8x1x1x1, .f32⟩
  | 62 => ⟨S8x256x8x8, .f32⟩
  | 63 => ⟨S8x256x8x8, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | .local _ .vmem, ⟨0, _⟩ => ⟨S8x128x16x128, .f32⟩
  | .local _ .vmem, ⟨1, _⟩ => ⟨S8x128x16x128, .f32⟩
  | .local _ .vmem, ⟨2, _⟩ => ⟨S8x128, .f32⟩
  | .local _ .vmem, ⟨3, _⟩ => ⟨S8x128, .f32⟩
  | .local _ .vmem, ⟨4, _⟩ => ⟨S8x256x8x128, .f32⟩
  | .local _ .vmem, ⟨5, _⟩ => ⟨S8x256x8x128, .f32⟩
  | .local _ .vmem, ⟨6, _⟩ => ⟨S8x256, .f32⟩
  | .local _ .vmem, ⟨7, _⟩ => ⟨S8x1, .f32⟩
  | .local _ .vmem, ⟨8, _⟩ => ⟨S8x256x8x128, .f32⟩
  | .local _ .vmem, ⟨9, _⟩ => ⟨S8x256x8x128, .f32⟩
  | .local _ .vmem, ⟨10, _⟩ => ⟨S8x128x16x64, .f32⟩
  | .local _ .vmem, ⟨11, _⟩ => ⟨S8x128x16x64, .f32⟩
  | .local _ .vmem, ⟨12, _⟩ => ⟨S8x128, .f32⟩
  | .local _ .vmem, ⟨13, _⟩ => ⟨S8x128, .f32⟩
  | .local _ .vmem, ⟨14, _⟩ => ⟨S8x256x8x64, .f32⟩
  | .local _ .vmem, ⟨15, _⟩ => ⟨S8x256x8x64, .f32⟩
  | .local _ .vmem, ⟨16, _⟩ => ⟨S8x256, .f32⟩
  | .local _ .vmem, ⟨17, _⟩ => ⟨S8x1, .f32⟩
  | .local _ .vmem, ⟨18, _⟩ => ⟨S8x256x8x64, .f32⟩
  | .local _ .vmem, ⟨19, _⟩ => ⟨S8x256x8x64, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_1 : Ref sig .tc := ⟨.hbm, 87, rfl⟩
abbrev main_v74 : Ref sig .tc := ⟨.hbm, 88, rfl⟩
abbrev main_cst_2 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_3 : Ref sig .tc := ⟨.hbm, 126, rfl⟩
abbrev main_v111 : Ref sig .tc := ⟨.hbm, 127, rfl⟩
abbrev main_cst_4 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_cst_5 : Ref sig .tc := ⟨.hbm, 165, rfl⟩
abbrev main_v148 : Ref sig .tc := ⟨.hbm, 166, rfl⟩
abbrev main_cst_6 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem3_0 : DmaSem sig := 18
abbrev cc3_sem3_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S8x256x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x256x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S8x128x16x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev grid3 : Pipeline.Grid := ⟨1, ![8], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage3_0 : Fin 2 → Memref sig .tc .vmem S8x256x8x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8x256x8x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S5x16x256_S1x16x256_0_0_0 : S5x16x256.Slices ![0, 0, 0] S1x16x256
  shapeCasts_S1x16x256_S16x256 : S1x16x256.ShapeCasts S16x256
  slices_S5x16_S1x16_0_0 : S5x16.Slices ![0, 0] S1x16
  shapeCasts_S1x16_S16 : S1x16.ShapeCasts S16
  slices_S5x256x16_S1x256x16_0_0_0 : S5x256x16.Slices ![0, 0, 0] S1x256x16
  shapeCasts_S1x256x16_S256x16 : S1x256x16.ShapeCasts S256x16
  slices_S5x256_S1x256_0_0 : S5x256.Slices ![0, 0] S1x256
  shapeCasts_S1x256_S256 : S1x256.ShapeCasts S256
  slices_S5x1x16_S1x1x16_0_0_0 : S5x1x16.Slices ![0, 0, 0] S1x1x16
  shapeCasts_S1x1x16_S1x16 : S1x1x16.ShapeCasts S1x16
  slices_S5x1_S1x1_0_0 : S5x1.Slices ![0, 0] S1x1
  shapeCasts_S1x1_S1 : S1x1.ShapeCasts S1
  inb_S8x128_S8x128_0_0 : ∀ a, (![0, 0] : Fin 2 → Nat) a + S8x128.size a ≤ S8x128.size a
  h_S8x128 : 0 < S8x128.numel
  inb_S8x128x16x128_S8x128x16x128_0_0_0_0 : ∀ a, (![0, 0, 0, 0] : Fin 4 → Nat) a + S8x128x16x128.size a ≤ S8x128x16x128.size a
  h_S8x128x16x128 : 0 < S8x128x16x128.numel
  reduces_S8x128x16x128_S8x128x16 : S8x128x16x128.Reduces [3] S8x128x16
  reduces_S8x128x16_S8x128 : S8x128x16.Reduces [2] S8x128
  shapeCasts_S8x128_S8x128 : S8x128.ShapeCasts S8x128
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  inb_S8x256x8x128_S8x256x8x128_0_0_0_0 : ∀ a, (![0, 0, 0, 0] : Fin 4 → Nat) a + S8x256x8x128.size a ≤ S8x256x8x128.size a
  h_S8x256x8x128 : 0 < S8x256x8x128.numel
  inb_S8x256_S8x256_0_0 : ∀ a, (![0, 0] : Fin 2 → Nat) a + S8x256.size a ≤ S8x256.size a
  h_S8x256 : 0 < S8x256.numel
  shapeCasts_S8x256_S8x256 : S8x256.ShapeCasts S8x256
  shapeCasts_S8x256_S8x256x1x1 : S8x256.ShapeCasts S8x256x1x1
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8x1x1x1 : S8x1.ShapeCasts S8x1x1x1
  broadcasts_S8x256x1x1_S8x256x8x128 : S8x256x1x1.Broadcasts S8x256x8x128
  broadcasts_S8x1x1x1_S8x256x8x128 : S8x1x1x1.Broadcasts S8x256x8x128
  slices_S5x16x256_S1x16x256_1_0_0 : S5x16x256.Slices ![1, 0, 0] S1x16x256
  slices_S5x16_S1x16_1_0 : S5x16.Slices ![1, 0] S1x16
  slices_S5x256x16_S1x256x16_1_0_0 : S5x256x16.Slices ![1, 0, 0] S1x256x16
  slices_S5x256_S1x256_1_0 : S5x256.Slices ![1, 0] S1x256
  slices_S5x1x16_S1x1x16_1_0_0 : S5x1x16.Slices ![1, 0, 0] S1x1x16
  slices_S5x1_S1x1_1_0 : S5x1.Slices ![1, 0] S1x1
  inb_S8x128x16x64_S8x128x16x64_0_0_0_0 : ∀ a, (![0, 0, 0, 0] : Fin 4 → Nat) a + S8x128x16x64.size a ≤ S8x128x16x64.size a
  h_S8x128x16x64 : 0 < S8x128x16x64.numel
  reduces_S8x128x16x64_S8x128x16 : S8x128x16x64.Reduces [3] S8x128x16
  inb_S8x256x8x64_S8x256x8x64_0_0_0_0 : ∀ a, (![0, 0, 0, 0] : Fin 4 → Nat) a + S8x256x8x64.size a ≤ S8x256x8x64.size a
  h_S8x256x8x64 : 0 < S8x256x8x64.numel
  broadcasts_S8x256x1x1_S8x256x8x64 : S8x256x1x1.Broadcasts S8x256x8x64
  broadcasts_S8x1x1x1_S8x256x8x64 : S8x1x1x1.Broadcasts S8x256x8x64
  slices_S5x16x256_S1x16x256_2_0_0 : S5x16x256.Slices ![2, 0, 0] S1x16x256
  slices_S5x16_S1x16_2_0 : S5x16.Slices ![2, 0] S1x16
  slices_S5x256x16_S1x256x16_2_0_0 : S5x256x16.Slices ![2, 0, 0] S1x256x16
  slices_S5x256_S1x256_2_0 : S5x256.Slices ![2, 0] S1x256
  slices_S5x1x16_S1x1x16_2_0_0 : S5x1x16.Slices ![2, 0, 0] S1x1x16
  slices_S5x1_S1x1_2_0 : S5x1.Slices ![2, 0] S1x1
  reducesTo_S8x256x32x32_S8x256_d2_3 : S8x256x32x32.ReducesTo [2, 3] S8x256
  h_S_ : 0 < S_.numel
  bcast_S8x256_S8x256x1x1_0_1 : S8x256.BroadcastsInDim S8x256x1x1 (![0, 1] : Fin 2 → Fin S8x256x1x1.rank)
  bcast_S8x256x1x1_S8x256x32x32_0_1_2_3 : S8x256x1x1.BroadcastsInDim S8x256x32x32 (![0, 1, 2, 3] : Fin 4 → Fin S8x256x32x32.rank)
  bcast_S8x1_S8x1x1x1_0_1 : S8x1.BroadcastsInDim S8x1x1x1 (![0, 1] : Fin 2 → Fin S8x1x1x1.rank)
  bcast_S8x1x1x1_S8x256x32x32_0_1_2_3 : S8x1x1x1.BroadcastsInDim S8x256x32x32 (![0, 1, 2, 3] : Fin 4 → Fin S8x256x32x32.rank)
  slices_S5x16x256_S1x16x256_3_0_0 : S5x16x256.Slices ![3, 0, 0] S1x16x256
  slices_S5x16_S1x16_3_0 : S5x16.Slices ![3, 0] S1x16
  slices_S5x256x16_S1x256x16_3_0_0 : S5x256x16.Slices ![3, 0, 0] S1x256x16
  slices_S5x256_S1x256_3_0 : S5x256.Slices ![3, 0] S1x256
  slices_S5x1x16_S1x1x16_3_0_0 : S5x1x16.Slices ![3, 0, 0] S1x1x16
  slices_S5x1_S1x1_3_0 : S5x1.Slices ![3, 0] S1x1
  reducesTo_S8x256x16x16_S8x256_d2_3 : S8x256x16x16.ReducesTo [2, 3] S8x256
  bcast_S8x256x1x1_S8x256x16x16_0_1_2_3 : S8x256x1x1.BroadcastsInDim S8x256x16x16 (![0, 1, 2, 3] : Fin 4 → Fin S8x256x16x16.rank)
  bcast_S8x1x1x1_S8x256x16x16_0_1_2_3 : S8x1x1x1.BroadcastsInDim S8x256x16x16 (![0, 1, 2, 3] : Fin 4 → Fin S8x256x16x16.rank)
  slices_S5x16x256_S1x16x256_4_0_0 : S5x16x256.Slices ![4, 0, 0] S1x16x256
  slices_S5x16_S1x16_4_0 : S5x16.Slices ![4, 0] S1x16
  slices_S5x256x16_S1x256x16_4_0_0 : S5x256x16.Slices ![4, 0, 0] S1x256x16
  slices_S5x256_S1x256_4_0 : S5x256.Slices ![4, 0] S1x256
  slices_S5x1x16_S1x1x16_4_0_0 : S5x1x16.Slices ![4, 0, 0] S1x1x16
  slices_S5x1_S1x1_4_0 : S5x1.Slices ![4, 0] S1x1
  reducesTo_S8x256x8x8_S8x256_d2_3 : S8x256x8x8.ReducesTo [2, 3] S8x256
  bcast_S8x256x1x1_S8x256x8x8_0_1_2_3 : S8x256x1x1.BroadcastsInDim S8x256x8x8 (![0, 1, 2, 3] : Fin 4 → Fin S8x256x8x8.rank)
  bcast_S8x1x1x1_S8x256x8x8_0_1_2_3 : S8x1x1x1.BroadcastsInDim S8x256x8x8 (![0, 1, 2, 3] : Fin 4 → Fin S8x256x8x8.rank)
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  dot_S8x16_S16x1_S8x1_1_0_0_1_n_n_wf : DotDims.WF S8x16 S16x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x16x128.size a ≤ S8x256x128x128.size a
  hwx0_0 : ∀ i : grid0.Coords, EltTy.bits .f32 = 32 ∨ (Rect.block (s := S8x256x128x128) S8x128x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x256.size a
  hwx0_1 : ∀ i : grid0.Coords, EltTy.bits .f32 = 32 ∨ (Rect.block (s := S8x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x8x128.size a ≤ S8x256x128x128.size a
  hwx1_0 : ∀ i : grid1.Coords, EltTy.bits .f32 = 32 ∨ (Rect.block (s := S8x256x128x128) S8x256x8x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256.size a ≤ S8x256.size a
  hwx1_1 : ∀ i : grid1.Coords, EltTy.bits .f32 = 32 ∨ (Rect.block (s := S8x256) S8x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S8x1.size a
  hwx1_2 : ∀ i : grid1.Coords, EltTy.bits .f32 = 32 ∨ (Rect.block (s := S8x1) S8x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x8x128.size a ≤ S8x256x128x128.size a
  hwx1_3 : ∀ i : grid1.Coords, EltTy.bits .f32 = 32 ∨ (Rect.block (s := S8x256x128x128) S8x256x8x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x128x16x64.size a ≤ S8x256x64x64.size a
  hwx2_0 : ∀ i : grid2.Coords, EltTy.bits .f32 = 32 ∨ (Rect.block (s := S8x256x64x64) S8x128x16x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x128.size a ≤ S8x256.size a
  hwx2_1 : ∀ i : grid2.Coords, EltTy.bits .f32 = 32 ∨ (Rect.block (s := S8x256) S8x128.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x256x8x64.size a ≤ S8x256x64x64.size a
  hwx3_0 : ∀ i : grid3.Coords, EltTy.bits .f32 = 32 ∨ (Rect.block (s := S8x256x64x64) S8x256x8x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x256.size a ≤ S8x256.size a
  hwx3_1 : ∀ i : grid3.Coords, EltTy.bits .f32 = 32 ∨ (Rect.block (s := S8x256) S8x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x1.size a ≤ S8x1.size a
  hwx3_2 : ∀ i : grid3.Coords, EltTy.bits .f32 = 32 ∨ (Rect.block (s := S8x1) S8x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x256x8x64.size a ≤ S8x256x64x64.size a
  hwx3_3 : ∀ i : grid3.Coords, EltTy.bits .f32 = 32 ∨ (Rect.block (s := S8x256x64x64) S8x256x8x64.size (cc3_transform_3 i) (hinb3_3 i)).WholeWords (EltTy.packing .f32)

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

abbrev win0_0 : Pipeline.Window sig grid0 :=
  Pipeline.Window.ofSpec (Memref.whole main_arg0) S8x128x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8x256x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S8x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S8x256x8x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S8x128x16x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S8x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_arg1) S8x256x8x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S8x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S8x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S8x256x8x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x256x128x128 : Shape := ⟨4, ![8, 256, 128, 128]⟩
abbrev S8x256x64x64 : Shape := ⟨4, ![8, 256, 64, 64]⟩
abbrev S8x256x32x32 : Shape := ⟨4, ![8, 256, 32, 32]⟩
abbrev S8x256x16x16 : Shape := ⟨4, ![8, 256, 16, 16]⟩
abbrev S8x256x8x8 : Shape := ⟨4, ![8, 256, 8, 8]⟩
abbrev S5x16x256 : Shape := ⟨3, ![5, 16, 256]⟩
abbrev S5x16 : Shape := ⟨2, ![5, 16]⟩
abbrev S5x256x16 : Shape := ⟨3, ![5, 256, 16]⟩
abbrev S5x256 : Shape := ⟨2, ![5, 256]⟩
abbrev S5x1x16 : Shape := ⟨3, ![5, 1, 16]⟩
abbrev S5x1 : Shape := ⟨2, ![5, 1]⟩
abbrev S1x16x256 : Shape := ⟨3, ![1, 16, 256]⟩
abbrev S16x256 : Shape := ⟨2, ![16, 256]⟩
abbrev S1x16 : Shape := ⟨2, ![1, 16]⟩
abbrev S16 : Shape := ⟨1, ![16]⟩
abbrev S1x256x16 : Shape := ⟨3, ![1, 256, 16]⟩
abbrev S256x16 : Shape := ⟨2, ![256, 16]⟩
abbrev S1x256 : Shape := ⟨2, ![1, 256]⟩
abbrev S256 : Shape := ⟨1, ![256]⟩
abbrev S1x1x16 : Shape := ⟨3, ![1, 1, 16]⟩
abbrev S1x1 : Shape := ⟨2, ![1, 1]⟩
abbrev S1 : Shape := ⟨1, ![1]⟩
abbrev S_ : Shape := ⟨0, ![]⟩
abbrev S8x256 : Shape := ⟨2, ![8, 256]⟩
abbrev S8x16 : Shape := ⟨2, ![8, 16]⟩
abbrev S16x1 : Shape := ⟨2, ![16, 1]⟩
abbrev S8x1 : Shape := ⟨2, ![8, 1]⟩
abbrev S8x256x1x1 : Shape := ⟨4, ![8, 256, 1, 1]⟩
abbrev S8x1x1x1 : Shape := ⟨4, ![8, 1, 1, 1]⟩

abbrev nBuf : Space → Nat
  | .hbm => 206
  | .vmem => 0
  | .smem => 0
  | _ => 0

abbrev hbmTy0_0 (i : Nat) : BufTy := match i % 128 with
  | 0 => ⟨S8x256x128x128, .f32⟩
  | 1 => ⟨S8x256x64x64, .f32⟩
  | 2 => ⟨S8x256x32x32, .f32⟩
  | 3 => ⟨S8x256x16x16, .f32⟩
  | 4 => ⟨S8x256x8x8, .f32⟩
  | 5 => ⟨S5x16x256, .f32⟩
  | 6 => ⟨S5x16, .f32⟩
  | 7 => ⟨S5x256x16, .f32⟩
  | 8 => ⟨S5x256, .f32⟩
  | 9 => ⟨S5x1x16, .f32⟩
  | 10 => ⟨S5x1, .f32⟩
  | 11 => ⟨S1x16x256, .f32⟩
  | 12 => ⟨S16x256, .f32⟩
  | 13 => ⟨S1x16, .f32⟩
  | 14 => ⟨S16, .f32⟩
  | 15 => ⟨S1x256x16, .f32⟩
  | 16 => ⟨S256x16, .f32⟩
  | 17 => ⟨S1x256, .f32⟩
  | 18 => ⟨S256, .f32⟩
  | 19 => ⟨S1x1x16, .f32⟩
  | 20 => ⟨S1x16, .f32⟩
  | 21 => ⟨S1x1, .f32⟩
  | 22 => ⟨S1, .f32⟩
  | 23 => ⟨S_, .f32⟩
  | 24 => ⟨S8x256, .f32⟩
  | 25 => ⟨S_, .f32⟩
  | 26 => ⟨S8x256, .f32⟩
  | 27 => ⟨S8x256, .f32⟩
  | 28 => ⟨S256x16, .f32⟩
  | 29 => ⟨S8x16, .f32⟩
  | 30 => ⟨S1x16, .f32⟩
  | 31 => ⟨S8x16, .f32⟩
  | 32 => ⟨S8x16, .f32⟩
  | 33 => ⟨S16x256, .f32⟩
  | 34 => ⟨S8x256, .f32⟩
  | 35 => ⟨S1x256, .f32⟩
  | 36 => ⟨S8x256, .f32⟩
  | 37 => ⟨S8x256, .f32⟩
  | 38 => ⟨S16x1, .f32⟩
  | 39 => ⟨S8x1, .f32⟩
  | 40 => ⟨S1x1, .f32⟩
  | 41 => ⟨S8x1, .f32⟩
  | 42 => ⟨S8x1, .f32⟩
  | 43 => ⟨S8x256x1x1, .f32⟩
  | 44 => ⟨S8x256x128x128, .f32⟩
  | 45 => ⟨S8x256x128x128, .f32⟩
  | 46 => ⟨S8x256x128x128, .f32⟩
  | 47 => ⟨S8x1x1x1, .f32⟩
  | 48 => ⟨S8x256x128x128, .f32⟩
  | 49 => ⟨S8x256x128x128, .f32⟩
  | 50 => ⟨S1x16x256, .f32⟩
  | 51 => ⟨S16x256, .f32⟩
  | 52 => ⟨S1x16, .f32⟩
  | 53 => ⟨S16, .f32⟩
  | 54 => ⟨S1x256x16, .f32⟩
  | 55 => ⟨S256x16, .f32⟩
  | 56 => ⟨S1x256, .f32⟩
  | 57 => ⟨S256, .f32⟩
  | 58 => ⟨S1x1x16, .f32⟩
  | 59 => ⟨S1x16, .f32⟩
  | 60 => ⟨S1x1, .f32⟩
  | 61 => ⟨S1, .f32⟩
  | 62 => ⟨S_, .f32⟩
  | 63 => ⟨S8x256, .f32⟩
  | 64 => ⟨S_, .f32⟩
  | 65 => ⟨S8x256, .f32⟩
  | 66 => ⟨S8x256, .f32⟩
  | 67 => ⟨S256x16, .f32⟩
  | 68 => ⟨S8x16, .f32⟩
  | 69 => ⟨S1x16, .f32⟩
  | 70 => ⟨S8x16, .f32⟩
  | 71 => ⟨S8x16, .f32⟩
  | 72 => ⟨S16x256, .f32⟩
  | 73 => ⟨S8x256, .f32⟩
  | 74 => ⟨S1x256, .f32⟩
  | 75 => ⟨S8x256, .f32⟩
  | 76 => ⟨S8x256, .f32⟩
  | 77 => ⟨S16x1, .f32⟩
  | 78 => ⟨S8x1, .f32⟩
  | 79 => ⟨S1x1, .f32⟩
  | 80 => ⟨S8x1, .f32⟩
  | 81 => ⟨S8x1, .f32⟩
  | 82 => ⟨S8x256x1x1, .f32⟩
  | 83 => ⟨S8x256x64x64, .f32⟩
  | 84 => ⟨S8x256x64x64, .f32⟩
  | 85 => ⟨S8x256x64x64, .f32⟩
  | 86 => ⟨S8x1x1x1, .f32⟩
  | 87 => ⟨S8x256x64x64, .f32⟩
  | 88 => ⟨S8x256x64x64, .f32⟩
  | 89 => ⟨S1x16x256, .f32⟩
  | 90 => ⟨S16x256, .f32⟩
  | 91 => ⟨S1x16, .f32⟩
  | 92 => ⟨S16, .f32⟩
  | 93 => ⟨S1x256x16, .f32⟩
  | 94 => ⟨S256x16, .f32⟩
  | 95 => ⟨S1x256, .f32⟩
  | 96 => ⟨S256, .f32⟩
  | 97 => ⟨S1x1x16, .f32⟩
  | 98 => ⟨S1x16, .f32⟩
  | 99 => ⟨S1x1, .f32⟩
  | 100 => ⟨S1, .f32⟩
  | 101 => ⟨S_, .f32⟩
  | 102 => ⟨S8x256, .f32⟩
  | 103 => ⟨S_, .f32⟩
  | 104 => ⟨S8x256, .f32⟩
  | 105 => ⟨S8x256, .f32⟩
  | 106 => ⟨S256x16, .f32⟩
  | 107 => ⟨S8x16, .f32⟩
  | 108 => ⟨S1x16, .f32⟩
  | 109 => ⟨S8x16, .f32⟩
  | 110 => ⟨S8x16, .f32⟩
  | 111 => ⟨S16x256, .f32⟩
  | 112 => ⟨S8x256, .f32⟩
  | 113 => ⟨S1x256, .f32⟩
  | 114 => ⟨S8x256, .f32⟩
  | 115 => ⟨S8x256, .f32⟩
  | 116 => ⟨S16x1, .f32⟩
  | 117 => ⟨S8x1, .f32⟩
  | 118 => ⟨S1x1, .f32⟩
  | 119 => ⟨S8x1, .f32⟩
  | 120 => ⟨S8x1, .f32⟩
  | 121 => ⟨S8x256x1x1, .f32⟩
  | 122 => ⟨S8x256x32x32, .f32⟩
  | 123 => ⟨S8x256x32x32, .f32⟩
  | 124 => ⟨S8x256x32x32, .f32⟩
  | 125 => ⟨S8x1x1x1, .f32⟩
  | 126 => ⟨S8x256x32x32, .f32⟩
  | 127 => ⟨S8x256x32x32, .f32⟩
  | _ => ⟨S8x256x128x128, .f32⟩

abbrev hbmTy0_1 (i : Nat) : BufTy := match i % 128 with
  | 0 => ⟨S1x16x256, .f32⟩
  | 1 => ⟨S16x256, .f32⟩
  | 2 => ⟨S1x16, .f32⟩
  | 3 => ⟨S16, .f32⟩
  | 4 => ⟨S1x256x16, .f32⟩
  | 5 => ⟨S256x16, .f32⟩
  | 6 => ⟨S1x256, .f32⟩
  | 7 => ⟨S256, .f32⟩
  | 8 => ⟨S1x1x16, .f32⟩
  | 9 => ⟨S1x16, .f32⟩
  | 10 => ⟨S1x1, .f32⟩
  | 11 => ⟨S1, .f32⟩
  | 12 => ⟨S_, .f32⟩
  | 13 => ⟨S8x256, .f32⟩
  | 14 => ⟨S_, .f32⟩
  | 15 => ⟨S8x256, .f32⟩
  | 16 => ⟨S8x256, .f32⟩
  | 17 => ⟨S256x16, .f32⟩
  | 18 => ⟨S8x16, .f32⟩
  | 19 => ⟨S1x16, .f32⟩
  | 20 => ⟨S8x16, .f32⟩
  | 21 => ⟨S8x16, .f32⟩
  | 22 => ⟨S16x256, .f32⟩
  | 23 => ⟨S8x256, .f32⟩
  | 24 => ⟨S1x256, .f32⟩
  | 25 => ⟨S8x256, .f32⟩
  | 26 => ⟨S8x256, .f32⟩
  | 27 => ⟨S16x1, .f32⟩
  | 28 => ⟨S8x1, .f32⟩
  | 29 => ⟨S1x1, .f32⟩
  | 30 => ⟨S8x1, .f32⟩
  | 31 => ⟨S8x1, .f32⟩
  | 32 => ⟨S8x256x1x1, .f32⟩
  | 33 => ⟨S8x256x16x16, .f32⟩
  | 34 => ⟨S8x256x16x16, .f32⟩
  | 35 => ⟨S8x256x16x16, .f32⟩
  | 36 => ⟨S8x1x1x1, .f32⟩
  | 37 => ⟨S8x256x16x16, .f32⟩
  | 38 => ⟨S8x256x16x16, .f32⟩
  | 39 => ⟨S1x16x256, .f32⟩
  | 40 => ⟨S16x256, .f32⟩
  | 41 => ⟨S1x16, .f32⟩
  | 42 => ⟨S16, .f32⟩
  | 43 => ⟨S1x256x16, .f32⟩
  | 44 => ⟨S256x16, .f32⟩
  | 45 => ⟨S1x256, .f32⟩
  | 46 => ⟨S256, .f32⟩
  | 47 => ⟨S1x1x16, .f32⟩
  | 48 => ⟨S1x16, .f32⟩
  | 49 => ⟨S1x1, .f32⟩
  | 50 => ⟨S1, .f32⟩
  | 51 => ⟨S_, .f32⟩
  | 52 => ⟨S8x256, .f32⟩
  | 53 => ⟨S_, .f32⟩
  | 54 => ⟨S8x256, .f32⟩
  | 55 => ⟨S8x256, .f32⟩
  | 56 => ⟨S256x16, .f32⟩
  | 57 => ⟨S8x16, .f32⟩
  | 58 => ⟨S1x16, .f32⟩
  | 59 => ⟨S8x16, .f32⟩
  | 60 => ⟨S8x16, .f32⟩
  | 61 => ⟨S16x256, .f32⟩
  | 62 => ⟨S8x256, .f32⟩
  | 63 => ⟨S1x256, .f32⟩
  | 64 => ⟨S8x256, .f32⟩
  | 65 => ⟨S8x256, .f32⟩
  | 66 => ⟨S16x1, .f32⟩
  | 67 => ⟨S8x1, .f32⟩
  | 68 => ⟨S1x1, .f32⟩
  | 69 => ⟨S8x1, .f32⟩
  | 70 => ⟨S8x1, .f32⟩
  | 71 => ⟨S8x256x1x1, .f32⟩
  | 72 => ⟨S8x256x8x8, .f32⟩
  | 73 => ⟨S8x256x8x8, .f32⟩
  | 74 => ⟨S8x256x8x8, .f32⟩
  | 75 => ⟨S8x1x1x1, .f32⟩
  | 76 => ⟨S8x256x8x8, .f32⟩
  | 77 => ⟨S8x256x8x8, .f32⟩
  | _ => ⟨S8x256x128x128, .f32⟩

abbrev hbmTy (i : Nat) : BufTy := match i / 128 with
  | 0 => hbmTy0_0 i
  | 1 => hbmTy0_1 i
  | _ => ⟨S8x256x128x128, .f32⟩

abbrev bufTy : (tb : Table) → Fin (tcTables nBuf tb) → BufTy
  | .hbm, ⟨i, _⟩ => hbmTy i
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_1 : Ref sig .tc := ⟨.hbm, 62, rfl⟩
abbrev main_v49 : Ref sig .tc := ⟨.hbm, 63, rfl⟩
abbrev main_cst_2 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_3 : Ref sig .tc := ⟨.hbm, 101, rfl⟩
abbrev main_v86 : Ref sig .tc := ⟨.hbm, 102, rfl⟩
abbrev main_cst_4 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_5 : Ref sig .tc := ⟨.hbm, 140, rfl⟩
abbrev main_v123 : Ref sig .tc := ⟨.hbm, 141, rfl⟩
abbrev main_cst_6 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_cst_7 : Ref sig .tc := ⟨.hbm, 179, rfl⟩
abbrev main_v160 : Ref sig .tc := ⟨.hbm, 180, rfl⟩
abbrev main_cst_8 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩

abbrev nD : Nat := 1
abbrev τ : Topo := Topo.v7x

variable {F : FTy → Type} [FloatOps F]

class Facts₀ : Prop where
  slices_S5x16x256_S1x16x256_0_0_0 : S5x16x256.Slices ![0, 0, 0] S1x16x256
  shapeCasts_S1x16x256_S16x256 : S1x16x256.ShapeCasts S16x256
  slices_S5x16_S1x16_0_0 : S5x16.Slices ![0, 0] S1x16
  shapeCasts_S1x16_S16 : S1x16.ShapeCasts S16
  slices_S5x256x16_S1x256x16_0_0_0 : S5x256x16.Slices ![0, 0, 0] S1x256x16
  shapeCasts_S1x256x16_S256x16 : S1x256x16.ShapeCasts S256x16
  slices_S5x256_S1x256_0_0 : S5x256.Slices ![0, 0] S1x256
  shapeCasts_S1x256_S256 : S1x256.ShapeCasts S256
  slices_S5x1x16_S1x1x16_0_0_0 : S5x1x16.Slices ![0, 0, 0] S1x1x16
  shapeCasts_S1x1x16_S1x16 : S1x1x16.ShapeCasts S1x16
  slices_S5x1_S1x1_0_0 : S5x1.Slices ![0, 0] S1x1
  shapeCasts_S1x1_S1 : S1x1.ShapeCasts S1
  reducesTo_S8x256x128x128_S8x256_d2_3 : S8x256x128x128.ReducesTo [2, 3] S8x256
  h_S_ : 0 < S_.numel
  bcast_S_S8x256 : S_.BroadcastsInDim S8x256 (![] : Fin 0 → Fin S8x256.rank)
  transposes_S16x256_S256x16_1_0 : S16x256.Transposes [1, 0] S256x16
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  transposes_S256x16_S16x256_1_0 : S256x16.Transposes [1, 0] S16x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S8x256_S8x256x1x1_0_1 : S8x256.BroadcastsInDim S8x256x1x1 (![0, 1] : Fin 2 → Fin S8x256x1x1.rank)
  bcast_S8x256x1x1_S8x256x128x128_0_1_2_3 : S8x256x1x1.BroadcastsInDim S8x256x128x128 (![0, 1, 2, 3] : Fin 4 → Fin S8x256x128x128.rank)
  bcast_S8x1_S8x1x1x1_0_1 : S8x1.BroadcastsInDim S8x1x1x1 (![0, 1] : Fin 2 → Fin S8x1x1x1.rank)
  bcast_S8x1x1x1_S8x256x128x128_0_1_2_3 : S8x1x1x1.BroadcastsInDim S8x256x128x128 (![0, 1, 2, 3] : Fin 4 → Fin S8x256x128x128.rank)
  slices_S5x16x256_S1x16x256_1_0_0 : S5x16x256.Slices ![1, 0, 0] S1x16x256
  slices_S5x16_S1x16_1_0 : S5x16.Slices ![1, 0] S1x16
  slices_S5x256x16_S1x256x16_1_0_0 : S5x256x16.Slices ![1, 0, 0] S1x256x16
  slices_S5x256_S1x256_1_0 : S5x256.Slices ![1, 0] S1x256
  slices_S5x1x16_S1x1x16_1_0_0 : S5x1x16.Slices ![1, 0, 0] S1x1x16
  slices_S5x1_S1x1_1_0 : S5x1.Slices ![1, 0] S1x1
  reducesTo_S8x256x64x64_S8x256_d2_3 : S8x256x64x64.ReducesTo [2, 3] S8x256
  bcast_S8x256x1x1_S8x256x64x64_0_1_2_3 : S8x256x1x1.BroadcastsInDim S8x256x64x64 (![0, 1, 2, 3] : Fin 4 → Fin S8x256x64x64.rank)
  bcast_S8x1x1x1_S8x256x64x64_0_1_2_3 : S8x1x1x1.BroadcastsInDim S8x256x64x64 (![0, 1, 2, 3] : Fin 4 → Fin S8x256x64x64.rank)
  slices_S5x16x256_S1x16x256_2_0_0 : S5x16x256.Slices ![2, 0, 0] S1x16x256
  slices_S5x16_S1x16_2_0 : S5x16.Slices ![2, 0] S1x16
  slices_S5x256x16_S1x256x16_2_0_0 : S5x256x16.Slices ![2, 0, 0] S1x256x16
  slices_S5x256_S1x256_2_0 : S5x256.Slices ![2, 0] S1x256
  slices_S5x1x16_S1x1x16_2_0_0 : S5x1x16.Slices ![2, 0, 0] S1x1x16
  slices_S5x1_S1x1_2_0 : S5x1.Slices ![2, 0] S1x1
  reducesTo_S8x256x32x32_S8x256_d2_3 : S8x256x32x32.ReducesTo [2, 3] S8x256
  bcast_S8x256x1x1_S8x256x32x32_0_1_2_3 : S8x256x1x1.BroadcastsInDim S8x256x32x32 (![0, 1, 2, 3] : Fin 4 → Fin S8x256x32x32.rank)
  bcast_S8x1x1x1_S8x256x32x32_0_1_2_3 : S8x1x1x1.BroadcastsInDim S8x256x32x32 (![0, 1, 2, 3] : Fin 4 → Fin S8x256x32x32.rank)
  slices_S5x16x256_S1x16x256_3_0_0 : S5x16x256.Slices ![3, 0, 0] S1x16x256
  slices_S5x16_S1x16_3_0 : S5x16.Slices ![3, 0] S1x16
  slices_S5x256x16_S1x256x16_3_0_0 : S5x256x16.Slices ![3, 0, 0] S1x256x16
  slices_S5x256_S1x256_3_0 : S5x256.Slices ![3, 0] S1x256
  slices_S5x1x16_S1x1x16_3_0_0 : S5x1x16.Slices ![3, 0, 0] S1x1x16
  slices_S5x1_S1x1_3_0 : S5x1.Slices ![3, 0] S1x1
  reducesTo_S8x256x16x16_S8x256_d2_3 : S8x256x16x16.ReducesTo [2, 3] S8x256
  bcast_S8x256x1x1_S8x256x16x16_0_1_2_3 : S8x256x1x1.BroadcastsInDim S8x256x16x16 (![0, 1, 2, 3] : Fin 4 → Fin S8x256x16x16.rank)
  bcast_S8x1x1x1_S8x256x16x16_0_1_2_3 : S8x1x1x1.BroadcastsInDim S8x256x16x16 (![0, 1, 2, 3] : Fin 4 → Fin S8x256x16x16.rank)
  slices_S5x16x256_S1x16x256_4_0_0 : S5x16x256.Slices ![4, 0, 0] S1x16x256
  slices_S5x16_S1x16_4_0 : S5x16.Slices ![4, 0] S1x16
  slices_S5x256x16_S1x256x16_4_0_0 : S5x256x16.Slices ![4, 0, 0] S1x256x16
  slices_S5x256_S1x256_4_0 : S5x256.Slices ![4, 0] S1x256
  slices_S5x1x16_S1x1x16_4_0_0 : S5x1x16.Slices ![4, 0, 0] S1x1x16
  slices_S5x1_S1x1_4_0 : S5x1.Slices ![4, 0] S1x1
  reducesTo_S8x256x8x8_S8x256_d2_3 : S8x256x8x8.ReducesTo [2, 3] S8x256
  bcast_S8x256x1x1_S8x256x8x8_0_1_2_3 : S8x256x1x1.BroadcastsInDim S8x256x8x8 (![0, 1, 2, 3] : Fin 4 → Fin S8x256x8x8.rank)
  bcast_S8x1x1x1_S8x256x8x8_0_1_2_3 : S8x1x1x1.BroadcastsInDim S8x256x8x8 (![0, 1, 2, 3] : Fin 4 → Fin S8x256x8x8.rank)
  dot_S8x256_S256x16_S8x16_1_0_0_1_n_n_wf : DotDims.WF S8x256 S256x16 S8x16 [1] [0] [0] [1] [] []
  dot_S8x16_S16x256_S8x256_1_0_0_1_n_n_wf : DotDims.WF S8x16 S16x256 S8x256 [1] [0] [0] [1] [] []
  dot_S8x16_S16x1_S8x1_1_0_0_1_n_n_wf : DotDims.WF S8x16 S16x1 S8x1 [1] [0] [0] [1] [] []

variable [Facts₀]

def dot_S8x256_S256x16_S8x16_1_0_0_1_n_n : DotDims S8x256 S256x16 S8x16 where
  lhsContracting := [1]
  rhsContracting := [0]
  lhsNonContracting := [0]
  rhsNonContracting := [1]
  lhsBatch := []
  rhsBatch := []
  wf := dot_S8x256_S256x16_S8x16_1_0_0_1_n_n_wf
def dot_S8x16_S16x256_S8x256_1_0_0_1_n_n : DotDims S8x16 S16x256 S8x256 where
  lhsContracting := [1]
  rhsContracting := [0]
  lhsNonContracting := [0]
  rhsNonContracting := [1]
  lhsBatch := []
  rhsBatch := []
  wf := dot_S8x16_S16x256_S8x256_1_0_0_1_n_n_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

class Facts : Prop extends Facts₀ where

variable [Facts]
-- ==== Proof.KernelRun.lean ====
/-
  The idealized kernel's run with every buffer's final contents kept.

  @main is nine segments: five stretches of host operations around four kernel regions. The contents of the
  TensorCore's buffers at each boundary are a fold from the launch memory: a host stretch applies its operations,
  a region replaces each of its arrays by what its write-backs leave and keeps every other buffer. The last
  boundary's contents are `Gen.W9 m ρ c`. Every weakly fair execution terminates, nothing faulting, and every
  buffer that outlives the regions ends at those contents: the same launch over the same segments as the frame
  claim, with the whole final valuation kept instead of only the argument arrays.
-/
import proofs.«181703_j51951924413004_2_alg».proof.Proof.Gen.KernelIdeal.Frame

set_option maxRecDepth 16384

noncomputable section

namespace Cert.KernelIdeal.Values

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every unscoped buffer of every core ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same at one TensorCore buffer that outlives the regions. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  (θ_run defs _ _).mono (fun _ h c b hb => h c _ (mem_uc b hb)) (run_all m ρ)

end Cert.KernelIdeal.Values

end
-- ==== Proof.Spec.lean ====
/-
  What every level of the pyramid computes, index by index on the extended reals.

  A level takes an activation array x of shape [8, 256, H, W]. Its POOLED array sums x over the two spatial axes,
  one entry per (batch, channel). Two small dense layers turn the pooled means into a per-(batch, channel) gate f2
  of shape [8, 256] and a per-batch offset f3 of shape [8, 1]; the level's result is x + x * f2 + f3, the gate and
  the offset constant along the spatial axes.  Only the pooled sum and the gated result are stated here: the dense
  layers in between are the same host operations in both programs and are never opened.
-/
import Idealize.ShloMosaic.PureOps.Ideal
import Idealize.ShloMosaic.Lib.ValueIdx

noncomputable section

open scoped BigOperators

namespace Cert.Level

open Idealize.ShloMosaic Idealize.ShloMosaic.ValueIdx

/-- The sum of `x` over its two spatial axes: entry (b, ch) is the double sum over rows and columns. -/
def pooled {H W : Nat} (x : (⟨4, ![8, 256, H, W]⟩ : Shape).Idx → EReal) : (⟨2, ![8, 256]⟩ : Shape).Idx → EReal :=
  fun j => ∑ h : Fin H, ∑ w : Fin W, x (ix4 (j 0) (j 1) h w)

/-- The gated result: entry (b, ch, h, w) is x + x * f2 (b, ch) + f3 (b, 0). -/
def gated {H W : Nat} (x : (⟨4, ![8, 256, H, W]⟩ : Shape).Idx → EReal) (f2 : (⟨2, ![8, 256]⟩ : Shape).Idx → EReal)
    (f3 : (⟨2, ![8, 1]⟩ : Shape).Idx → EReal) : (⟨4, ![8, 256, H, W]⟩ : Shape).Idx → EReal :=
  fun i => x i + x i * f2 (ix2 (i 0) (i 1)) + f3 (ix2 (i 0) 0)

/-- `pooled` at an entry given by its coordinates: every coordinate has a literal `Fin` type here, so this form can be
    rewritten with where the definition's `j 0`, `j 1` cannot. -/
theorem pooled_apply {H W : Nat} (x : (⟨4, ![8, 256, H, W]⟩ : Shape).Idx → EReal) (b : Fin 8) (ch : Fin 256) :
    pooled x (ix2 b ch) = ∑ h : Fin H, ∑ w : Fin W, x (ix4 b ch h w) := rfl

/-- `gated` at an entry given by its coordinates. -/
theorem gated_apply {H W : Nat} (x : (⟨4, ![8, 256, H, W]⟩ : Shape).Idx → EReal) (f2 : (⟨2, ![8, 256]⟩ : Shape).Idx → EReal)
    (f3 : (⟨2, ![8, 1]⟩ : Shape).Idx → EReal) (b : Fin 8) (ch : Fin 256) (h : Fin H) (w : Fin W) :
    gated x f2 f3 (ix4 b ch h w) = x (ix4 b ch h w) + x (ix4 b ch h w) * f2 (ix2 b ch) + f3 (ix2 b 0) := rfl

end Cert.Level

end
-- ==== Proof.PoolLevel0.lean ====
/-
  The pooled sums of one level, read off the first pooling region: the array the region leaves in its result buffer
  is, entry by entry, the sum of the level's activation array over its two spatial axes.

  The activation array x has shape [8, 256, 128, 128]. The region walks a grid of 2 × 8 points; point t = 8·g + r
  (g the channel half, r the row tile) sees the block of x with channels 128·g … 128·g + 127 and rows
  16·r … 16·r + 15, all 128 columns, and one [8, 128] block of the result that stays in place over the 8 points of
  a half. At the first point of a half the block is set to zero; at every point the body adds to entry (p, q) of the
  block the sum of the input block over its 16 rows and 128 columns at (p, q). After the last point of a half the block
  therefore holds, at (p, q), the sum over the 8 row tiles of the tile sums, which is the sum over all 128 rows and
  128 columns of x at batch p and channel 128·g + q; that block is then written to channels 128·g … 128·g + 127 of
  the result, and the two halves together fill it.

  Everything is read on the extended reals, where addition is commutative and associative and the zero word is 0;
  no entry has to be finite.
-/
import proofs.«181703_j51951924413004_2_alg».proof.Proof.Gen.KernelIdeal.Frame
import proofs.«181703_j51951924413004_2_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.PoolValue0

open Cert.KernelIdeal Cert.KernelIdeal.Gen

/-! ## What one run of the body leaves in the result block -/

section Pieces
variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a point that is not the first of its half the body leaves, in the result block holding `xo`, the block
    `xo` plus the double reduction of the input block `x`: its one store covers the block, and both of its loads
    read whole buffers. -/
theorem out_B (c : Dev nD) (i : grid0.Coords) (a2 : Memref sig .tc .vmem S8x128x16x128 .f32) (h2 : a2.IsWhole)
    (a3 : Memref sig .tc .vmem S8x128 .f32) (h3 : a3.IsWhole) (hc : ¬cond0_0 i)
    (x : Vec F S8x128x16x128 .f32) (xo : Vec F S8x128 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S8x128x16x128) hz4,
    View.ld_unit_zero (S := S8x128) hz2]

/-- At the first point of a half the body first stores the zero block, reads it back, and leaves the zero block plus
    the double reduction of the input block `x`. -/
theorem out_A (c : Dev nD) (i : grid0.Coords) (a2 : Memref sig .tc .vmem S8x128x16x128 .f32) (h2 : a2.IsWhole)
    (a3 : Memref sig .tc .vmem S8x128 .f32) (h3 : a3.IsWhole) (hc : cond0_0 i)
    (x : Vec F S8x128x16x128 .f32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S8x128x16x128) hz4,
    View.ld_unit_zero (S := S8x128) hz2]

end Pieces

/-! ## The body's arithmetic at an entry, on the extended reals -/

/-- Entry (p, q) of what the body stores: the entry of the block it found, plus the sum of the input block over its
    16 rows and 128 columns at (p, q) — the reduction over the columns, then the one over the rows, each a finite sum
    over the reduced axis. -/
theorem pay2_apply (x : Vec Ideal S8x128x16x128 .f32) (xo : Vec Ideal S8x128 .f32) (p : Fin 8) (q : Fin 128) :
    k0_pay2 (F := Ideal) x xo (ix2 p q) = xo (ix2 p q) + ∑ hh : Fin 16, ∑ w : Fin 128, x (ix4 p q hh w) := by
  unfold k0_pay2
  refine congrArg₂ (· + ·) (congrFun (shapeCast_self xo _) (ix2 p q)) ?_
  refine (Ideal.multiReduction_add_single _ _ _ _ _ (ix2 p q)).trans ?_
  refine Finset.sum_congr rfl fun hh _ => ?_
  refine (Ideal.multiReduction_add_single _ _ _ _ _ _).trans ?_
  refine Finset.sum_congr rfl fun w _ => ?_
  refine congrArg x (funext fun a => ?_)
  match a with
  | ⟨0, _⟩ => rfl
  | ⟨1, _⟩ => rfl
  | ⟨2, _⟩ => rfl
  | ⟨3, _⟩ => rfl

/-- Every entry of the block stored at the first point of a half is the zero word, which is 0. -/
theorem pay1_apply (p : Fin 8) (q : Fin 128) : k0_pay1 (F := Ideal) (ix2 p q) = 0 := by
  unfold k0_pay1
  exact Ideal.ofBits_zero_f32

/-! ## The blocks in the arrays -/

/-- The block indices over the grid: at point t the input block has channel-half index t / 8 and row-tile index
    t % 8 (index 0 on the batch and column axes), and the result block has channel-half index t / 8. -/
theorem idx_facts : ∀ t : Fin cfg0.N, win0_0.index t (0 : Fin 4) = 0 ∧ win0_0.index t (1 : Fin 4) = t.val / 8
    ∧ win0_0.index t (2 : Fin 4) = t.val % 8 ∧ win0_0.index t (3 : Fin 4) = 0
    ∧ win0_1.index t (0 : Fin 2) = 0 ∧ win0_1.index t (1 : Fin 2) = t.val / 8 :=
  (by decide +kernel : ∀ t : Fin grid0.N, _)

variable (V : (c : Dev nD) → (b : Ref sig .tc) → Buf (Elt Ideal) ((c : Thread nD τ).loc b))

theorem lt_points (t : Fin cfg0.N) : t.val < 16 := lt_of_lt_of_eq t.isLt (show cfg0.N = 16 from N_0)

/-- The activation array as the region finds it, at its literal shape. -/
def arr (c : Dev nD) : S8x256x128x128.Idx → EReal := V c main_arg0

/-- The input block at point t, at its literal shape. -/
def blk (c : Dev nD) (t : Fin cfg0.N) : Vec Ideal S8x128x16x128 .f32 := iblk0 V c 0 t

/-- Entry (p, q, hh, w) of the input block at point t is the array's entry at batch p, channel 128·(t / 8) + q,
    row 16·(t % 8) + hh, column w: on each axis the block's coordinate is the block index times the block's extent
    plus the coordinate inside. -/
theorem blk_apply (c : Dev nD) (t : Fin cfg0.N) (p : Fin 8) (q : Fin 128) (hh : Fin 16) (w : Fin 128) :
    blk V c t (ix4 p q hh w)
      = arr V c
          (ix4 p (⟨128 * (t.val / 8) + q.val, by have := lt_points t; omega⟩ : Fin 256)
            (⟨16 * (t.val % 8) + hh.val, by omega⟩ : Fin 128) w) := by
  obtain ⟨e0, e1, e2, e3, -, -⟩ := idx_facts t
  show arr V c (((cfg0.win 0).blk t).view.emb (ix4 p q hh w)) = _
  refine congrArg _ (funext fun a => Fin.ext ?_)
  match a with
  | ⟨0, _⟩ => show win0_0.index t (0 : Fin 4) * 8 + 1 * p.val = p.val; omega
  | ⟨1, _⟩ => show win0_0.index t (1 : Fin 4) * 128 + 1 * q.val = 128 * (t.val / 8) + q.val; omega
  | ⟨2, _⟩ => show win0_0.index t (2 : Fin 4) * 16 + 1 * hh.val = 16 * (t.val % 8) + hh.val; omega
  | ⟨3, _⟩ => show win0_0.index t (3 : Fin 4) * 128 + 1 * w.val = w.val; omega

/-! ## The running sum over the points of a half -/

/-- At the first point of a half the result block holds, at (p, q), the sum of that point's input block over its
    rows and columns: 0 plus it. -/
theorem stepA (c : Dev nD) (t : Fin cfg0.N) (h0 : t.val % 8 = 0) (p : Fin 8) (q : Fin 128) :
    outsAt0 V c t.val t.isLt (ix2 p q) = ∑ hh : Fin 16, ∑ w : Fin 128, blk V c t (ix4 p q hh w) := by
  rw [outsAt0_A V c t h0]
  refine (congrFun (out_A c (grid0.coords t) (ms0_0 t) (hs0_0 t) (ms0_1 t) (hs0_1 t) ((hcond0_0 t).mpr h0)
    (iblk0 V c 0 t)) (ix2 p q)).trans ?_
  refine (pay2_apply (blk V c t) (k0_pay1 (F := Ideal)) p q).trans ?_
  rw [pay1_apply, zero_add]

/-- At any other point it holds what the point before left plus the sum of this point's input block. -/
theorem stepB (c : Dev nD) (t : Fin cfg0.N) (h0 : ¬t.val % 8 = 0) (p : Fin 8) (q : Fin 128) :
    outsAt0 V c t.val t.isLt (ix2 p q)
      = outsAt0 V c (t.val - 1) (Nat.lt_of_le_of_lt (Nat.sub_le _ _) t.isLt) (ix2 p q)
        + ∑ hh : Fin 16, ∑ w : Fin 128, blk V c t (ix4 p q hh w) := by
  rw [outsAt0_B V c t h0]
  exact (congrFun (out_B c (grid0.coords t) (ms0_0 t) (hs0_0 t) (ms0_1 t) (hs0_1 t)
    (fun h => h0 ((hcond0_0 t).mp h)) (iblk0 V c 0 t)
    (outsAt0 V c (t.val - 1) (Nat.lt_of_le_of_lt (Nat.sub_le _ _) t.isLt))) (ix2 p q)).trans
    (pay2_apply (blk V c t) (outsAt0 V c (t.val - 1) (Nat.lt_of_le_of_lt (Nat.sub_le _ _) t.isLt)) p q)

/-- The sum of the input block at point n over its 16 rows and 128 columns, at entry (p, q); zero past the grid, so
    that it is a function of every natural number. -/
def tileSum (c : Dev nD) (n : ℕ) (p : Fin 8) (q : Fin 128) : EReal :=
  if h : n < cfg0.N then ∑ hh : Fin 16, ∑ w : Fin 128, blk V c ⟨n, h⟩ (ix4 p q hh w) else 0

theorem tileSum_of_lt (c : Dev nD) (n : ℕ) (h : n < cfg0.N) (p : Fin 8) (q : Fin 128) :
    tileSum V c n p q = ∑ hh : Fin 16, ∑ w : Fin 128, blk V c ⟨n, h⟩ (ix4 p q hh w) :=
  dif_pos h

/-- THE RUNNING SUM. After point n the result block holds, at (p, q), the sum of the tile sums of the points
    8·(n / 8), …, n of n's half — by induction on the point: the first point of a half starts the sum, every other
    point adds its own tile sum to what the point before left. -/
theorem outsAt_eq (c : Dev nD) : ∀ (n : ℕ) (h : n < cfg0.N) (p : Fin 8) (q : Fin 128),
    outsAt0 V c n h (ix2 p q) = ∑ s ∈ Finset.range (n % 8 + 1), tileSum V c (8 * (n / 8) + s) p q
  | 0, h, p, q => by
    refine (stepA V c ⟨0, h⟩ rfl p q).trans ?_
    show _ = ∑ s ∈ Finset.range 1, tileSum V c (8 * (0 / 8) + s) p q
    rw [Finset.sum_range_one]
    exact (tileSum_of_lt V c 0 h p q).symm
  | n + 1, h, p, q => by
    have hN : n + 1 < 16 := lt_of_lt_of_eq h (show cfg0.N = 16 from N_0)
    by_cases h0 : (n + 1) % 8 = 0
    · refine (stepA V c ⟨n + 1, h⟩ h0 p q).trans ?_
      have e : 8 * ((n + 1) / 8) + 0 = n + 1 := by omega
      rw [h0, Finset.sum_range_succ, Finset.sum_range_zero, zero_add, e]
      exact (tileSum_of_lt V c (n + 1) h p q).symm
    · have e1 : (n + 1) % 8 = n % 8 + 1 := by omega
      have e2 : (n + 1) / 8 = n / 8 := by omega
      have e3 : 8 * (n / 8) + (n % 8 + 1) = n + 1 := by omega
      refine (stepB V c ⟨n + 1, h⟩ h0 p q).trans ?_
      rw [e1, e2, Finset.sum_range_succ, e3, tileSum_of_lt V c (n + 1) h]
      refine congrArg (· + _) ?_
      exact outsAt_eq c n (Nat.lt_of_succ_lt h) p q

/-! ## The last point of a half: all 128 rows -/

/-- A sum over 128 consecutive rows is the sum over 8 tiles of the sums over each tile's 16 rows: a re-indexing of a
    finite sum in a commutative monoid. -/
theorem sum_tiles {β : Type} [AddCommMonoid β] (g : Fin 128 → β) :
    ∑ r : Fin 128, g r = ∑ s : Fin 8, ∑ hh : Fin 16, g ⟨16 * s.val + hh.val, by omega⟩ := by
  refine (Equiv.sum_comp (finProdFinEquiv (m := 8) (n := 16)) g).symm.trans ?_
  rw [Fintype.sum_prod_type]
  refine Finset.sum_congr rfl fun s _ => Finset.sum_congr rfl fun hh _ => congrArg g (Fin.ext ?_)
  show (finProdFinEquiv (s, hh)).val = 16 * s.val + hh.val
  rw [finProdFinEquiv_apply_val]
  show hh.val + 16 * s.val = 16 * s.val + hh.val
  omega

/-- After the last point t of a half (t % 8 = 7) the result block holds, at (p, q), the sum of the array over all
    128 rows and 128 columns at batch p and channel 128·(t / 8) + q: the 8 tile sums of the half, each read in the
    array, regrouped as one sum over the rows. -/
theorem at_flush (c : Dev nD) (t : Fin cfg0.N) (h7 : t.val % 8 = 7) (p : Fin 8) (q : Fin 128) :
    outsAt0 V c t.val t.isLt (ix2 p q)
      = ∑ r : Fin 128, ∑ w : Fin 128, arr V c
          (ix4 p (⟨128 * (t.val / 8) + q.val, by have := lt_points t; omega⟩ : Fin 256) r w) := by
  have hN := lt_points t
  rw [outsAt_eq V c t.val t.isLt p q, h7]
  show ∑ s ∈ Finset.range 8, tileSum V c (8 * (t.val / 8) + s) p q = _
  rw [Finset.sum_range]
  refine Eq.trans ?_ (sum_tiles fun r => ∑ w : Fin 128, arr V c
    (ix4 p (⟨128 * (t.val / 8) + q.val, by omega⟩ : Fin 256) r w)).symm
  refine Finset.sum_congr rfl fun s _ => ?_
  have hs : s.val < 8 := s.isLt
  have hlt : 8 * (t.val / 8) + s.val < cfg0.N :=
    lt_of_lt_of_eq (by omega : 8 * (t.val / 8) + s.val < 16) (show 16 = cfg0.N from N_0.symm)
  rw [tileSum_of_lt V c _ hlt]
  refine Finset.sum_congr rfl fun hh _ => Finset.sum_congr rfl fun w _ => ?_
  rw [blk_apply V c ⟨8 * (t.val / 8) + s.val, hlt⟩ p q hh w]
  refine congrArg _ (funext fun a => Fin.ext ?_)
  match a with
  | ⟨0, _⟩ => rfl
  | ⟨1, _⟩ => show 128 * ((8 * (t.val / 8) + s.val) / 8) + q.val = 128 * (t.val / 8) + q.val; omega
  | ⟨2, _⟩ => show 16 * ((8 * (t.val / 8) + s.val) % 8) + hh.val = 16 * s.val + hh.val; omega
  | ⟨3, _⟩ => rfl

/-! ## The result array -/

/-- What a point that writes its block back writes: its block of the pooled sums. Such a point is the last of its
    half, entry (p, q) of its block sits at channel 128·(t / 8) + q of the result, and the block holds the full sum
    there. -/
theorem flushed_eq (c : Dev nD) (t : Fin cfg0.N) (hf : (cfg0.win 1).flush t = true) :
    (dat0 V c).flushed 1 t
      = ((cfg0.win 1).blk t).view.read (Elt Ideal) (Cert.Level.pooled (H := 128) (W := 128) (V c main_arg0)) := by
  have h7 : t.val % 8 = 7 := (flush0_1 t).mp hf
  have hN := lt_points t
  obtain ⟨-, -, -, -, e4, e5⟩ := idx_facts t
  show (cfg0.win 1).cut (grid0.coords t) ((dat0 V c).after 1 t) = _
  rw [after0_1]
  funext j
  obtain ⟨p, q, rfl⟩ : ∃ (p : Fin 8) (q : Fin 128), j = ix2 p q := ⟨j 0, j 1, eq_ix2 j⟩
  show outsAt0 V c t.val t.isLt (ix2 p q)
    = Cert.Level.pooled (H := 128) (W := 128) (arr V c) (((cfg0.win 1).blk t).view.emb (ix2 p q))
  have hemb : ((cfg0.win 1).blk t).view.emb (ix2 p q)
      = (ix2 p (⟨128 * (t.val / 8) + q.val, by omega⟩ : Fin 256) : S8x256.Idx) := by
    funext a; apply Fin.ext
    match a with
    | ⟨0, _⟩ => show win0_1.index t (0 : Fin 2) * 8 + 1 * p.val = p.val; omega
    | ⟨1, _⟩ => show win0_1.index t (1 : Fin 2) * 128 + 1 * q.val = 128 * (t.val / 8) + q.val; omega
  rw [hemb, Cert.Level.pooled_apply, at_flush V c t h7 p q]

/-- THE RESULT. The array the region leaves is the pooled sums of the activation array it found: channel ch lies in
    the block written back by the last point of its half, point 8·(ch / 128) + 7, and the two halves cover all 256
    channels. -/
theorem final (V : (c : Dev nD) → (b : Ref sig .tc) → Buf (Elt Ideal) ((c : Thread nD τ).loc b)) (c : Dev nD) :
    (Gen.dat0 (F := Ideal) V c).arrAt 1 cfg0.N = Cert.Level.pooled (H := 128) (W := 128) (V c main_arg0) :=
  (dat0 V c).arrAt_eq_of_cover 1 (Cert.Level.pooled (H := 128) (W := 128) (V c main_arg0))
    (fun t hf => flushed_eq V c t hf) fun i => by
      have hi0 : (i 0).val < 8 := (i 0).isLt
      have hi1 : (i 1).val < 256 := (i 1).isLt
      have hlt : 8 * ((i 1).val / 128) + 7 < cfg0.N :=
        lt_of_lt_of_eq (by omega : 8 * ((i 1).val / 128) + 7 < 16) (show 16 = cfg0.N from N_0.symm)
      obtain ⟨t, ht⟩ : ∃ t : Fin cfg0.N, t.val = 8 * ((i 1).val / 128) + 7 := ⟨⟨_, hlt⟩, rfl⟩
      obtain ⟨-, -, -, -, e4, e5⟩ := idx_facts t
      refine ⟨t, (flush0_1 t).mpr (by omega), ?_⟩
      show i ∈ ((View.whole main_v12).slice (win0_1.rect t)).set
      rw [View.set_slice_whole, Rect.mem_set_unit]
      intro a
      match a with
      | ⟨0, _⟩ =>
        show win0_1.index t (0 : Fin 2) * 8 ≤ (i 0).val ∧ (i 0).val < win0_1.index t (0 : Fin 2) * 8 + 8
        omega
      | ⟨1, _⟩ =>
        show win0_1.index t (1 : Fin 2) * 128 ≤ (i 1).val ∧ (i 1).val < win0_1.index t (1 : Fin 2) * 128 + 128
        omega

end Cert.KernelIdeal.PoolValue0

end
-- ==== Proof.PoolLevel1.lean ====
/-
  The pooled sums of one level, read off the second pooling region: the array the region leaves in its result buffer
  is, entry by entry, the sum of the level's activation array over its two spatial axes.

  The activation array x has shape [8, 256, 64, 64]. The region walks a grid of 2 × 4 points; point t = 4·g + r
  (g the channel half, r the row tile) sees the block of x with channels 128·g … 128·g + 127 and rows
  16·r … 16·r + 15, all 64 columns, and one [8, 128] block of the result that stays in place over the 4 points of
  a half. At the first point of a half the block is set to zero; at every point the body adds to entry (p, q) of the
  block the sum of the input block over its 16 rows and 64 columns at (p, q). After the last point of a half the block
  therefore holds, at (p, q), the sum over the 4 row tiles of the tile sums, which is the sum over all 64 rows and
  64 columns of x at batch p and channel 128·g + q; that block is then written to channels 128·g … 128·g + 127 of
  the result, and the two halves together fill it.

  Everything is read on the extended reals, where addition is commutative and associative and the zero word is 0;
  no entry has to be finite.
-/
import proofs.«181703_j51951924413004_2_alg».proof.Proof.Gen.KernelIdeal.Frame
import proofs.«181703_j51951924413004_2_alg».proof.Proof.Spec
import Idealize.ShloMosaic.PureOps.Ideal.Laws
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.PoolValue2

open Cert.KernelIdeal Cert.KernelIdeal.Gen

/-! ## What one run of the body leaves in the result block -/

section Pieces
variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a point that is not the first of its half the body leaves, in the result block holding `xo`, the block
    `xo` plus the double reduction of the input block `x`: its one store covers the block, and both of its loads
    read whole buffers. -/
theorem out_B (c : Dev nD) (i : grid2.Coords) (a2 : Memref sig .tc .vmem S8x128x16x64 .f32) (h2 : a2.IsWhole)
    (a3 : Memref sig .tc .vmem S8x128 .f32) (h3 : a3.IsWhole) (hc : ¬cond2_0 i)
    (x : Vec F S8x128x16x64 .f32) (xo : Vec F S8x128 .f32) :
    out2_B_1 c i a2 h2 a3 h3 hc x xo = k2_pay2 x xo := by
  unfold out2_B_1
  rw [View.read_writes_eq_canon _ _ _ (cover2_B_1 c i a2 h2 a3 h3 hc x xo)]
  unfold kernelRun2_B
  dsimp only
  rw [View.canon_unit_zero hz2]
  simp only [View.readAt_eq_ld, h2.read_unread, h3.read_unread, View.ld_unit_zero (S := S8x128x16x64) hz4,
    View.ld_unit_zero (S := S8x128) hz2]

/-- At the first point of a half the body first stores the zero block, reads it back, and leaves the zero block plus
    the double reduction of the input block `x`. -/
theorem out_A (c : Dev nD) (i : grid2.Coords) (a2 : Memref sig .tc .vmem S8x128x16x64 .f32) (h2 : a2.IsWhole)
    (a3 : Memref sig .tc .vmem S8x128 .f32) (h3 : a3.IsWhole) (hc : cond2_0 i)
    (x : Vec F S8x128x16x64 .f32) :
    out2_A_1 c i a2 h2 a3 h3 hc x = k2_pay2 x k2_pay1 := by
  unfold out2_A_1
  rw [View.read_writes_eq_canon _ _ _ (cover2_A_1 c i a2 h2 a3 h3 hc x)]
  unfold kernelRun2_A
  dsimp only
  sl_unfold_words
  rw [View.canon_cons_unit_zero (S := S8x128) hz2, View.readCov_unit_zero (S := S8x128) _ hz2]
  simp only [View.readAt_eq_ld, h2.read_unread, View.ld_unit_zero (S := S8x128x16x64) hz4,
    View.ld_unit_zero (S := S8x128) hz2]

end Pieces

/-! ## The body's arithmetic at an entry, on the extended reals -/

/-- Entry (p, q) of what the body stores: the entry of the block it found, plus the sum of the input block over its
    16 rows and 64 columns at (p, q) — the reduction over the columns, then the one over the rows, each a finite sum
    over the reduced axis. -/
theorem pay2_apply (x : Vec Ideal S8x128x16x64 .f32) (xo : Vec Ideal S8x128 .f32) (p : Fin 8) (q : Fin 128) :
    k2_pay2 (F := Ideal) x xo (ix2 p q) = xo (ix2 p q) + ∑ hh : Fin 16, ∑ w : Fin 64, x (ix4 p q hh w) := by
  unfold k2_pay2
  refine congrArg₂ (· + ·) (congrFun (shapeCast_self xo _) (ix2 p q)) ?_
  refine (Ideal.multiReduction_add_single _ _ _ _ _ (ix2 p q)).trans ?_
  refine Finset.sum_congr rfl fun hh _ => ?_
  refine (Ideal.multiReduction_add_single _ _ _ _ _ _).trans ?_
  refine Finset.sum_congr rfl fun w _ => ?_
  refine congrArg x (funext fun a => ?_)
  match a with
  | ⟨0, _⟩ => rfl
  | ⟨1, _⟩ => rfl
  | ⟨2, _⟩ => rfl
  | ⟨3, _⟩ => rfl

/-- Every entry of the block stored at the first point of a half is the zero word, which is 0. -/
theorem pay1_apply (p : Fin 8) (q : Fin 128) : k2_pay1 (F := Ideal) (ix2 p q) = 0 := by
  unfold k2_pay1
  exact Ideal.ofBits_zero_f32

/-! ## The blocks in the arrays -/

/-- The block indices over the grid: at point t the input block has channel-half index t / 4 and row-tile index
    t % 4 (index 0 on the batch and column axes), and the result block has channel-half index t / 4. -/
theorem idx_facts : ∀ t : Fin cfg2.N, win2_0.index t (0 : Fin 4) = 0 ∧ win2_0.index t (1 : Fin 4) = t.val / 4
    ∧ win2_0.index t (2 : Fin 4) = t.val % 4 ∧ win2_0.index t (3 : Fin 4) = 0
    ∧ win2_1.index t (0 : Fin 2) = 0 ∧ win2_1.index t (1 : Fin 2) = t.val / 4 :=
  (by decide +kernel : ∀ t : Fin grid2.N, _)

variable (V : (c : Dev nD) → (b : Ref sig .tc) → Buf (Elt Ideal) ((c : Thread nD τ).loc b))

theorem lt_points (t : Fin cfg2.N) : t.val < 8 := lt_of_lt_of_eq t.isLt (show cfg2.N = 8 from N_2)

/-- The activation array as the region finds it, at its literal shape. -/
def arr (c : Dev nD) : S8x256x64x64.Idx → EReal := V c main_arg1

/-- The input block at point t, at its literal shape. -/
def blk (c : Dev nD) (t : Fin cfg2.N) : Vec Ideal S8x128x16x64 .f32 := iblk2 V c 0 t

/-- Entry (p, q, hh, w) of the input block at point t is the array's entry at batch p, channel 128·(t / 4) + q,
    row 16·(t % 4) + hh, column w: on each axis the block's coordinate is the block index times the block's extent
    plus the coordinate inside. -/
theorem blk_apply (c : Dev nD) (t : Fin cfg2.N) (p : Fin 8) (q : Fin 128) (hh : Fin 16) (w : Fin 64) :
    blk V c t (ix4 p q hh w)
      = arr V c
          (ix4 p (⟨128 * (t.val / 4) + q.val, by have := lt_points t; omega⟩ : Fin 256)
            (⟨16 * (t.val % 4) + hh.val, by omega⟩ : Fin 64) w) := by
  obtain ⟨e0, e1, e2, e3, -, -⟩ := idx_facts t
  show arr V c (((cfg2.win 0).blk t).view.emb (ix4 p q hh w)) = _
  refine congrArg _ (funext fun a => Fin.ext ?_)
  match a with
  | ⟨0, _⟩ => show win2_0.index t (0 : Fin 4) * 8 + 1 * p.val = p.val; omega
  | ⟨1, _⟩ => show win2_0.index t (1 : Fin 4) * 128 + 1 * q.val = 128 * (t.val / 4) + q.val; omega
  | ⟨2, _⟩ => show win2_0.index t (2 : Fin 4) * 16 + 1 * hh.val = 16 * (t.val % 4) + hh.val; omega
  | ⟨3, _⟩ => show win2_0.index t (3 : Fin 4) * 64 + 1 * w.val = w.val; omega

/-! ## The running sum over the points of a half -/

/-- At the first point of a half the result block holds, at (p, q), the sum of that point's input block over its
    rows and columns: 0 plus it. -/
theorem stepA (c : Dev nD) (t : Fin cfg2.N) (h0 : t.val % 4 = 0) (p : Fin 8) (q : Fin 128) :
    outsAt2 V c t.val t.isLt (ix2 p q) = ∑ hh : Fin 16, ∑ w : Fin 64, blk V c t (ix4 p q hh w) := by
  rw [outsAt2_A V c t h0]
  refine (congrFun (out_A c (grid2.coords t) (ms2_0 t) (hs2_0 t) (ms2_1 t) (hs2_1 t) ((hcond2_0 t).mpr h0)
    (iblk2 V c 0 t)) (ix2 p q)).trans ?_
  refine (pay2_apply (blk V c t) (k2_pay1 (F := Ideal)) p q).trans ?_
  rw [pay1_apply, zero_add]

/-- At any other point it holds what the point before left plus the sum of this point's input block. -/
theorem stepB (c : Dev nD) (t : Fin cfg2.N) (h0 : ¬t.val % 4 = 0) (p : Fin 8) (q : Fin 128) :
    outsAt2 V c t.val t.isLt (ix2 p q)
      = outsAt2 V c (t.val - 1) (Nat.lt_of_le_of_lt (Nat.sub_le _ _) t.isLt) (ix2 p q)
        + ∑ hh : Fin 16, ∑ w : Fin 64, blk V c t (ix4 p q hh w) := by
  rw [outsAt2_B V c t h0]
  exact (congrFun (out_B c (grid2.coords t) (ms2_0 t) (hs2_0 t) (ms2_1 t) (hs2_1 t)
    (fun h => h0 ((hcond2_0 t).mp h)) (iblk2 V c 0 t)
    (outsAt2 V c (t.val - 1) (Nat.lt_of_le_of_lt (Nat.sub_le _ _) t.isLt))) (ix2 p q)).trans
    (pay2_apply (blk V c t) (outsAt2 V c (t.val - 1) (Nat.lt_of_le_of_lt (Nat.sub_le _ _) t.isLt)) p q)

/-- The sum of the input block at point n over its 16 rows and 64 columns, at entry (p, q); zero past the grid, so
    that it is a function of every natural number. -/
def tileSum (c : Dev nD) (n : ℕ) (p : Fin 8) (q : Fin 128) : EReal :=
  if h : n < cfg2.N then ∑ hh : Fin 16, ∑ w : Fin 64, blk V c ⟨n, h⟩ (ix4 p q hh w) else 0

theorem tileSum_of_lt (c : Dev nD) (n : ℕ) (h : n < cfg2.N) (p : Fin 8) (q : Fin 128) :
    tileSum V c n p q = ∑ hh : Fin 16, ∑ w : Fin 64, blk V c ⟨n, h⟩ (ix4 p q hh w) :=
  dif_pos h

/-- THE RUNNING SUM. After point n the result block holds, at (p, q), the sum of the tile sums of the points
    4·(n / 4), …, n of n's half — by induction on the point: the first point of a half starts the sum, every other
    point adds its own tile sum to what the point before left. -/
theorem outsAt_eq (c : Dev nD) : ∀ (n : ℕ) (h : n < cfg2.N) (p : Fin 8) (q : Fin 128),
    outsAt2 V c n h (ix2 p q) = ∑ s ∈ Finset.range (n % 4 + 1), tileSum V c (4 * (n / 4) + s) p q
  | 0, h, p, q => by
    refine (stepA V c ⟨0, h⟩ rfl p q).trans ?_
    show _ = ∑ s ∈ Finset.range 1, tileSum V c (4 * (0 / 4) + s) p q
    rw [Finset.sum_range_one]
    exact (tileSum_of_lt V c 0 h p q).symm
  | n + 1, h, p, q => by
    have hN : n + 1 < 8 := lt_of_lt_of_eq h (show cfg2.N = 8 from N_2)
    by_cases h0 : (n + 1) % 4 = 0
    · refine (stepA V c ⟨n + 1, h⟩ h0 p q).trans ?_
      have e : 4 * ((n + 1) / 4) + 0 = n + 1 := by omega
      rw [h0, Finset.sum_range_succ, Finset.sum_range_zero, zero_add, e]
      exact (tileSum_of_lt V c (n + 1) h p q).symm
    · have e1 : (n + 1) % 4 = n % 4 + 1 := by omega
      have e2 : (n + 1) / 4 = n / 4 := by omega
      have e3 : 4 * (n / 4) + (n % 4 + 1) = n + 1 := by omega
      refine (stepB V c ⟨n + 1, h⟩ h0 p q).trans ?_
      rw [e1, e2, Finset.sum_range_succ, e3, tileSum_of_lt V c (n + 1) h]
      refine congrArg (· + _) ?_
      exact outsAt_eq c n (Nat.lt_of_succ_lt h) p q

/-! ## The last point of a half: all 64 rows -/

/-- A sum over 64 consecutive rows is the sum over 4 tiles of the sums over each tile's 16 rows: a re-indexing of a
    finite sum in a commutative monoid. -/
theorem sum_tiles {β : Type} [AddCommMonoid β] (g : Fin 64 → β) :
    ∑ r : Fin 64, g r = ∑ s : Fin 4, ∑ hh : Fin 16, g ⟨16 * s.val + hh.val, by omega⟩ := by
  refine (Equiv.sum_comp (finProdFinEquiv (m := 4) (n := 16)) g).symm.trans ?_
  rw [Fintype.sum_prod_type]
  refine Finset.sum_congr rfl fun s _ => Finset.sum_congr rfl fun hh _ => congrArg g (Fin.ext ?_)
  show (finProdFinEquiv (s, hh)).val = 16 * s.val + hh.val
  rw [finProdFinEquiv_apply_val]
  show hh.val + 16 * s.val = 16 * s.val + hh.val
  omega

/-- After the last point t of a half (t % 4 = 3) the result block holds, at (p, q), the sum of the array over all
    64 rows and 64 columns at batch p and channel 128·(t / 4) + q: the 4 tile sums of the half, each read in the
    array, regrouped as one sum over the rows. -/
theorem at_flush (c : Dev nD) (t : Fin cfg2.N) (h7 : t.val % 4 = 3) (p : Fin 8) (q : Fin 128) :
    outsAt2 V c t.val t.isLt (ix2 p q)
      = ∑ r : Fin 64, ∑ w : Fin 64, arr V c
          (ix4 p (⟨128 * (t.val / 4) + q.val, by have := lt_points t; omega⟩ : Fin 256) r w) := by
  have hN := lt_points t
  rw [outsAt_eq V c t.val t.isLt p q, h7]
  show ∑ s ∈ Finset.range 4, tileSum V c (4 * (t.val / 4) + s) p q = _
  rw [Finset.sum_range]
  refine Eq.trans ?_ (sum_tiles fun r => ∑ w : Fin 64, arr V c
    (ix4 p (⟨128 * (t.val / 4) + q.val, by omega⟩ : Fin 256) r w)).symm
  refine Finset.sum_congr rfl fun s _ => ?_
  have hs : s.val < 4 := s.isLt
  have hlt : 4 * (t.val / 4) + s.val < cfg2.N :=
    lt_of_lt_of_eq (by omega : 4 * (t.val / 4) + s.val < 8) (show 8 = cfg2.N from N_2.symm)
  rw [tileSum_of_lt V c _ hlt]
  refine Finset.sum_congr rfl fun hh _ => Finset.sum_congr rfl fun w _ => ?_
  rw [blk_apply V c ⟨4 * (t.val / 4) + s.val, hlt⟩ p q hh w]
  refine congrArg _ (funext fun a => Fin.ext ?_)
  match a with
  | ⟨0, _⟩ => rfl
  | ⟨1, _⟩ => show 128 * ((4 * (t.val / 4) + s.val) / 4) + q.val = 128 * (t.val / 4) + q.val; omega
  | ⟨2, _⟩ => show 16 * ((4 * (t.val / 4) + s.val) % 4) + hh.val = 16 * s.val + hh.val; omega
  | ⟨3, _⟩ => rfl

/-! ## The result array -/

/-- What a point that writes its block back writes: its block of the pooled sums. Such a point is the last of its
    half, entry (p, q) of its block sits at channel 128·(t / 4) + q of the result, and the block holds the full sum
    there. -/
theorem flushed_eq (c : Dev nD) (t : Fin cfg2.N) (hf : (cfg2.win 1).flush t = true) :
    (dat2 V c).flushed 1 t
      = ((cfg2.win 1).blk t).view.read (Elt Ideal) (Cert.Level.pooled (H := 64) (W := 64) (V c main_arg1)) := by
  have h7 : t.val % 4 = 3 := (flush2_1 t).mp hf
  have hN := lt_points t
  obtain ⟨-, -, -, -, e4, e5⟩ := idx_facts t
  show (cfg2.win 1).cut (grid2.coords t) ((dat2 V c).after 1 t) = _
  rw [after2_1]
  funext j
  obtain ⟨p, q, rfl⟩ : ∃ (p : Fin 8) (q : Fin 128), j = ix2 p q := ⟨j 0, j 1, eq_ix2 j⟩
  show outsAt2 V c t.val t.isLt (ix2 p q)
    = Cert.Level.pooled (H := 64) (W := 64) (arr V c) (((cfg2.win 1).blk t).view.emb (ix2 p q))
  have hemb : ((cfg2.win 1).blk t).view.emb (ix2 p q)
      = (ix2 p (⟨128 * (t.val / 4) + q.val, by omega⟩ : Fin 256) : S8x256.Idx) := by
    funext a; apply Fin.ext
    match a with
    | ⟨0, _⟩ => show win2_1.index t (0 : Fin 2) * 8 + 1 * p.val = p.val; omega
    | ⟨1, _⟩ => show win2_1.index t (1 : Fin 2) * 128 + 1 * q.val = 128 * (t.val / 4) + q.val; omega
  rw [hemb, Cert.Level.pooled_apply, at_flush V c t h7 p q]

/-- THE RESULT. The array the region leaves is the pooled sums of the activation array it found: channel ch lies in
    the block written back by the last point of its half, point 4·(ch / 128) + 3, and the two halves cover all 256
    channels. -/
theorem final (V : (c : Dev nD) → (b : Ref sig .tc) → Buf (Elt Ideal) ((c : Thread nD τ).loc b)) (c : Dev nD) :
    (Gen.dat2 (F := Ideal) V c).arrAt 1 cfg2.N = Cert.Level.pooled (H := 64) (W := 64) (V c main_arg1) :=
  (dat2 V c).arrAt_eq_of_cover 1 (Cert.Level.pooled (H := 64) (W := 64) (V c main_arg1))
    (fun t hf => flushed_eq V c t hf) fun i => by
      have hi0 : (i 0).val < 8 := (i 0).isLt
      have hi1 : (i 1).val < 256 := (i 1).isLt
      have hlt : 4 * ((i 1).val / 128) + 3 < cfg2.N :=
        lt_of_lt_of_eq (by omega : 4 * ((i 1).val / 128) + 3 < 8) (show 8 = cfg2.N from N_2.symm)
      obtain ⟨t, ht⟩ : ∃ t : Fin cfg2.N, t.val = 4 * ((i 1).val / 128) + 3 := ⟨⟨_, hlt⟩, rfl⟩
      obtain ⟨-, -, -, -, e4, e5⟩ := idx_facts t
      refine ⟨t, (flush2_1 t).mpr (by omega), ?_⟩
      show i ∈ ((View.whole main_v43).slice (win2_1.rect t)).set
      rw [View.set_slice_whole, Rect.mem_set_unit]
      intro a
      match a with
      | ⟨0, _⟩ =>
        show win2_1.index t (0 : Fin 2) * 8 ≤ (i 0).val ∧ (i 0).val < win2_1.index t (0 : Fin 2) * 8 + 8
        omega
      | ⟨1, _⟩ =>
        show win2_1.index t (1 : Fin 2) * 128 ≤ (i 1).val ∧ (i 1).val < win2_1.index t (1 : Fin 2) * 128 + 128
        omega

end Cert.KernelIdeal.PoolValue2

end
-- ==== Proof.ScaleLevel0.lean ====
/-
  The gated result of the 128 × 128 level, read off the scaling region that computes it.

  The region's grid has 16 points; point t handles the row tile 8t … 8t + 7 of the activation x : [8, 256, 128, 128].
  At point t the body reads the block x[:, :, 8t : 8t + 8, :], the whole gate f2 : [8, 256] and the whole offset
  f3 : [8, 1], and stores x + x * f2' + f3' into the same block of the result, where f2' is the gate re-laid as
  [8, 256, 1, 1] and repeated along the two spatial axes, and f3' is the offset re-laid as [8, 1, 1, 1] and repeated
  along the channel axis and the two spatial axes. Entry (b, ch, hh, w) of the stored block is therefore
      x (b, ch, 8t + hh, w) + x (b, ch, 8t + hh, w) * f2 (b, ch) + f3 (b, 0),
  which is entry (b, ch, 8t + hh, w) of the gated array. Row h of the array lies in tile h / 8, so the 16 blocks cover
  the array, and after the last point the result array holds the gated array. Addition and multiplication are the
  extended reals'; no property of them is used beyond reading both sides at the same entry.
-/
import proofs.«181703_j51951924413004_2_alg».proof.Proof.Gen.KernelIdeal.Frame
import proofs.«181703_j51951924413004_2_alg».proof.Proof.Spec
import Idealize.ShloMosaic.Lib.Pipeline.Value
import Idealize.ShloMosaic.Lib.ValueIdx

noncomputable section

namespace Cert.KernelIdeal.ScaleValue1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored value at an entry -/

/-- The zero offsets of a rank-4 access. -/
theorem zero4 : (![0, 0, 0, 0] : Fin 4 → Nat) = fun _ => 0 := funext fun a => by fin_cases a <;> rfl
/-- The zero offsets of a rank-2 access. -/
theorem zero2 : (![0, 0] : Fin 2 → Nat) = fun _ => 0 := funext fun a => by fin_cases a <;> rfl

section Layout
variable {α : Type}

/-- The gate re-laid as [8, 256, 1, 1]: entry (b, ch, 0, 0) is entry (b, ch) — both sit at row-major position
    256 b + ch. -/
theorem gate_cast_apply (v : S8x256.Idx → α) (h : S8x256.ShapeCasts S8x256x1x1) (b : Fin 8) (ch : Fin 256) (u u' : Fin 1) :
    shapeCast S8x256x1x1 v h (ix4 b ch u u') = v (ix2 b ch) :=
  shapeCast_apply v h _ _ (by
    have hu : u.val = 0 := by omega
    have hu' : u'.val = 0 := by omega
    rw [Shape.rowMajor_val_two, Shape.rowMajor_val_four]
    show b.val * 256 + ch.val = ((b.val * 256 + ch.val) * 1 + u.val) * 1 + u'.val
    omega)

/-- The re-laid gate repeated along the two spatial axes: entry (b, ch, hh, w) is entry (b, ch, 0, 0). -/
theorem gate_bcast_apply (v : S8x256x1x1.Idx → α) (h : S8x256x1x1.Broadcasts S8x256x8x128) (b : Fin 8) (ch : Fin 256)
    (hh : Fin 8) (w : Fin 128) :
    broadcastTo S8x256x8x128 v h (ix4 b ch hh w) = v (ix4 b ch (0 : Fin 1) (0 : Fin 1)) :=
  broadcastTo_apply v h _ _ fun ax => by
    match ax with
    | ⟨0, _⟩ => rfl
    | ⟨1, _⟩ => rfl
    | ⟨2, _⟩ => rfl
    | ⟨3, _⟩ => rfl

/-- The offset re-laid as [8, 1, 1, 1]: entry (b, 0, 0, 0) is entry (b, 0) — both sit at row-major position b. -/
theorem offset_cast_apply (v : S8x1.Idx → α) (h : S8x1.ShapeCasts S8x1x1x1) (b : Fin 8) (u u' u'' : Fin 1) :
    shapeCast S8x1x1x1 v h (ix4 b u u' u'') = v (ix2 b (0 : Fin 1)) :=
  shapeCast_apply v h _ _ (by
    have hu : u.val = 0 := by omega
    have hu' : u'.val = 0 := by omega
    have hu'' : u''.val = 0 := by omega
    rw [Shape.rowMajor_val_two, Shape.rowMajor_val_four]
    show b.val * 1 + 0 = ((b.val * 1 + u.val) * 1 + u'.val) * 1 + u''.val
    omega)

/-- The re-laid offset repeated along the channel axis and the two spatial axes: entry (b, ch, hh, w) is entry
    (b, 0, 0, 0). -/
theorem offset_bcast_apply (v : S8x1x1x1.Idx → α) (h : S8x1x1x1.Broadcasts S8x256x8x128) (b : Fin 8) (ch : Fin 256)
    (hh : Fin 8) (w : Fin 128) :
    broadcastTo S8x256x8x128 v h (ix4 b ch hh w) = v (ix4 b (0 : Fin 1) (0 : Fin 1) (0 : Fin 1)) :=
  broadcastTo_apply v h _ _ fun ax => by
    match ax with
    | ⟨0, _⟩ => rfl
    | ⟨1, _⟩ => rfl
    | ⟨2, _⟩ => rfl
    | ⟨3, _⟩ => rfl

end Layout

/-- The stored value at entry (b, ch, hh, w), from the three values the body loads: the activation block's entry,
    plus that entry times the gate at (b, ch), plus the offset at (b, 0). The sum and the product are read entry by
    entry; the two re-layings and the two repetitions are read by the four lemmas above. -/
theorem payload_apply (v0 : Vec Ideal S8x256x8x128 .f32) (v1 : Vec Ideal S8x256 .f32) (v4 : Vec Ideal S8x1 .f32)
    (b : Fin 8) (ch : Fin 256) (hh : Fin 8) (w : Fin 128) :
    k1_pay1 (F := Ideal) v0 v1 v4 (ix4 b ch hh w)
      = v0 (ix4 b ch hh w) + v0 (ix4 b ch hh w) * v1 (ix2 b ch) + v4 (ix2 b (0 : Fin 1)) := by
  unfold k1_pay1
  rw [addf_apply, addf_apply, mulf_apply, gate_bcast_apply, gate_cast_apply, shapeCast_self, offset_bcast_apply,
    offset_cast_apply, shapeCast_self]

/-- What the body leaves in the result's block, at entry (b, ch, hh, w), from the three input blocks: its one store
    writes the whole block, and each load reads a whole block. -/
theorem out_apply (x0 : Vec Ideal S8x256x8x128 .f32) (x1 : Vec Ideal S8x256 .f32) (x2 : Vec Ideal S8x1 .f32)
    (b : Fin 8) (ch : Fin 256) (hh : Fin 8) (w : Fin 128) :
    out1_3 (F := Ideal) x0 x1 x2 (ix4 b ch hh w)
      = x0 (ix4 b ch hh w) + x0 (ix4 b ch hh w) * x1 (ix2 b ch) + x2 (ix2 b (0 : Fin 1)) := by
  unfold out1_3
  rw [View.canon_unit_zero zero4]
  simp only [View.ld_unit_zero (S := S8x256x8x128) zero4, View.ld_unit_zero (S := S8x256) zero2,
    View.ld_unit_zero (S := S8x1) zero2]
  exact payload_apply x0 x1 x2 b ch hh w

/-! ## The blocks at a point, read in their arrays -/

variable (V : (c : Dev nD) → (b : Ref sig .tc) → Buf (Elt Ideal) ((c : Thread nD τ).loc b))

/-- The block indices at point t: the activation's and the result's blocks are at (0, 0, t, 0), the gate's and the
    offset's at (0, 0) — checked at each of the 16 points. -/
theorem index_facts : ∀ t : Fin cfg1.N,
    win1_0.index t (0 : Fin 4) = 0 ∧ win1_0.index t (1 : Fin 4) = 0 ∧ win1_0.index t (2 : Fin 4) = t.val ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = 0 ∧ win1_3.index t (1 : Fin 4) = 0 ∧ win1_3.index t (2 : Fin 4) = t.val ∧ win1_3.index t (3 : Fin 4) = 0 :=
  (by decide +kernel : ∀ t : Fin grid1.N, _)

/-- The activation's block at point t, at entry (b, ch, hh, w), is the activation at (b, ch, 8t + hh, w): on each axis
    the array coordinate is the block index times the block's extent plus the coordinate inside the block. -/
theorem activation_block_apply (c : Dev nD) (t : Fin cfg1.N) (b : Fin 8) (ch : Fin 256) (hh : Fin 8) (w : Fin 128)
    (i : S8x256x128x128.Idx) (h0 : (i 0).val = b.val) (h1 : (i 1).val = ch.val) (h2 : (i 2).val = 8 * t.val + hh.val)
    (h3 : (i 3).val = w.val) :
    (iblk1 V c 0 t : Vec Ideal S8x256x8x128 .f32) (ix4 b ch hh w) = (V c main_arg0 : S8x256x128x128.Idx → EReal) i := by
  obtain ⟨e0, e1, e2, e3, -⟩ := index_facts t
  unfold iblk1
  rw [View.read_apply]
  show V c main_arg0 _ = V c main_arg0 _
  congr 1
  funext a
  apply Fin.ext
  match a with
  | ⟨0, _⟩ => show win1_0.index t (0 : Fin 4) * 8 + 1 * b.val = (i 0).val; omega
  | ⟨1, _⟩ => show win1_0.index t (1 : Fin 4) * 256 + 1 * ch.val = (i 1).val; omega
  | ⟨2, _⟩ => show win1_0.index t (2 : Fin 4) * 8 + 1 * hh.val = (i 2).val; omega
  | ⟨3, _⟩ => show win1_0.index t (3 : Fin 4) * 128 + 1 * w.val = (i 3).val; omega

/-- The gate's block at every point is the whole gate. -/
theorem gate_block_apply (c : Dev nD) (t : Fin cfg1.N) (b : Fin 8) (ch : Fin 256) :
    (iblk1 V c 1 t : Vec Ideal S8x256 .f32) (ix2 b ch) = (V c main_v24 : S8x256.Idx → EReal) (ix2 b ch) := by
  obtain ⟨-, -, -, -, e0, e1, -⟩ := index_facts t
  unfold iblk1
  rw [View.read_apply]
  show V c main_v24 _ = V c main_v24 _
  congr 1
  funext a
  apply Fin.ext
  match a with
  | ⟨0, _⟩ => show win1_1.index t (0 : Fin 2) * 8 + 1 * b.val = b.val; omega
  | ⟨1, _⟩ => show win1_1.index t (1 : Fin 2) * 256 + 1 * ch.val = ch.val; omega

/-- The offset's block at every point is the whole offset. -/
theorem offset_block_apply (c : Dev nD) (t : Fin cfg1.N) (b : Fin 8) (u : Fin 1) :
    (iblk1 V c 2 t : Vec Ideal S8x1 .f32) (ix2 b u) = (V c main_v29 : S8x1.Idx → EReal) (ix2 b u) := by
  obtain ⟨-, -, -, -, -, -, e0, e1, -⟩ := index_facts t
  unfold iblk1
  rw [View.read_apply]
  show V c main_v29 _ = V c main_v29 _
  congr 1
  funext a
  apply Fin.ext
  match a with
  | ⟨0, _⟩ => show win1_2.index t (0 : Fin 2) * 8 + 1 * b.val = b.val; omega
  | ⟨1, _⟩ => show win1_2.index t (1 : Fin 2) * 1 + 1 * u.val = u.val; omega

/-! ## From the blocks to the array -/

/-- What point t writes back is the block of the gated array at rows 8t … 8t + 7: entry (b, ch, hh, w) of the block
    sits at (b, ch, 8t + hh, w) of the array, and there both sides are the activation's entry, plus it times the gate
    at (b, ch), plus the offset at (b, 0). -/
theorem flushed_eq (c : Dev nD) (t : Fin cfg1.N) :
    (dat1 (F := Ideal) V c).flushed 3 t
      = ((cfg1.win 3).blk t).view.read (Elt Ideal)
          (Cert.Level.gated (H := 128) (W := 128) (V c main_arg0) (V c main_v24) (V c main_v29)) := by
  show (cfg1.win 3).cut (grid1.coords t) ((dat1 V c).after 3 t) = _
  rw [after1_3]
  obtain ⟨-, -, -, -, -, -, -, -, e0, e1, e2, e3⟩ := index_facts t
  refine funext fun (y : S8x256x8x128.Idx) => ?_
  obtain ⟨b, ch, hh, w, rfl⟩ : ∃ (b : Fin 8) (ch : Fin 256) (hh : Fin 8) (w : Fin 128), y = ix4 b ch hh w :=
    ⟨y 0, y 1, y 2, y 3, eq_ix4 y⟩
  have ht : t.val < 16 := lt_of_lt_of_eq t.isLt N_1
  have hrow : 8 * t.val + hh.val < 128 := by omega
  have hemb : ((cfg1.win 3).blk t).view.emb (ix4 b ch hh w)
      = (ix4 b ch (⟨8 * t.val + hh.val, hrow⟩ : Fin 128) w : S8x256x128x128.Idx) := by
    funext a
    apply Fin.ext
    match a with
    | ⟨0, _⟩ => show win1_3.index t (0 : Fin 4) * 8 + 1 * b.val = b.val; omega
    | ⟨1, _⟩ => show win1_3.index t (1 : Fin 4) * 256 + 1 * ch.val = ch.val; omega
    | ⟨2, _⟩ => show win1_3.index t (2 : Fin 4) * 8 + 1 * hh.val = 8 * t.val + hh.val; omega
    | ⟨3, _⟩ => show win1_3.index t (3 : Fin 4) * 128 + 1 * w.val = w.val; omega
  show out1_3 (iblk1 V c 0 t) (iblk1 V c 1 t) (iblk1 V c 2 t) (ix4 b ch hh w)
    = Cert.Level.gated (H := 128) (W := 128) (V c main_arg0) (V c main_v24) (V c main_v29)
        (((cfg1.win 3).blk t).view.emb (ix4 b ch hh w))
  rw [hemb, Cert.Level.gated_apply, out_apply,
    activation_block_apply V c t b ch hh w (ix4 b ch (⟨8 * t.val + hh.val, hrow⟩ : Fin 128) w) rfl rfl rfl rfl,
    gate_block_apply, offset_block_apply]

/-- Every entry of the array is in some point's block: row h is in the tile of point h / 8, and every point writes
    its block back. -/
theorem covered (i : S8x256x128x128.Idx) :
    ∃ t : Fin cfg1.N, (cfg1.win 3).flush t = true ∧ i ∈ ((cfg1.win 3).blk t).view.set := by
  have h0 : (i 0).val < 8 := (i 0).isLt
  have h1 : (i 1).val < 256 := (i 1).isLt
  have h2 : (i 2).val < 128 := (i 2).isLt
  have h3 : (i 3).val < 128 := (i 3).isLt
  have hN : cfg1.N = 16 := N_1
  have hq : (i 2).val / 8 < cfg1.N := by rw [hN]; omega
  obtain ⟨-, -, -, -, -, -, -, -, e0, e1, e2, e3⟩ := index_facts ⟨(i 2).val / 8, hq⟩
  refine ⟨⟨(i 2).val / 8, hq⟩, flush1_3 _, ?_⟩
  show i ∈ ((View.whole main_v30).slice (win1_3.rect ⟨(i 2).val / 8, hq⟩)).set
  rw [View.set_slice_whole, Rect.mem_set_unit]
  intro a
  match a with
  | ⟨0, _⟩ =>
    show win1_3.index ⟨(i 2).val / 8, hq⟩ (0 : Fin 4) * 8 ≤ (i 0).val ∧ (i 0).val < win1_3.index ⟨(i 2).val / 8, hq⟩ (0 : Fin 4) * 8 + 8
    omega
  | ⟨1, _⟩ =>
    show win1_3.index ⟨(i 2).val / 8, hq⟩ (1 : Fin 4) * 256 ≤ (i 1).val ∧ (i 1).val < win1_3.index ⟨(i 2).val / 8, hq⟩ (1 : Fin 4) * 256 + 256
    omega
  | ⟨2, _⟩ =>
    show win1_3.index ⟨(i 2).val / 8, hq⟩ (2 : Fin 4) * 8 ≤ (i 2).val ∧ (i 2).val < win1_3.index ⟨(i 2).val / 8, hq⟩ (2 : Fin 4) * 8 + 8
    have e2' : win1_3.index ⟨(i 2).val / 8, hq⟩ (2 : Fin 4) = (i 2).val / 8 := e2
    omega
  | ⟨3, _⟩ =>
    show win1_3.index ⟨(i 2).val / 8, hq⟩ (3 : Fin 4) * 128 ≤ (i 3).val ∧ (i 3).val < win1_3.index ⟨(i 2).val / 8, hq⟩ (3 : Fin 4) * 128 + 128
    omega

/-- After the region's last point the result array holds the gated array of the activation, the gate and the offset
    as the region finds them. -/
theorem final (c : Dev nD) :
    (Gen.dat1 (F := Ideal) V c).arrAt 3 cfg1.N
      = Cert.Level.gated (H := 128) (W := 128) (V c main_arg0) (V c main_v24) (V c main_v29) :=
  (dat1 (F := Ideal) V c).arrAt_eq_of_cover 3
    (Cert.Level.gated (H := 128) (W := 128) (V c main_arg0) (V c main_v24) (V c main_v29))
    (fun t _ => flushed_eq V c t) covered

end Cert.KernelIdeal.ScaleValue1

end
-- ==== Proof.ScaleLevel1.lean ====
/-
  The gated result of the 64 × 64 level, read off the scaling region that computes it.

  The region's grid has 8 points; point t handles the row tile 8t … 8t + 7 of the activation x : [8, 256, 64, 64].
  At point t the body reads the block x[:, :, 8t : 8t + 8, :], the whole gate f2 : [8, 256] and the whole offset
  f3 : [8, 1], and stores x + x * f2' + f3' into the same block of the result, where f2' is the gate re-laid as
  [8, 256, 1, 1] and repeated along the two spatial axes, and f3' is the offset re-laid as [8, 1, 1, 1] and repeated
  along the channel axis and the two spatial axes. Entry (b, ch, hh, w) of the stored block is therefore
      x (b, ch, 8t + hh, w) + x (b, ch, 8t + hh, w) * f2 (b, ch) + f3 (b, 0),
  which is entry (b, ch, 8t + hh, w) of the gated array. Row h of the array lies in tile h / 8, so the 8 blocks cover
  the array, and after the last point the result array holds the gated array. Addition and multiplication are the
  extended reals'; no property of them is used beyond reading both sides at the same entry.
-/
import proofs.«181703_j51951924413004_2_alg».proof.Proof.Gen.KernelIdeal.Frame
import proofs.«181703_j51951924413004_2_alg».proof.Proof.Spec
import Idealize.ShloMosaic.Lib.Pipeline.Value
import Idealize.ShloMosaic.Lib.ValueIdx

noncomputable section

namespace Cert.KernelIdeal.ScaleValue3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's stored value at an entry -/

/-- The zero offsets of a rank-4 access. -/
theorem zero4 : (![0, 0, 0, 0] : Fin 4 → Nat) = fun _ => 0 := funext fun a => by fin_cases a <;> rfl
/-- The zero offsets of a rank-2 access. -/
theorem zero2 : (![0, 0] : Fin 2 → Nat) = fun _ => 0 := funext fun a => by fin_cases a <;> rfl

section Layout
variable {α : Type}

/-- The gate re-laid as [8, 256, 1, 1]: entry (b, ch, 0, 0) is entry (b, ch) — both sit at row-major position
    256 b + ch. -/
theorem gate_cast_apply (v : S8x256.Idx → α) (h : S8x256.ShapeCasts S8x256x1x1) (b : Fin 8) (ch : Fin 256) (u u' : Fin 1) :
    shapeCast S8x256x1x1 v h (ix4 b ch u u') = v (ix2 b ch) :=
  shapeCast_apply v h _ _ (by
    have hu : u.val = 0 := by omega
    have hu' : u'.val = 0 := by omega
    rw [Shape.rowMajor_val_two, Shape.rowMajor_val_four]
    show b.val * 256 + ch.val = ((b.val * 256 + ch.val) * 1 + u.val) * 1 + u'.val
    omega)

/-- The re-laid gate repeated along the two spatial axes: entry (b, ch, hh, w) is entry (b, ch, 0, 0). -/
theorem gate_bcast_apply (v : S8x256x1x1.Idx → α) (h : S8x256x1x1.Broadcasts S8x256x8x64) (b : Fin 8) (ch : Fin 256)
    (hh : Fin 8) (w : Fin 64) :
    broadcastTo S8x256x8x64 v h (ix4 b ch hh w) = v (ix4 b ch (0 : Fin 1) (0 : Fin 1)) :=
  broadcastTo_apply v h _ _ fun ax => by
    match ax with
    | ⟨0, _⟩ => rfl
    | ⟨1, _⟩ => rfl
    | ⟨2, _⟩ => rfl
    | ⟨3, _⟩ => rfl

/-- The offset re-laid as [8, 1, 1, 1]: entry (b, 0, 0, 0) is entry (b, 0) — both sit at row-major position b. -/
theorem offset_cast_apply (v : S8x1.Idx → α) (h : S8x1.ShapeCasts S8x1x1x1) (b : Fin 8) (u u' u'' : Fin 1) :
    shapeCast S8x1x1x1 v h (ix4 b u u' u'') = v (ix2 b (0 : Fin 1)) :=
  shapeCast_apply v h _ _ (by
    have hu : u.val = 0 := by omega
    have hu' : u'.val = 0 := by omega
    have hu'' : u''.val = 0 := by omega
    rw [Shape.rowMajor_val_two, Shape.rowMajor_val_four]
    show b.val * 1 + 0 = ((b.val * 1 + u.val) * 1 + u'.val) * 1 + u''.val
    omega)

/-- The re-laid offset repeated along the channel axis and the two spatial axes: entry (b, ch, hh, w) is entry
    (b, 0, 0, 0). -/
theorem offset_bcast_apply (v : S8x1x1x1.Idx → α) (h : S8x1x1x1.Broadcasts S8x256x8x64) (b : Fin 8) (ch : Fin 256)
    (hh : Fin 8) (w : Fin 64) :
    broadcastTo S8x256x8x64 v h (ix4 b ch hh w) = v (ix4 b (0 : Fin 1) (0 : Fin 1) (0 : Fin 1)) :=
  broadcastTo_apply v h _ _ fun ax => by
    match ax with
    | ⟨0, _⟩ => rfl
    | ⟨1, _⟩ => rfl
    | ⟨2, _⟩ => rfl
    | ⟨3, _⟩ => rfl

end Layout

/-- The stored value at entry (b, ch, hh, w), from the three values the body loads: the activation block's entry,
    plus that entry times the gate at (b, ch), plus the offset at (b, 0). The sum and the product are read entry by
    entry; the two re-layings and the two repetitions are read by the four lemmas above. -/
theorem payload_apply (v0 : Vec Ideal S8x256x8x64 .f32) (v1 : Vec Ideal S8x256 .f32) (v4 : Vec Ideal S8x1 .f32)
    (b : Fin 8) (ch : Fin 256) (hh : Fin 8) (w : Fin 64) :
    k3_pay1 (F := Ideal) v0 v1 v4 (ix4 b ch hh w)
      = v0 (ix4 b ch hh w) + v0 (ix4 b ch hh w) * v1 (ix2 b ch) + v4 (ix2 b (0 : Fin 1)) := by
  unfold k3_pay1
  rw [addf_apply, addf_apply, mulf_apply, gate_bcast_apply, gate_cast_apply, shapeCast_self, offset_bcast_apply,
    offset_cast_apply, shapeCast_self]

/-- What the body leaves in the result's block, at entry (b, ch, hh, w), from the three input blocks: its one store
    writes the whole block, and each load reads a whole block. -/
theorem out_apply (x0 : Vec Ideal S8x256x8x64 .f32) (x1 : Vec Ideal S8x256 .f32) (x2 : Vec Ideal S8x1 .f32)
    (b : Fin 8) (ch : Fin 256) (hh : Fin 8) (w : Fin 64) :
    out3_3 (F := Ideal) x0 x1 x2 (ix4 b ch hh w)
      = x0 (ix4 b ch hh w) + x0 (ix4 b ch hh w) * x1 (ix2 b ch) + x2 (ix2 b (0 : Fin 1)) := by
  unfold out3_3
  rw [View.canon_unit_zero zero4]
  simp only [View.ld_unit_zero (S := S8x256x8x64) zero4, View.ld_unit_zero (S := S8x256) zero2,
    View.ld_unit_zero (S := S8x1) zero2]
  exact payload_apply x0 x1 x2 b ch hh w

/-! ## The blocks at a point, read in their arrays -/

variable (V : (c : Dev nD) → (b : Ref sig .tc) → Buf (Elt Ideal) ((c : Thread nD τ).loc b))

/-- The block indices at point t: the activation's and the result's blocks are at (0, 0, t, 0), the gate's and the
    offset's at (0, 0) — checked at each of the 8 points. -/
theorem index_facts : ∀ t : Fin cfg3.N,
    win3_0.index t (0 : Fin 4) = 0 ∧ win3_0.index t (1 : Fin 4) = 0 ∧ win3_0.index t (2 : Fin 4) = t.val ∧ win3_0.index t (3 : Fin 4) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 4) = 0 ∧ win3_3.index t (1 : Fin 4) = 0 ∧ win3_3.index t (2 : Fin 4) = t.val ∧ win3_3.index t (3 : Fin 4) = 0 :=
  (by decide +kernel : ∀ t : Fin grid3.N, _)

/-- The activation's block at point t, at entry (b, ch, hh, w), is the activation at (b, ch, 8t + hh, w): on each axis
    the array coordinate is the block index times the block's extent plus the coordinate inside the block. -/
theorem activation_block_apply (c : Dev nD) (t : Fin cfg3.N) (b : Fin 8) (ch : Fin 256) (hh : Fin 8) (w : Fin 64)
    (i : S8x256x64x64.Idx) (h0 : (i 0).val = b.val) (h1 : (i 1).val = ch.val) (h2 : (i 2).val = 8 * t.val + hh.val)
    (h3 : (i 3).val = w.val) :
    (iblk3 V c 0 t : Vec Ideal S8x256x8x64 .f32) (ix4 b ch hh w) = (V c main_arg1 : S8x256x64x64.Idx → EReal) i := by
  obtain ⟨e0, e1, e2, e3, -⟩ := index_facts t
  unfold iblk3
  rw [View.read_apply]
  show V c main_arg1 _ = V c main_arg1 _
  congr 1
  funext a
  apply Fin.ext
  match a with
  | ⟨0, _⟩ => show win3_0.index t (0 : Fin 4) * 8 + 1 * b.val = (i 0).val; omega
  | ⟨1, _⟩ => show win3_0.index t (1 : Fin 4) * 256 + 1 * ch.val = (i 1).val; omega
  | ⟨2, _⟩ => show win3_0.index t (2 : Fin 4) * 8 + 1 * hh.val = (i 2).val; omega
  | ⟨3, _⟩ => show win3_0.index t (3 : Fin 4) * 64 + 1 * w.val = (i 3).val; omega

/-- The gate's block at every point is the whole gate. -/
theorem gate_block_apply (c : Dev nD) (t : Fin cfg3.N) (b : Fin 8) (ch : Fin 256) :
    (iblk3 V c 1 t : Vec Ideal S8x256 .f32) (ix2 b ch) = (V c main_v55 : S8x256.Idx → EReal) (ix2 b ch) := by
  obtain ⟨-, -, -, -, e0, e1, -⟩ := index_facts t
  unfold iblk3
  rw [View.read_apply]
  show V c main_v55 _ = V c main_v55 _
  congr 1
  funext a
  apply Fin.ext
  match a with
  | ⟨0, _⟩ => show win3_1.index t (0 : Fin 2) * 8 + 1 * b.val = b.val; omega
  | ⟨1, _⟩ => show win3_1.index t (1 : Fin 2) * 256 + 1 * ch.val = ch.val; omega

/-- The offset's block at every point is the whole offset. -/
theorem offset_block_apply (c : Dev nD) (t : Fin cfg3.N) (b : Fin 8) (u : Fin 1) :
    (iblk3 V c 2 t : Vec Ideal S8x1 .f32) (ix2 b u) = (V c main_v60 : S8x1.Idx → EReal) (ix2 b u) := by
  obtain ⟨-, -, -, -, -, -, e0, e1, -⟩ := index_facts t
  unfold iblk3
  rw [View.read_apply]
  show V c main_v60 _ = V c main_v60 _
  congr 1
  funext a
  apply Fin.ext
  match a with
  | ⟨0, _⟩ => show win3_2.index t (0 : Fin 2) * 8 + 1 * b.val = b.val; omega
  | ⟨1, _⟩ => show win3_2.index t (1 : Fin 2) * 1 + 1 * u.val = u.val; omega

/-! ## From the blocks to the array -/

/-- What point t writes back is the block of the gated array at rows 8t … 8t + 7: entry (b, ch, hh, w) of the block
    sits at (b, ch, 8t + hh, w) of the array, and there both sides are the activation's entry, plus it times the gate
    at (b, ch), plus the offset at (b, 0). -/
theorem flushed_eq (c : Dev nD) (t : Fin cfg3.N) :
    (dat3 (F := Ideal) V c).flushed 3 t
      = ((cfg3.win 3).blk t).view.read (Elt Ideal)
          (Cert.Level.gated (H := 64) (W := 64) (V c main_arg1) (V c main_v55) (V c main_v60)) := by
  show (cfg3.win 3).cut (grid3.coords t) ((dat3 V c).after 3 t) = _
  rw [after3_3]
  obtain ⟨-, -, -, -, -, -, -, -, e0, e1, e2, e3⟩ := index_facts t
  refine funext fun (y : S8x256x8x64.Idx) => ?_
  obtain ⟨b, ch, hh, w, rfl⟩ : ∃ (b : Fin 8) (ch : Fin 256) (hh : Fin 8) (w : Fin 64), y = ix4 b ch hh w :=
    ⟨y 0, y 1, y 2, y 3, eq_ix4 y⟩
  have ht : t.val < 8 := lt_of_lt_of_eq t.isLt N_3
  have hrow : 8 * t.val + hh.val < 64 := by omega
  have hemb : ((cfg3.win 3).blk t).view.emb (ix4 b ch hh w)
      = (ix4 b ch (⟨8 * t.val + hh.val, hrow⟩ : Fin 64) w : S8x256x64x64.Idx) := by
    funext a
    apply Fin.ext
    match a with
    | ⟨0, _⟩ => show win3_3.index t (0 : Fin 4) * 8 + 1 * b.val = b.val; omega
    | ⟨1, _⟩ => show win3_3.index t (1 : Fin 4) * 256 + 1 * ch.val = ch.val; omega
    | ⟨2, _⟩ => show win3_3.index t (2 : Fin 4) * 8 + 1 * hh.val = 8 * t.val + hh.val; omega
    | ⟨3, _⟩ => show win3_3.index t (3 : Fin 4) * 64 + 1 * w.val = w.val; omega
  show out3_3 (iblk3 V c 0 t) (iblk3 V c 1 t) (iblk3 V c 2 t) (ix4 b ch hh w)
    = Cert.Level.gated (H := 64) (W := 64) (V c main_arg1) (V c main_v55) (V c main_v60)
        (((cfg3.win 3).blk t).view.emb (ix4 b ch hh w))
  rw [hemb, Cert.Level.gated_apply, out_apply,
    activation_block_apply V c t b ch hh w (ix4 b ch (⟨8 * t.val + hh.val, hrow⟩ : Fin 64) w) rfl rfl rfl rfl,
    gate_block_apply, offset_block_apply]

/-- Every entry of the array is in some point's block: row h is in the tile of point h / 8, and every point writes
    its block back. -/
theorem covered (i : S8x256x64x64.Idx) :
    ∃ t : Fin cfg3.N, (cfg3.win 3).flush t = true ∧ i ∈ ((cfg3.win 3).blk t).view.set := by
  have h0 : (i 0).val < 8 := (i 0).isLt
  have h1 : (i 1).val < 256 := (i 1).isLt
  have h2 : (i 2).val < 64 := (i 2).isLt
  have h3 : (i 3).val < 64 := (i 3).isLt
  have hN : cfg3.N = 8 := N_3
  have hq : (i 2).val / 8 < cfg3.N := by rw [hN]; omega
  obtain ⟨-, -, -, -, -, -, -, -, e0, e1, e2, e3⟩ := index_facts ⟨(i 2).val / 8, hq⟩
  refine ⟨⟨(i 2).val / 8, hq⟩, flush3_3 _, ?_⟩
  show i ∈ ((View.whole main_v61).slice (win3_3.rect ⟨(i 2).val / 8, hq⟩)).set
  rw [View.set_slice_whole, Rect.mem_set_unit]
  intro a
  match a with
  | ⟨0, _⟩ =>
    show win3_3.index ⟨(i 2).val / 8, hq⟩ (0 : Fin 4) * 8 ≤ (i 0).val ∧ (i 0).val < win3_3.index ⟨(i 2).val / 8, hq⟩ (0 : Fin 4) * 8 + 8
    omega
  | ⟨1, _⟩ =>
    show win3_3.index ⟨(i 2).val / 8, hq⟩ (1 : Fin 4) * 256 ≤ (i 1).val ∧ (i 1).val < win3_3.index ⟨(i 2).val / 8, hq⟩ (1 : Fin 4) * 256 + 256
    omega
  | ⟨2, _⟩ =>
    show win3_3.index ⟨(i 2).val / 8, hq⟩ (2 : Fin 4) * 8 ≤ (i 2).val ∧ (i 2).val < win3_3.index ⟨(i 2).val / 8, hq⟩ (2 : Fin 4) * 8 + 8
    have e2' : win3_3.index ⟨(i 2).val / 8, hq⟩ (2 : Fin 4) = (i 2).val / 8 := e2
    omega
  | ⟨3, _⟩ =>
    show win3_3.index ⟨(i 2).val / 8, hq⟩ (3 : Fin 4) * 64 ≤ (i 3).val ∧ (i 3).val < win3_3.index ⟨(i 2).val / 8, hq⟩ (3 : Fin 4) * 64 + 64
    omega

/-- After the region's last point the result array holds the gated array of the activation, the gate and the offset
    as the region finds them. -/
theorem final (c : Dev nD) :
    (Gen.dat3 (F := Ideal) V c).arrAt 3 cfg3.N
      = Cert.Level.gated (H := 64) (W := 64) (V c main_arg1) (V c main_v55) (V c main_v60) :=
  (dat3 (F := Ideal) V c).arrAt_eq_of_cover 3
    (Cert.Level.gated (H := 64) (W := 64) (V c main_arg1) (V c main_v55) (V c main_v60))
    (fun t _ => flushed_eq V c t) covered

end Cert.KernelIdeal.ScaleValue3

end
-- ==== Proof.HostForms.lean ====
/-
  The host program's spelling of a level, read at an index on the extended reals.

  The host sums an activation array over its two spatial axes with one reduction from the zero word: at entry
  (b, ch) that is 0 plus the sum over every index whose first two coordinates are (b, ch), and those indices are
  exactly the pairs (h, w) of spatial coordinates, so the sum is the double sum `pooled`. It re-lays the gate
  [8, 256] → [8, 256, 1, 1] → [8, 256, H, W] and the offset [8, 1] → [8, 1, 1, 1] → [8, 256, H, W] by
  `broadcast_in_dim`, so that x + x * gate + offset at (b, ch, h, w) reads the gate at (b, ch) and the offset at
  (b, 0): the function `gated`. Nothing here needs a finite value.
-/
import Idealize.ShloMosaic.PureOps.Ideal
import Idealize.ShloMosaic.PureOps.Ideal.Laws
import Idealize.ShloMosaic.Lib.ValueIdx
import Idealize.ShloMosaic.Lib.Pipeline.Value
import proofs.«181703_j51951924413004_2_alg».proof.Proof.Spec

noncomputable section

open scoped BigOperators

namespace Cert.Level

open Idealize.ShloMosaic Idealize.ShloMosaic.ValueIdx

/-- An index of the activation array reduces to (b, ch) exactly when its first two coordinates are b and ch. -/
theorem drop_eq_iff {H W : Nat} (h' : (⟨4, ![8, 256, H, W]⟩ : Shape).ReducesTo [2, 3] ⟨2, ![8, 256]⟩)
    (i : (⟨4, ![8, 256, H, W]⟩ : Shape).Idx) (j : (⟨2, ![8, 256]⟩ : Shape).Idx) :
    h'.drop i = j ↔ ((i 0).val = (j 0).val ∧ (i 1).val = (j 1).val) := by
  constructor
  · intro e; subst e; exact ⟨rfl, rfl⟩
  · rintro ⟨e0, e1⟩
    funext b
    apply Fin.ext
    match b with
    | ⟨0, _⟩ => exact e0
    | ⟨1, _⟩ => exact e1

/-- The host's sum over the two spatial axes, started from the zero word, is the double sum over rows and columns. -/
theorem hostSum_pooled {H W : Nat} (h' : (⟨4, ![8, 256, H, W]⟩ : Shape).ReducesTo [2, 3] ⟨2, ![8, 256]⟩)
    (hu : 0 < (⟨0, ![]⟩ : Shape).numel) (x : (⟨4, ![8, 256, H, W]⟩ : Shape).Idx → EReal) :
    Host.reduceAdd (F := Ideal) (φ := .f32) x (constant ⟨0, ![]⟩ .f32 0x00000000#32) h' hu = pooled x := by
  funext j
  obtain ⟨b, ch, rfl⟩ : ∃ (b : Fin 8) (ch : Fin 256), j = ix2 b ch := ⟨j 0, j 1, eq_ix2 j⟩
  rw [pooled_apply]
  show Ideal.ofBits .f32 0x00000000#32 + ∑ i ∈ Finset.univ.filter (fun i => h'.drop i = ix2 b ch), x i
    = ∑ h : Fin H, ∑ w : Fin W, x (ix4 b ch h w)
  rw [Ideal.ofBits_zero_f32, zero_add, ← Finset.sum_product']
  refine Finset.sum_bij' (fun i _ => ((i 2 : Fin H), (i 3 : Fin W))) (fun p _ => ix4 b ch p.1 p.2)
    (fun _ _ => Finset.mem_product.mpr ⟨Finset.mem_univ _, Finset.mem_univ _⟩) ?_ ?_ ?_ ?_
  · intro p _
    exact Finset.mem_filter.mpr ⟨Finset.mem_univ _, (drop_eq_iff h' _ (ix2 b ch)).mpr ⟨rfl, rfl⟩⟩
  · intro i hi
    obtain ⟨e0, e1⟩ := (drop_eq_iff h' i (ix2 b ch)).mp (Finset.mem_filter.mp hi).2
    funext a
    apply Fin.ext
    match a with
    | ⟨0, _⟩ => exact e0.symm
    | ⟨1, _⟩ => exact e1.symm
    | ⟨2, _⟩ => rfl
    | ⟨3, _⟩ => rfl
  · intro p _; rfl
  · intro i hi
    obtain ⟨e0, e1⟩ := (drop_eq_iff h' i (ix2 b ch)).mp (Finset.mem_filter.mp hi).2
    refine congrArg x (funext fun a => Fin.ext ?_)
    match a with
    | ⟨0, _⟩ => exact e0
    | ⟨1, _⟩ => exact e1
    | ⟨2, _⟩ => rfl
    | ⟨3, _⟩ => rfl

/-- The host's x + x * gate + offset, the gate and the offset re-laid by two `broadcast_in_dim` each, is `gated`. -/
theorem host_gated {H W : Nat} (x : (⟨4, ![8, 256, H, W]⟩ : Shape).Idx → EReal)
    (f2 : (⟨2, ![8, 256]⟩ : Shape).Idx → EReal) (f3 : (⟨2, ![8, 1]⟩ : Shape).Idx → EReal)
    (g1 : (⟨2, ![8, 256]⟩ : Shape).BroadcastsInDim ⟨4, ![8, 256, 1, 1]⟩ ![0, 1])
    (g2 : (⟨4, ![8, 256, 1, 1]⟩ : Shape).BroadcastsInDim ⟨4, ![8, 256, H, W]⟩ ![0, 1, 2, 3])
    (o1 : (⟨2, ![8, 1]⟩ : Shape).BroadcastsInDim ⟨4, ![8, 1, 1, 1]⟩ ![0, 1])
    (o2 : (⟨4, ![8, 1, 1, 1]⟩ : Shape).BroadcastsInDim ⟨4, ![8, 256, H, W]⟩ ![0, 1, 2, 3]) :
    addf (F := Ideal) (φ := .f32)
        (addf x (mulf x (broadcastInDim ⟨4, ![8, 256, H, W]⟩ ![0, 1, 2, 3] g2 (broadcastInDim ⟨4, ![8, 256, 1, 1]⟩ ![0, 1] g1 f2))))
        (broadcastInDim ⟨4, ![8, 256, H, W]⟩ ![0, 1, 2, 3] o2 (broadcastInDim ⟨4, ![8, 1, 1, 1]⟩ ![0, 1] o1 f3))
      = gated x f2 f3 := by
  funext i
  obtain ⟨b, ch, h, w, rfl⟩ : ∃ (b : Fin 8) (ch : Fin 256) (h : Fin H) (w : Fin W), i = ix4 b ch h w :=
    ⟨i 0, i 1, i 2, i 3, eq_ix4 i⟩
  rw [gated_apply]
  show x (ix4 b ch h w) + x (ix4 b ch h w)
        * broadcastInDim ⟨4, ![8, 256, H, W]⟩ ![0, 1, 2, 3] g2 (broadcastInDim ⟨4, ![8, 256, 1, 1]⟩ ![0, 1] g1 f2) (ix4 b ch h w)
      + broadcastInDim ⟨4, ![8, 256, H, W]⟩ ![0, 1, 2, 3] o2 (broadcastInDim ⟨4, ![8, 1, 1, 1]⟩ ![0, 1] o1 f3) (ix4 b ch h w)
    = x (ix4 b ch h w) + x (ix4 b ch h w) * f2 (ix2 b ch) + f3 (ix2 b 0)
  rw [broadcastInDim_apply ![0, 1, 2, 3] g2 _ (ix4 b ch h w) (ix4 b ch 0 0) (fun a => by
        match a with
        | ⟨0, _⟩ => rfl
        | ⟨1, _⟩ => rfl
        | ⟨2, _⟩ => rfl
        | ⟨3, _⟩ => rfl),
    broadcastInDim_apply ![0, 1] g1 f2 (ix4 b ch 0 0) (ix2 b ch) (fun a => by
        match a with
        | ⟨0, _⟩ => rfl
        | ⟨1, _⟩ => rfl),
    broadcastInDim_apply ![0, 1, 2, 3] o2 _ (ix4 b ch h w) (ix4 b 0 0 0) (fun a => by
        match a with
        | ⟨0, _⟩ => rfl
        | ⟨1, _⟩ => rfl
        | ⟨2, _⟩ => rfl
        | ⟨3, _⟩ => rfl),
    broadcastInDim_apply ![0, 1] o1 f3 (ix4 b 0 0 0) (ix2 b 0) (fun a => by
        match a with
        | ⟨0, _⟩ => rfl
        | ⟨1, _⟩ => rfl)]

end Cert.Level

end
-- ==== Proof.Dense.lean ====
/-
  A whole level as one function of the argument arrays, on the extended reals.

  From the pooled sums P : [8, 256] of a level's activations the network takes the mean P / count, a hidden layer
  hidden = mean · w1ᵀ + b1 of width 16, a gate = hidden · w2ᵀ + b2 of shape [8, 256] and an offset = hidden · w3ᵀ + b3
  of shape [8, 1]; level l uses slab l of each of the six stacked weight arrays. The level's result is
  `gated x gate offset`. These are host operations (a division by a broadcast constant, a transposition, a
  `dot_general` contracting one axis, a bias re-laid by two `broadcast_in_dim`), and both programs apply exactly
  these operations in this order, so they are kept as they are printed and never read at an index: the two programs
  differ only in how the pooled sums are formed and in how the gate and offset are spread over the activations.
-/
import Idealize.ShloMosaic.PureOps.Ideal
import Idealize.ShloMosaic.PureOps.Contract
import Idealize.ShloMosaic.Lib.ValueIdx
import proofs.«181703_j51951924413004_2_alg».proof.Proof.Spec
import proofs.«181703_j51951924413004_2_alg».proof.Proof.HostForms

noncomputable section

namespace Cert.Level

open Idealize.ShloMosaic Idealize.ShloMosaic.ValueIdx

abbrev S_ : Shape := ⟨0, ![]⟩
abbrev S8x256 : Shape := ⟨2, ![8, 256]⟩
abbrev S8x16 : Shape := ⟨2, ![8, 16]⟩
abbrev S8x1 : Shape := ⟨2, ![8, 1]⟩
abbrev S16x256 : Shape := ⟨2, ![16, 256]⟩
abbrev S256x16 : Shape := ⟨2, ![256, 16]⟩
abbrev S16x1 : Shape := ⟨2, ![16, 1]⟩
abbrev S1x16 : Shape := ⟨2, ![1, 16]⟩
abbrev S1x256 : Shape := ⟨2, ![1, 256]⟩
abbrev S1x1 : Shape := ⟨2, ![1, 1]⟩
abbrev S16 : Shape := ⟨1, ![16]⟩
abbrev S256 : Shape := ⟨1, ![256]⟩
abbrev S1 : Shape := ⟨1, ![1]⟩
abbrev S5x16x256 : Shape := ⟨3, ![5, 16, 256]⟩
abbrev S1x16x256 : Shape := ⟨3, ![1, 16, 256]⟩
abbrev S5x16 : Shape := ⟨2, ![5, 16]⟩
abbrev S5x256x16 : Shape := ⟨3, ![5, 256, 16]⟩
abbrev S1x256x16 : Shape := ⟨3, ![1, 256, 16]⟩
abbrev S5x256 : Shape := ⟨2, ![5, 256]⟩
abbrev S5x1x16 : Shape := ⟨3, ![5, 1, 16]⟩
abbrev S1x1x16 : Shape := ⟨3, ![1, 1, 16]⟩
abbrev S5x1 : Shape := ⟨2, ![5, 1]⟩

/-- [8, 256] × [256, 16] → [8, 16], contracting the 256. -/
def dotHidden : DotDims S8x256 S256x16 S8x16 where
  lhsContracting := [1]
  rhsContracting := [0]
  lhsNonContracting := [0]
  rhsNonContracting := [1]
  lhsBatch := []
  rhsBatch := []
  wf := by decide
/-- [8, 16] × [16, 256] → [8, 256], contracting the 16. -/
def dotGate : DotDims S8x16 S16x256 S8x256 where
  lhsContracting := [1]
  rhsContracting := [0]
  lhsNonContracting := [0]
  rhsNonContracting := [1]
  lhsBatch := []
  rhsBatch := []
  wf := by decide
/-- [8, 16] × [16, 1] → [8, 1], contracting the 16. -/
def dotOffset : DotDims S8x16 S16x1 S8x1 where
  lhsContracting := [1]
  rhsContracting := [0]
  lhsNonContracting := [0]
  rhsNonContracting := [1]
  lhsBatch := []
  rhsBatch := []
  wf := by decide

/-! ## Slab `l` of each stacked weight array -/

def w1At (l : Nat) (a : S5x16x256.Idx → EReal) (h : S5x16x256.Slices ![l, 0, 0] S1x16x256) : S16x256.Idx → EReal :=
  shapeCast S16x256 (extractStridedSlice S1x16x256 ![l, 0, 0] a h) (by decide)
def b1At (l : Nat) (a : S5x16.Idx → EReal) (h : S5x16.Slices ![l, 0] S1x16) : S16.Idx → EReal :=
  shapeCast S16 (extractStridedSlice S1x16 ![l, 0] a h) (by decide)
def w2At (l : Nat) (a : S5x256x16.Idx → EReal) (h : S5x256x16.Slices ![l, 0, 0] S1x256x16) : S256x16.Idx → EReal :=
  shapeCast S256x16 (extractStridedSlice S1x256x16 ![l, 0, 0] a h) (by decide)
def b2At (l : Nat) (a : S5x256.Idx → EReal) (h : S5x256.Slices ![l, 0] S1x256) : S256.Idx → EReal :=
  shapeCast S256 (extractStridedSlice S1x256 ![l, 0] a h) (by decide)
def w3At (l : Nat) (a : S5x1x16.Idx → EReal) (h : S5x1x16.Slices ![l, 0, 0] S1x1x16) : S1x16.Idx → EReal :=
  shapeCast S1x16 (extractStridedSlice S1x1x16 ![l, 0, 0] a h) (by decide)
def b3At (l : Nat) (a : S5x1.Idx → EReal) (h : S5x1.Slices ![l, 0] S1x1) : S1.Idx → EReal :=
  shapeCast S1 (extractStridedSlice S1x1 ![l, 0] a h) (by decide)

/-! ## The dense layers, as the host applies them -/

/-- hidden = (P / count) · w1ᵀ + b1. -/
def hidden (cnt : BitVec 32) (P : S8x256.Idx → EReal) (w1 : S16x256.Idx → EReal) (b1 : S16.Idx → EReal) : S8x16.Idx → EReal :=
  addf (F := Ideal) (φ := .f32)
    (Host.dotGeneral (F := Ideal) (φ₁ := .f32) (φ₂ := .f32) dotHidden none
      (Host.divf (F := Ideal) (φ := .f32) P (broadcastInDim S8x256 ![] (by decide) (constant (F := Ideal) S_ .f32 cnt)))
      (transpose S256x16 [1, 0] w1 (by decide)))
    (broadcastInDim S8x16 ![0, 1] (by decide) (broadcastInDim S1x16 ![1] (by decide) b1))

/-- gate = hidden · w2ᵀ + b2. -/
def gate (hid : S8x16.Idx → EReal) (w2 : S256x16.Idx → EReal) (b2 : S256.Idx → EReal) : S8x256.Idx → EReal :=
  addf (F := Ideal) (φ := .f32)
    (Host.dotGeneral (F := Ideal) (φ₁ := .f32) (φ₂ := .f32) dotGate none hid (transpose S16x256 [1, 0] w2 (by decide)))
    (broadcastInDim S8x256 ![0, 1] (by decide) (broadcastInDim S1x256 ![1] (by decide) b2))

/-- offset = hidden · w3ᵀ + b3. -/
def offset (hid : S8x16.Idx → EReal) (w3 : S1x16.Idx → EReal) (b3 : S1.Idx → EReal) : S8x1.Idx → EReal :=
  addf (F := Ideal) (φ := .f32)
    (Host.dotGeneral (F := Ideal) (φ₁ := .f32) (φ₂ := .f32) dotOffset none hid (transpose S16x1 [1, 0] w3 (by decide)))
    (broadcastInDim S8x1 ![0, 1] (by decide) (broadcastInDim S1x1 ![1] (by decide) b3))

/-- The six slab facts of level `l`. -/
structure Slabs (l : Nat) : Prop where
  w1 : S5x16x256.Slices ![l, 0, 0] S1x16x256
  b1 : S5x16.Slices ![l, 0] S1x16
  w2 : S5x256x16.Slices ![l, 0, 0] S1x256x16
  b2 : S5x256.Slices ![l, 0] S1x256
  w3 : S5x1x16.Slices ![l, 0, 0] S1x1x16
  b3 : S5x1.Slices ![l, 0] S1x1

theorem slabs0 : Slabs 0 := ⟨by decide, by decide, by decide, by decide, by decide, by decide⟩
theorem slabs1 : Slabs 1 := ⟨by decide, by decide, by decide, by decide, by decide, by decide⟩
theorem slabs2 : Slabs 2 := ⟨by decide, by decide, by decide, by decide, by decide, by decide⟩
theorem slabs3 : Slabs 3 := ⟨by decide, by decide, by decide, by decide, by decide, by decide⟩
theorem slabs4 : Slabs 4 := ⟨by decide, by decide, by decide, by decide, by decide, by decide⟩

/-- Level `l`'s hidden layer from pooled sums `P`. -/
def hiddenAt (l : Nat) (hs : Slabs l) (cnt : BitVec 32) (P : S8x256.Idx → EReal)
    (a5 : S5x16x256.Idx → EReal) (a6 : S5x16.Idx → EReal) : S8x16.Idx → EReal :=
  hidden cnt P (w1At l a5 hs.w1) (b1At l a6 hs.b1)

/-- LEVEL `l` of the pyramid: the activations gated by what the dense layers make of their pooled sums. -/
def level {H W : Nat} (l : Nat) (hs : Slabs l) (cnt : BitVec 32) (x : (⟨4, ![8, 256, H, W]⟩ : Shape).Idx → EReal)
    (a5 : S5x16x256.Idx → EReal) (a6 : S5x16.Idx → EReal) (a7 : S5x256x16.Idx → EReal) (a8 : S5x256.Idx → EReal)
    (a9 : S5x1x16.Idx → EReal) (a10 : S5x1.Idx → EReal) : (⟨4, ![8, 256, H, W]⟩ : Shape).Idx → EReal :=
  gated x (gate (hiddenAt l hs cnt (pooled x) a5 a6) (w2At l a7 hs.w2) (b2At l a8 hs.b2))
    (offset (hiddenAt l hs cnt (pooled x) a5 a6) (w3At l a9 hs.w3) (b3At l a10 hs.b3))

/-- The host's spelling of a level — one reduction over the spatial axes from the zero word, the gate and the offset
    re-laid by `broadcast_in_dim` — is `level`. -/
theorem hostLevel_eq {H W : Nat} (l : Nat) (hs : Slabs l) (cnt : BitVec 32) (x : (⟨4, ![8, 256, H, W]⟩ : Shape).Idx → EReal)
    (a5 : S5x16x256.Idx → EReal) (a6 : S5x16.Idx → EReal) (a7 : S5x256x16.Idx → EReal) (a8 : S5x256.Idx → EReal)
    (a9 : S5x1x16.Idx → EReal) (a10 : S5x1.Idx → EReal)
    (h' : (⟨4, ![8, 256, H, W]⟩ : Shape).ReducesTo [2, 3] ⟨2, ![8, 256]⟩) (hu : 0 < (⟨0, ![]⟩ : Shape).numel)
    (g1 : (⟨2, ![8, 256]⟩ : Shape).BroadcastsInDim ⟨4, ![8, 256, 1, 1]⟩ ![0, 1])
    (g2 : (⟨4, ![8, 256, 1, 1]⟩ : Shape).BroadcastsInDim ⟨4, ![8, 256, H, W]⟩ ![0, 1, 2, 3])
    (o1 : (⟨2, ![8, 1]⟩ : Shape).BroadcastsInDim ⟨4, ![8, 1, 1, 1]⟩ ![0, 1])
    (o2 : (⟨4, ![8, 1, 1, 1]⟩ : Shape).BroadcastsInDim ⟨4, ![8, 256, H, W]⟩ ![0, 1, 2, 3]) :
    addf (F := Ideal) (φ := .f32)
        (addf x (mulf x (broadcastInDim ⟨4, ![8, 256, H, W]⟩ ![0, 1, 2, 3] g2 (broadcastInDim ⟨4, ![8, 256, 1, 1]⟩ ![0, 1] g1
          (gate (hiddenAt l hs cnt (Host.reduceAdd (F := Ideal) (φ := .f32) x (constant ⟨0, ![]⟩ .f32 0x00000000#32) h' hu) a5 a6)
            (w2At l a7 hs.w2) (b2At l a8 hs.b2))))))
        (broadcastInDim ⟨4, ![8, 256, H, W]⟩ ![0, 1, 2, 3] o2 (broadcastInDim ⟨4, ![8, 1, 1, 1]⟩ ![0, 1] o1
          (offset (hiddenAt l hs cnt (Host.reduceAdd (F := Ideal) (φ := .f32) x (constant ⟨0, ![]⟩ .f32 0x00000000#32) h' hu) a5 a6)
            (w3At l a9 hs.w3) (b3At l a10 hs.b3))))
      = level l hs cnt x a5 a6 a7 a8 a9 a10 := by
  rw [hostSum_pooled h' hu x]
  exact host_gated x _ _ g1 g2 o1 o2

end Cert.Level

end
-- ==== Proof.Fold0.lean ====
/-
  Level 0 of the kernel program, read through the boundaries of @main.

  The first stretch of host operations cuts slab 0 out of the six weight arrays. Region 0 leaves the pooled sums
  of the activations in its output array and every other buffer as it found it. The second stretch applies the dense
  layers to those sums. Region 1 leaves the gated activations in its output array. Nothing after region 1 writes that
  array, and no host operation and no region writes an argument. So the first result ends at `level 0` of the
  argument arrays, given what the two regions leave (stated here as hypotheses, proved with the regions).
-/
import proofs.«181703_j51951924413004_2_alg».proof.Proof.KernelRun
import proofs.«181703_j51951924413004_2_alg».proof.Proof.Dense

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A stretch of host operations keeps a buffer none of its operations writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The activations of level 0 reach both regions as launched -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps1
    _ = W1 m ρ c (Proc.devRef .tc main_arg0) :=
        (W2_arr m ρ c 0).trans (((dat0 (V1 m ρ) c).arrAt_in 0 rfl _).trans (A_eq0 (V1 m ρ) c 0))
    _ = m ((c : Thread nD τ).loc main_arg0) := W1_arg0 m ρ c

/-! ## Slab 0 of the weights, cut by the first stretch and untouched by region 0 -/

theorem W2_v1 (c : Dev nD) : W2 m ρ c (Proc.devRef .tc main_v1)
    = Cert.Level.w1At 0 (m ((c : Thread nD τ).loc main_arg5)) Cert.Level.slabs0.w1 := by
  refine (W2_of_ne m ρ c main_v1 (by decide)).trans ?_
  show StableHlo.after hostOps0 (W0 m ρ c) (Proc.devRef .tc main_v1) = _
  simp only [hostOps0]
  after_results_simp
  rfl

theorem W2_v3 (c : Dev nD) : W2 m ρ c (Proc.devRef .tc main_v3)
    = Cert.Level.b1At 0 (m ((c : Thread nD τ).loc main_arg6)) Cert.Level.slabs0.b1 := by
  refine (W2_of_ne m ρ c main_v3 (by decide)).trans ?_
  show StableHlo.after hostOps0 (W0 m ρ c) (Proc.devRef .tc main_v3) = _
  simp only [hostOps0]
  after_results_simp
  rfl

theorem W2_v5 (c : Dev nD) : W2 m ρ c (Proc.devRef .tc main_v5)
    = Cert.Level.w2At 0 (m ((c : Thread nD τ).loc main_arg7)) Cert.Level.slabs0.w2 := by
  refine (W2_of_ne m ρ c main_v5 (by decide)).trans ?_
  show StableHlo.after hostOps0 (W0 m ρ c) (Proc.devRef .tc main_v5) = _
  simp only [hostOps0]
  after_results_simp
  rfl

theorem W2_v7 (c : Dev nD) : W2 m ρ c (Proc.devRef .tc main_v7)
    = Cert.Level.b2At 0 (m ((c : Thread nD τ).loc main_arg8)) Cert.Level.slabs0.b2 := by
  refine (W2_of_ne m ρ c main_v7 (by decide)).trans ?_
  show StableHlo.after hostOps0 (W0 m ρ c) (Proc.devRef .tc main_v7) = _
  simp only [hostOps0]
  after_results_simp
  rfl

theorem W2_v9 (c : Dev nD) : W2 m ρ c (Proc.devRef .tc main_v9)
    = Cert.Level.w3At 0 (m ((c : Thread nD τ).loc main_arg9)) Cert.Level.slabs0.w3 := by
  refine (W2_of_ne m ρ c main_v9 (by decide)).trans ?_
  show StableHlo.after hostOps0 (W0 m ρ c) (Proc.devRef .tc main_v9) = _
  simp only [hostOps0]
  after_results_simp
  rfl

theorem W2_v11 (c : Dev nD) : W2 m ρ c (Proc.devRef .tc main_v11)
    = Cert.Level.b3At 0 (m ((c : Thread nD τ).loc main_arg10)) Cert.Level.slabs0.b3 := by
  refine (W2_of_ne m ρ c main_v11 (by decide)).trans ?_
  show StableHlo.after hostOps0 (W0 m ρ c) (Proc.devRef .tc main_v11) = _
  simp only [hostOps0]
  after_results_simp
  rfl

/-! ## The dense layers of level 0, applied by the second stretch to what region 0 leaves -/

theorem W3_v24 (c : Dev nD) : W3 m ρ c (Proc.devRef .tc main_v24)
    = Cert.Level.gate (Cert.Level.hidden 0x46800000#32 (W2 m ρ c (Proc.devRef .tc main_v12)) (W2 m ρ c (Proc.devRef .tc main_v1))
        (W2 m ρ c (Proc.devRef .tc main_v3))) (W2 m ρ c (Proc.devRef .tc main_v5)) (W2 m ρ c (Proc.devRef .tc main_v7)) := by
  show StableHlo.after hostOps1 (W2 m ρ c) (Proc.devRef .tc main_v24) = _
  simp only [hostOps1]
  after_results_simp
  rfl

theorem W3_v29 (c : Dev nD) : W3 m ρ c (Proc.devRef .tc main_v29)
    = Cert.Level.offset (Cert.Level.hidden 0x46800000#32 (W2 m ρ c (Proc.devRef .tc main_v12)) (W2 m ρ c (Proc.devRef .tc main_v1))
        (W2 m ρ c (Proc.devRef .tc main_v3))) (W2 m ρ c (Proc.devRef .tc main_v9)) (W2 m ρ c (Proc.devRef .tc main_v11)) := by
  show StableHlo.after hostOps1 (W2 m ρ c) (Proc.devRef .tc main_v29) = _
  simp only [hostOps1]
  after_results_simp
  rfl

/-! ## The first result -/

/-- Given what regions 0 and 1 leave in their output arrays, the first result ends at `level 0` of the argument arrays. -/
theorem level0 (c : Dev nD)
    (hpool : (dat0 (F := Ideal) (V1 m ρ) c).arrAt 1 cfg0.N = Cert.Level.pooled (H := 128) (W := 128) (V1 m ρ c main_arg0))
    (hscale : (dat1 (F := Ideal) (V3 m ρ) c).arrAt 3 cfg1.N
      = Cert.Level.gated (H := 128) (W := 128) (V3 m ρ c main_arg0) (V3 m ρ c main_v24) (V3 m ρ c main_v29)) :
    W9 m ρ c (Proc.devRef .tc main_v30)
      = Cert.Level.level (H := 128) (W := 128) 0 Cert.Level.slabs0 0x46800000#32 (m ((c : Thread nD τ).loc main_arg0))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  have hP : W2 m ρ c (Proc.devRef .tc main_v12) = Cert.Level.pooled (H := 128) (W := 128) (m ((c : Thread nD τ).loc main_arg0)) :=
    ((W2_arr m ρ c 1).trans hpool).trans (congrArg (Cert.Level.pooled (H := 128) (W := 128)) (W1_arg0 m ρ c))
  calc W9 m ρ c (Proc.devRef .tc main_v30)
    _ = W8 m ρ c (Proc.devRef .tc main_v30) := by host_keeps hostOps4
    _ = W7 m ρ c (Proc.devRef .tc main_v30) := W8_of_ne m ρ c main_v30 (by decide)
    _ = W6 m ρ c (Proc.devRef .tc main_v30) := by host_keeps hostOps3
    _ = W5 m ρ c (Proc.devRef .tc main_v30) := W6_of_ne m ρ c main_v30 (by decide)
    _ = W4 m ρ c (Proc.devRef .tc main_v30) := by host_keeps hostOps2
    _ = Cert.Level.gated (H := 128) (W := 128) (W3 m ρ c (Proc.devRef .tc main_arg0)) (W3 m ρ c (Proc.devRef .tc main_v24))
          (W3 m ρ c (Proc.devRef .tc main_v29)) := (W4_arr m ρ c 3).trans hscale
    _ = _ := by
        rw [W3_arg0, W3_v24, W3_v29, hP, W2_v1, W2_v3, W2_v5, W2_v7, W2_v9, W2_v11]
        rfl

end Cert.KernelIdeal.Values

end
-- ==== Proof.Fold1.lean ====
/-
  Level 1 of the kernel program, read through the boundaries of @main.

  The same road as level 0, two segments later: the third stretch of host operations cuts slab 1 out of the weight
  arrays, region 2 leaves the pooled sums of the second activation array, the fourth stretch applies the dense layers,
  region 3 leaves the gated activations, and only the last stretch follows, which does not write that array. The
  second activation array and the weights pass regions 0 and 1 untouched: neither has them as one of its arrays.
-/
import proofs.«181703_j51951924413004_2_alg».proof.Proof.KernelRun
import proofs.«181703_j51951924413004_2_alg».proof.Proof.Dense

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A stretch of host operations keeps a buffer none of its operations writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arguments level 1 reads reach the third stretch as launched -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keeps hostOps1
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := by host_keeps hostOps2
    _ = m ((c : Thread nD τ).loc main_arg1) := W4_arg1 m ρ c

theorem W7_arg1 (c : Dev nD) : W7 m ρ c (Proc.devRef .tc main_arg1) = m ((c : Thread nD τ).loc main_arg1) :=
  calc W7 m ρ c (Proc.devRef .tc main_arg1)
    _ = W6 m ρ c (Proc.devRef .tc main_arg1) := by host_keeps hostOps3
    _ = W5 m ρ c (Proc.devRef .tc main_arg1) :=
        (W6_arr m ρ c 0).trans (((dat2 (V5 m ρ) c).arrAt_in 0 rfl _).trans (A_eq2 (V5 m ρ) c 0))
    _ = m ((c : Thread nD τ).loc main_arg1) := W5_arg1 m ρ c

/-! ## Slab 1 of the weights, cut by the third stretch and untouched by region 2 -/

theorem W6_v32 (c : Dev nD) : W6 m ρ c (Proc.devRef .tc main_v32)
    = Cert.Level.w1At 1 (m ((c : Thread nD τ).loc main_arg5)) Cert.Level.slabs1.w1 := by
  refine (W6_of_ne m ρ c main_v32 (by decide)).trans ?_
  show StableHlo.after hostOps2 (W4 m ρ c) (Proc.devRef .tc main_v32) = _
  simp only [hostOps2]
  after_results_simp
  rw [W4_arg5]
  rfl

theorem W6_v34 (c : Dev nD) : W6 m ρ c (Proc.devRef .tc main_v34)
    = Cert.Level.b1At 1 (m ((c : Thread nD τ).loc main_arg6)) Cert.Level.slabs1.b1 := by
  refine (W6_of_ne m ρ c main_v34 (by decide)).trans ?_
  show StableHlo.after hostOps2 (W4 m ρ c) (Proc.devRef .tc main_v34) = _
  simp only [hostOps2]
  after_results_simp
  rw [W4_arg6]
  rfl

theorem W6_v36 (c : Dev nD) : W6 m ρ c (Proc.devRef .tc main_v36)
    = Cert.Level.w2At 1 (m ((c : Thread nD τ).loc main_arg7)) Cert.Level.slabs1.w2 := by
  refine (W6_of_ne m ρ c main_v36 (by decide)).trans ?_
  show StableHlo.after hostOps2 (W4 m ρ c) (Proc.devRef .tc main_v36) = _
  simp only [hostOps2]
  after_results_simp
  rw [W4_arg7]
  rfl

theorem W6_v38 (c : Dev nD) : W6 m ρ c (Proc.devRef .tc main_v38)
    = Cert.Level.b2At 1 (m ((c : Thread nD τ).loc main_arg8)) Cert.Level.slabs1.b2 := by
  refine (W6_of_ne m ρ c main_v38 (by decide)).trans ?_
  show StableHlo.after hostOps2 (W4 m ρ c) (Proc.devRef .tc main_v38) = _
  simp only [hostOps2]
  after_results_simp
  rw [W4_arg8]
  rfl

theorem W6_v40 (c : Dev nD) : W6 m ρ c (Proc.devRef .tc main_v40)
    = Cert.Level.w3At 1 (m ((c : Thread nD τ).loc main_arg9)) Cert.Level.slabs1.w3 := by
  refine (W6_of_ne m ρ c main_v40 (by decide)).trans ?_
  show StableHlo.after hostOps2 (W4 m ρ c) (Proc.devRef .tc main_v40) = _
  simp only [hostOps2]
  after_results_simp
  rw [W4_arg9]
  rfl

theorem W6_v42 (c : Dev nD) : W6 m ρ c (Proc.devRef .tc main_v42)
    = Cert.Level.b3At 1 (m ((c : Thread nD τ).loc main_arg10)) Cert.Level.slabs1.b3 := by
  refine (W6_of_ne m ρ c main_v42 (by decide)).trans ?_
  show StableHlo.after hostOps2 (W4 m ρ c) (Proc.devRef .tc main_v42) = _
  simp only [hostOps2]
  after_results_simp
  rw [W4_arg10]
  rfl

/-! ## The dense layers of level 1, applied by the fourth stretch to what region 2 leaves -/

theorem W7_v55 (c : Dev nD) : W7 m ρ c (Proc.devRef .tc main_v55)
    = Cert.Level.gate (Cert.Level.hidden 0x45800000#32 (W6 m ρ c (Proc.devRef .tc main_v43)) (W6 m ρ c (Proc.devRef .tc main_v32))
        (W6 m ρ c (Proc.devRef .tc main_v34))) (W6 m ρ c (Proc.devRef .tc main_v36)) (W6 m ρ c (Proc.devRef .tc main_v38)) := by
  show StableHlo.after hostOps3 (W6 m ρ c) (Proc.devRef .tc main_v55) = _
  simp only [hostOps3]
  after_results_simp
  rfl

theorem W7_v60 (c : Dev nD) : W7 m ρ c (Proc.devRef .tc main_v60)
    = Cert.Level.offset (Cert.Level.hidden 0x45800000#32 (W6 m ρ c (Proc.devRef .tc main_v43)) (W6 m ρ c (Proc.devRef .tc main_v32))
        (W6 m ρ c (Proc.devRef .tc main_v34))) (W6 m ρ c (Proc.devRef .tc main_v40)) (W6 m ρ c (Proc.devRef .tc main_v42)) := by
  show StableHlo.after hostOps3 (W6 m ρ c) (Proc.devRef .tc main_v60) = _
  simp only [hostOps3]
  after_results_simp
  rfl

/-! ## The second result -/

/-- Given what regions 2 and 3 leave in their output arrays, the second result ends at `level 1` of the argument arrays. -/
theorem level1 (c : Dev nD)
    (hpool : (dat2 (F := Ideal) (V5 m ρ) c).arrAt 1 cfg2.N = Cert.Level.pooled (H := 64) (W := 64) (V5 m ρ c main_arg1))
    (hscale : (dat3 (F := Ideal) (V7 m ρ) c).arrAt 3 cfg3.N
      = Cert.Level.gated (H := 64) (W := 64) (V7 m ρ c main_arg1) (V7 m ρ c main_v55) (V7 m ρ c main_v60)) :
    W9 m ρ c (Proc.devRef .tc main_v61)
      = Cert.Level.level (H := 64) (W := 64) 1 Cert.Level.slabs1 0x45800000#32 (m ((c : Thread nD τ).loc main_arg1))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  have hP : W6 m ρ c (Proc.devRef .tc main_v43) = Cert.Level.pooled (H := 64) (W := 64) (m ((c : Thread nD τ).loc main_arg1)) :=
    ((W6_arr m ρ c 1).trans hpool).trans (congrArg (Cert.Level.pooled (H := 64) (W := 64)) (W5_arg1 m ρ c))
  calc W9 m ρ c (Proc.devRef .tc main_v61)
    _ = W8 m ρ c (Proc.devRef .tc main_v61) := by host_keeps hostOps4
    _ = Cert.Level.gated (H := 64) (W := 64) (W7 m ρ c (Proc.devRef .tc main_arg1)) (W7 m ρ c (Proc.devRef .tc main_v55))
          (W7 m ρ c (Proc.devRef .tc main_v60)) := (W8_arr m ρ c 3).trans hscale
    _ = _ := by
        rw [W7_arg1, W7_v55, W7_v60, hP, W6_v32, W6_v34, W6_v36, W6_v38, W6_v40, W6_v42]
        rfl

end Cert.KernelIdeal.Values

end
-- ==== Proof.Fold2.lean ====
/-
  Levels 2, 3 and 4 of the kernel program: computed on the host by the last stretch.

  The three smallest levels are not given to a kernel region: the last stretch of host operations sums the activations
  over their spatial axes, applies the dense layers and spreads the gate and the offset back, which is the host's
  spelling of a level. It reads only argument arrays, and an argument array is written by no host operation and is the
  array of no region's output window, so after region 3 each still holds its launch contents.
-/
import proofs.«181703_j51951924413004_2_alg».proof.Proof.KernelRun
import proofs.«181703_j51951924413004_2_alg».proof.Proof.Dense
import proofs.«181703_j51951924413004_2_alg».proof.Proof.Fold1

set_option maxRecDepth 16384

noncomputable section

namespace Cert.KernelIdeal.Values

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A stretch of host operations keeps a buffer none of its operations writes. -/
local macro "host_keeps " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## The arguments reach the last stretch as launched -/

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

theorem W8_arg2 (c : Dev nD) : W8 m ρ c (Proc.devRef .tc main_arg2) = m ((c : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := by host_keeps hostOps3
    _ = W5 m ρ c (Proc.devRef .tc main_arg2) := W6_of_ne m ρ c main_arg2 (by decide)
    _ = W4 m ρ c (Proc.devRef .tc main_arg2) := by host_keeps hostOps2
    _ = m ((c : Thread nD τ).loc main_arg2) := W4_arg2 m ρ c

theorem W8_arg3 (c : Dev nD) : W8 m ρ c (Proc.devRef .tc main_arg3) = m ((c : Thread nD τ).loc main_arg3) :=
  calc W8 m ρ c (Proc.devRef .tc main_arg3)
    _ = W7 m ρ c (Proc.devRef .tc main_arg3) := W8_of_ne m ρ c main_arg3 (by decide)
    _ = W6 m ρ c (Proc.devRef .tc main_arg3) := by host_keeps hostOps3
    _ = W5 m ρ c (Proc.devRef .tc main_arg3) := W6_of_ne m ρ c main_arg3 (by decide)
    _ = W4 m ρ c (Proc.devRef .tc main_arg3) := by host_keeps hostOps2
    _ = m ((c : Thread nD τ).loc main_arg3) := W4_arg3 m ρ c

theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by host_keeps hostOps3
    _ = W5 m ρ c (Proc.devRef .tc main_arg4) := W6_of_ne m ρ c main_arg4 (by decide)
    _ = W4 m ρ c (Proc.devRef .tc main_arg4) := by host_keeps hostOps2
    _ = m ((c : Thread nD τ).loc main_arg4) := W4_arg4 m ρ c

theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keeps hostOps3
    _ = W5 m ρ c (Proc.devRef .tc main_arg5) := W6_of_ne m ρ c main_arg5 (by decide)
    _ = W4 m ρ c (Proc.devRef .tc main_arg5) := by host_keeps hostOps2
    _ = m ((c : Thread nD τ).loc main_arg5) := W4_arg5 m ρ c

theorem W8_arg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by host_keeps hostOps3
    _ = W5 m ρ c (Proc.devRef .tc main_arg6) := W6_of_ne m ρ c main_arg6 (by decide)
    _ = W4 m ρ c (Proc.devRef .tc main_arg6) := by host_keeps hostOps2
    _ = m ((c : Thread nD τ).loc main_arg6) := W4_arg6 m ρ c

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps hostOps3
    _ = W5 m ρ c (Proc.devRef .tc main_arg7) := W6_of_ne m ρ c main_arg7 (by decide)
    _ = W4 m ρ c (Proc.devRef .tc main_arg7) := by host_keeps hostOps2
    _ = m ((c : Thread nD τ).loc main_arg7) := W4_arg7 m ρ c

theorem W8_arg8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2
    _ = m ((c : Thread nD τ).loc main_arg8) := W4_arg8 m ρ c

theorem W8_arg9 (c : Dev nD) : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keeps hostOps3
    _ = W5 m ρ c (Proc.devRef .tc main_arg9) := W6_of_ne m ρ c main_arg9 (by decide)
    _ = W4 m ρ c (Proc.devRef .tc main_arg9) := by host_keeps hostOps2
    _ = m ((c : Thread nD τ).loc main_arg9) := W4_arg9 m ρ c

theorem W8_arg10 (c : Dev nD) : W8 m ρ c (Proc.devRef .tc main_arg10) = m ((c : Thread nD τ).loc main_arg10) :=
  calc W8 m ρ c (Proc.devRef .tc main_arg10)
    _ = W7 m ρ c (Proc.devRef .tc main_arg10) := W8_of_ne m ρ c main_arg10 (by decide)
    _ = W6 m ρ c (Proc.devRef .tc main_arg10) := by host_keeps hostOps3
    _ = W5 m ρ c (Proc.devRef .tc main_arg10) := W6_of_ne m ρ c main_arg10 (by decide)
    _ = W4 m ρ c (Proc.devRef .tc main_arg10) := by host_keeps hostOps2
    _ = m ((c : Thread nD τ).loc main_arg10) := W4_arg10 m ρ c

/-! ## The three results -/

set_option maxHeartbeats 4000000 in
/-- The third result: the last stretch computes level 2 on the host, from arguments that are still as launched. -/
theorem level2 (c : Dev nD) :
    W9 m ρ c (Proc.devRef .tc main_v98)
      = Cert.Level.level (H := 32) (W := 32) 2 Cert.Level.slabs2 0x44800000#32 (m ((c : Thread nD τ).loc main_arg2))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  show StableHlo.after hostOps4 (W8 m ρ c) (Proc.devRef .tc main_v98) = _
  simp only [hostOps4]
  after_results_simp
  rw [W8_arg2, W8_arg5, W8_arg6, W8_arg7, W8_arg8, W8_arg9, W8_arg10]
  exact Cert.Level.hostLevel_eq 2 Cert.Level.slabs2 0x44800000#32 _ _ _ _ _ _ _ _ _ _ _ _ _

set_option maxHeartbeats 4000000 in
/-- The fourth result: the last stretch computes level 3 on the host, from arguments that are still as launched. -/
theorem level3 (c : Dev nD) :
    W9 m ρ c (Proc.devRef .tc main_v135)
      = Cert.Level.level (H := 16) (W := 16) 3 Cert.Level.slabs3 0x43800000#32 (m ((c : Thread nD τ).loc main_arg3))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  show StableHlo.after hostOps4 (W8 m ρ c) (Proc.devRef .tc main_v135) = _
  simp only [hostOps4]
  after_results_simp
  rw [W8_arg3, W8_arg5, W8_arg6, W8_arg7, W8_arg8, W8_arg9, W8_arg10]
  exact Cert.Level.hostLevel_eq 3 Cert.Level.slabs3 0x43800000#32 _ _ _ _ _ _ _ _ _ _ _ _ _

set_option maxHeartbeats 4000000 in
/-- The fifth result: the last stretch computes level 4 on the host, from arguments that are still as launched. -/
theorem level4 (c : Dev nD) :
    W9 m ρ c (Proc.devRef .tc main_v172)
      = Cert.Level.level (H := 8) (W := 8) 4 Cert.Level.slabs4 0x42800000#32 (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) := by
  show StableHlo.after hostOps4 (W8 m ρ c) (Proc.devRef .tc main_v172) = _
  simp only [hostOps4]
  after_results_simp
  rw [W8_arg4, W8_arg5, W8_arg6, W8_arg7, W8_arg8, W8_arg9, W8_arg10]
  exact Cert.Level.hostLevel_eq 4 Cert.Level.slabs4 0x42800000#32 _ _ _ _ _ _ _ _ _ _ _ _ _

end Cert.KernelIdeal.Values

end
-- ==== Proof.RefLevels.lean ====
/-
  The reference program's five results as `level`s of the argument arrays.

  The reference applies to every level the same host operations: one reduction of the activations over their spatial
  axes, the dense layers, and the gate and offset spread back by `broadcast_in_dim`. Its run names each result as
  the operations' composed term of the launch contents; unfolding the one shared subterm (the hidden layer) leaves
  exactly the host's spelling of a level, which is `level`.
-/
import proofs.«181703_j51951924413004_2_alg».proof.Proof.Gen.ReferenceIdeal.Run
import proofs.«181703_j51951924413004_2_alg».proof.Proof.Dense

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

/-- The reference's level 0: its composed term of the launch contents is `level 0` of the argument arrays. -/
theorem result0 (V0 : Valuation τ sig (Elt Ideal)) :
    val4 V0 (Proc.devRef .tc main_v36)
      = Cert.Level.level (H := 128) (W := 128) 0 Cert.Level.slabs0 0x46800000#32 (V0 (Proc.devRef .tc main_arg0))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) := by
  refine (val4_main_v36 V0).trans ?_
  unfold res_main_v19
  exact Cert.Level.hostLevel_eq 0 Cert.Level.slabs0 0x46800000#32 _ _ _ _ _ _ _ _ _ _ _ _ _

/-- The reference's level 1: its composed term of the launch contents is `level 1` of the argument arrays. -/
theorem result1 (V0 : Valuation τ sig (Elt Ideal)) :
    val4 V0 (Proc.devRef .tc main_v73)
      = Cert.Level.level (H := 64) (W := 64) 1 Cert.Level.slabs1 0x45800000#32 (V0 (Proc.devRef .tc main_arg1))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) := by
  refine (val4_main_v73 V0).trans ?_
  unfold res_main_v56
  exact Cert.Level.hostLevel_eq 1 Cert.Level.slabs1 0x45800000#32 _ _ _ _ _ _ _ _ _ _ _ _ _

/-- The reference's level 2: its composed term of the launch contents is `level 2` of the argument arrays. -/
theorem result2 (V0 : Valuation τ sig (Elt Ideal)) :
    val4 V0 (Proc.devRef .tc main_v110)
      = Cert.Level.level (H := 32) (W := 32) 2 Cert.Level.slabs2 0x44800000#32 (V0 (Proc.devRef .tc main_arg2))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) := by
  refine (val4_main_v110 V0).trans ?_
  unfold res_main_v93
  exact Cert.Level.hostLevel_eq 2 Cert.Level.slabs2 0x44800000#32 _ _ _ _ _ _ _ _ _ _ _ _ _

/-- The reference's level 3: its composed term of the launch contents is `level 3` of the argument arrays. -/
theorem result3 (V0 : Valuation τ sig (Elt Ideal)) :
    val4 V0 (Proc.devRef .tc main_v147)
      = Cert.Level.level (H := 16) (W := 16) 3 Cert.Level.slabs3 0x43800000#32 (V0 (Proc.devRef .tc main_arg3))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) := by
  refine (val4_main_v147 V0).trans ?_
  unfold res_main_v130
  exact Cert.Level.hostLevel_eq 3 Cert.Level.slabs3 0x43800000#32 _ _ _ _ _ _ _ _ _ _ _ _ _

/-- The reference's level 4: its composed term of the launch contents is `level 4` of the argument arrays. -/
theorem result4 (V0 : Valuation τ sig (Elt Ideal)) :
    val4 V0 (Proc.devRef .tc main_v184)
      = Cert.Level.level (H := 8) (W := 8) 4 Cert.Level.slabs4 0x42800000#32 (V0 (Proc.devRef .tc main_arg4))
          (V0 (Proc.devRef .tc main_arg5)) (V0 (Proc.devRef .tc main_arg6)) (V0 (Proc.devRef .tc main_arg7))
          (V0 (Proc.devRef .tc main_arg8)) (V0 (Proc.devRef .tc main_arg9)) (V0 (Proc.devRef .tc main_arg10)) := by
  refine (val4_main_v184 V0).trans ?_
  unfold res_main_v167
  exact Cert.Level.hostLevel_eq 4 Cert.Level.slabs4 0x42800000#32 _ _ _ _ _ _ _ _ _ _ _ _ _

/-- The same with the argument arrays given up to equality (the form the two programs' agreement is used in). -/
theorem result0_of (V0 : Valuation τ sig (Elt Ideal))
    {x : (Proc.devRef .tc main_arg0 : DevRef τ sig).ty.Contents (Elt Ideal)}
    {a5 : (Proc.devRef .tc main_arg5 : DevRef τ sig).ty.Contents (Elt Ideal)}
    {a6 : (Proc.devRef .tc main_arg6 : DevRef τ sig).ty.Contents (Elt Ideal)}
    {a7 : (Proc.devRef .tc main_arg7 : DevRef τ sig).ty.Contents (Elt Ideal)}
    {a8 : (Proc.devRef .tc main_arg8 : DevRef τ sig).ty.Contents (Elt Ideal)}
    {a9 : (Proc.devRef .tc main_arg9 : DevRef τ sig).ty.Contents (Elt Ideal)}
    {a10 : (Proc.devRef .tc main_arg10 : DevRef τ sig).ty.Contents (Elt Ideal)}
    (hx : V0 (Proc.devRef .tc main_arg0) = x) (h5 : V0 (Proc.devRef .tc main_arg5) = a5) (h6 : V0 (Proc.devRef .tc main_arg6) = a6)
    (h7 : V0 (Proc.devRef .tc main_arg7) = a7) (h8 : V0 (Proc.devRef .tc main_arg8) = a8) (h9 : V0 (Proc.devRef .tc main_arg9) = a9)
    (h10 : V0 (Proc.devRef .tc main_arg10) = a10) :
    val4 V0 (Proc.devRef .tc main_v36)
      = Cert.Level.level (H := 128) (W := 128) 0 Cert.Level.slabs0 0x46800000#32 x a5 a6 a7 a8 a9 a10 := by
  subst hx h5 h6 h7 h8 h9 h10
  exact result0 V0

/-- The same with the argument arrays given up to equality (the form the two programs' agreement is used in). -/
theorem result1_of (V0 : Valuation τ sig (Elt Ideal))
    {x : (Proc.devRef .tc main_arg1 : DevRef τ sig).ty.Contents (Elt Ideal)}
    {a5 : (Proc.devRef .tc main_arg5 : DevRef τ sig).ty.Contents (Elt Ideal)}
    {a6 : (Proc.devRef .tc main_arg6 : DevRef τ sig).ty.Contents (Elt Ideal)}
    {a7 : (Proc.devRef .tc main_arg7 : DevRef τ sig).ty.Contents (Elt Ideal)}
    {a8 : (Proc.devRef .tc main_arg8 : DevRef τ sig).ty.Contents (Elt Ideal)}
    {a9 : (Proc.devRef .tc main_arg9 : DevRef τ sig).ty.Contents (Elt Ideal)}
    {a10 : (Proc.devRef .tc main_arg10 : DevRef τ sig).ty.Contents (Elt Ideal)}
    (hx : V0 (Proc.devRef .tc main_arg1) = x) (h5 : V0 (Proc.devRef .tc main_arg5) = a5) (h6 : V0 (Proc.devRef .tc main_arg6) = a6)
    (h7 : V0 (Proc.devRef .tc main_arg7) = a7) (h8 : V0 (Proc.devRef .tc main_arg8) = a8) (h9 : V0 (Proc.devRef .tc main_arg9) = a9)
    (h10 : V0 (Proc.devRef .tc main_arg10) = a10) :
    val4 V0 (Proc.devRef .tc main_v73)
      = Cert.Level.level (H := 64) (W := 64) 1 Cert.Level.slabs1 0x45800000#32 x a5 a6 a7 a8 a9 a10 := by
  subst hx h5 h6 h7 h8 h9 h10
  exact result1 V0

/-- The same with the argument arrays given up to equality (the form the two programs' agreement is used in). -/
theorem result2_of (V0 : Valuation τ sig (Elt Ideal))
    {x : (Proc.devRef .tc main_arg2 : DevRef τ sig).ty.Contents (Elt Ideal)}
    {a5 : (Proc.devRef .tc main_arg5 : DevRef τ sig).ty.Contents (Elt Ideal)}
    {a6 : (Proc.devRef .tc main_arg6 : DevRef τ sig).ty.Contents (Elt Ideal)}
    {a7 : (Proc.devRef .tc main_arg7 : DevRef τ sig).ty.Contents (Elt Ideal)}
    {a8 : (Proc.devRef .tc main_arg8 : DevRef τ sig).ty.Contents (Elt Ideal)}
    {a9 : (Proc.devRef .tc main_arg9 : DevRef τ sig).ty.Contents (Elt Ideal)}
    {a10 : (Proc.devRef .tc main_arg10 : DevRef τ sig).ty.Contents (Elt Ideal)}
    (hx : V0 (Proc.devRef .tc main_arg2) = x) (h5 : V0 (Proc.devRef .tc main_arg5) = a5) (h6 : V0 (Proc.devRef .tc main_arg6) = a6)
    (h7 : V0 (Proc.devRef .tc main_arg7) = a7) (h8 : V0 (Proc.devRef .tc main_arg8) = a8) (h9 : V0 (Proc.devRef .tc main_arg9) = a9)
    (h10 : V0 (Proc.devRef .tc main_arg10) = a10) :
    val4 V0 (Proc.devRef .tc main_v110)
      = Cert.Level.level (H := 32) (W := 32) 2 Cert.Level.slabs2 0x44800000#32 x a5 a6 a7 a8 a9 a10 := by
  subst hx h5 h6 h7 h8 h9 h10
  exact result2 V0

/-- The same with the argument arrays given up to equality (the form the two programs' agreement is used in). -/
theorem result3_of (V0 : Valuation τ sig (Elt Ideal))
    {x : (Proc.devRef .tc main_arg3 : DevRef τ sig).ty.Contents (Elt Ideal)}
    {a5 : (Proc.devRef .tc main_arg5 : DevRef τ sig).ty.Contents (Elt Ideal)}
    {a6 : (Proc.devRef .tc main_arg6 : DevRef τ sig).ty.Contents (Elt Ideal)}
    {a7 : (Proc.devRef .tc main_arg7 : DevRef τ sig).ty.Contents (Elt Ideal)}
    {a8 : (Proc.devRef .tc main_arg8 : DevRef τ sig).ty.Contents (Elt Ideal)}
    {a9 : (Proc.devRef .tc main_arg9 : DevRef τ sig).ty.Contents (Elt Ideal)}
    {a10 : (Proc.devRef .tc main_arg10 : DevRef τ sig).ty.Contents (Elt Ideal)}
    (hx : V0 (Proc.devRef .tc main_arg3) = x) (h5 : V0 (Proc.devRef .tc main_arg5) = a5) (h6 : V0 (Proc.devRef .tc main_arg6) = a6)
    (h7 : V0 (Proc.devRef .tc main_arg7) = a7) (h8 : V0 (Proc.devRef .tc main_arg8) = a8) (h9 : V0 (Proc.devRef .tc main_arg9) = a9)
    (h10 : V0 (Proc.devRef .tc main_arg10) = a10) :
    val4 V0 (Proc.devRef .tc main_v147)
      = Cert.Level.level (H := 16) (W := 16) 3 Cert.Level.slabs3 0x43800000#32 x a5 a6 a7 a8 a9 a10 := by
  subst hx h5 h6 h7 h8 h9 h10
  exact result3 V0

/-- The same with the argument arrays given up to equality (the form the two programs' agreement is used in). -/
theorem result4_of (V0 : Valuation τ sig (Elt Ideal))
    {x : (Proc.devRef .tc main_arg4 : DevRef τ sig).ty.Contents (Elt Ideal)}
    {a5 : (Proc.devRef .tc main_arg5 : DevRef τ sig).ty.Contents (Elt Ideal)}
    {a6 : (Proc.devRef .tc main_arg6 : DevRef τ sig).ty.Contents (Elt Ideal)}
    {a7 : (Proc.devRef .tc main_arg7 : DevRef τ sig).ty.Contents (Elt Ideal)}
    {a8 : (Proc.devRef .tc main_arg8 : DevRef τ sig).ty.Contents (Elt Ideal)}
    {a9 : (Proc.devRef .tc main_arg9 : DevRef τ sig).ty.Contents (Elt Ideal)}
    {a10 : (Proc.devRef .tc main_arg10 : DevRef τ sig).ty.Contents (Elt Ideal)}
    (hx : V0 (Proc.devRef .tc main_arg4) = x) (h5 : V0 (Proc.devRef .tc main_arg5) = a5) (h6 : V0 (Proc.devRef .tc main_arg6) = a6)
    (h7 : V0 (Proc.devRef .tc main_arg7) = a7) (h8 : V0 (Proc.devRef .tc main_arg8) = a8) (h9 : V0 (Proc.devRef .tc main_arg9) = a9)
    (h10 : V0 (Proc.devRef .tc main_arg10) = a10) :
    val4 V0 (Proc.devRef .tc main_v184)
      = Cert.Level.level (H := 8) (W := 8) 4 Cert.Level.slabs4 0x42800000#32 x a5 a6 a7 a8 a9 a10 := by
  subst hx h5 h6 h7 h8 h9 h10
  exact result4 V0

end Cert.ReferenceIdeal.RefValue

end
-- ==== Proof.lean ====
/-
  The certificate of a five-level feature pyramid whose every level x : [8, 256, H, W] is gated by what two small dense
  layers make of its spatial means: result = x + x * f2 + f3, with f2 : [8, 256] and f3 : [8, 1] computed from the
  sums of x over its rows and columns.

  The kernel program gives the two largest levels to kernel regions: one region accumulates the sums over row tiles
  into a block it carries from point to point (zeroed at the first tile of a channel half, written back after the
  last), a second region applies the gate and the offset block by block; the dense layers between them and the three
  small levels are host operations. The reference computes every level on the host with one reduction over the two
  spatial axes. On the extended reals the two agree exactly: a sum does not depend on how its terms are grouped
  (tiles of 16 rows against all rows at once), the zero word is 0, both programs divide by the same power of two and
  apply the same dense layers in the same order, and spreading the gate and the offset over a block is reading them
  at the block's batch and channel. No entry needs to be finite, so the precondition is never opened.

  The argument arrays of every level, the pooled sums, the gated array and the whole level are stated once
  (Proof/Spec.lean, Proof/Dense.lean); the regions' values (Proof/PoolLevel*.lean, Proof/ScaleLevel*.lean), the
  kernel program's run with every buffer's final contents (Proof/KernelRun.lean) read through @main's boundaries
  (Proof/Fold*.lean), and the reference's results (Proof/RefLevels.lean) each end at that one statement.
-/
import proofs.«181703_j51951924413004_2_alg».proof.Defs
import proofs.«181703_j51951924413004_2_alg».proof.Proof.Gen.Kernel
import proofs.«181703_j51951924413004_2_alg».proof.Proof.Gen.Kernel.Skeleton
import proofs.«181703_j51951924413004_2_alg».proof.Proof.Gen.Kernel.Launch
import proofs.«181703_j51951924413004_2_alg».proof.Proof.Gen.Kernel.Points
import proofs.«181703_j51951924413004_2_alg».proof.Proof.Gen.Kernel.Frame
import proofs.«181703_j51951924413004_2_alg».proof.Proof.Gen.KernelIdeal
import proofs.«181703_j51951924413004_2_alg».proof.Proof.Gen.KernelIdeal.Skeleton
import proofs.«181703_j51951924413004_2_alg».proof.Proof.Gen.KernelIdeal.Launch
import proofs.«181703_j51951924413004_2_alg».proof.Proof.Gen.KernelIdeal.Points
import proofs.«181703_j51951924413004_2_alg».proof.Proof.Gen.KernelIdeal.Frame
import proofs.«181703_j51951924413004_2_alg».proof.Proof.Gen.ReferenceIdeal
import proofs.«181703_j51951924413004_2_alg».proof.Proof.Gen.ReferenceIdeal.Run
import proofs.«181703_j51951924413004_2_alg».proof.Proof.Gen.Pre_finite_inputs
import proofs.«181703_j51951924413004_2_alg».proof.Proof.KernelRun
import proofs.«181703_j51951924413004_2_alg».proof.Proof.PoolLevel0
import proofs.«181703_j51951924413004_2_alg».proof.Proof.PoolLevel1
import proofs.«181703_j51951924413004_2_alg».proof.Proof.ScaleLevel0
import proofs.«181703_j51951924413004_2_alg».proof.Proof.ScaleLevel1
import proofs.«181703_j51951924413004_2_alg».proof.Proof.Fold0
import proofs.«181703_j51951924413004_2_alg».proof.Proof.Fold1
import proofs.«181703_j51951924413004_2_alg».proof.Proof.Fold2
import proofs.«181703_j51951924413004_2_alg».proof.Proof.RefLevels
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel region: its frame is its run with the five results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

/-- Both idealized programs end with result l at `level l` of the argument arrays, for l = 0, …, 4. -/
theorem algebraic : Cert.algebraic_KernelIdeal_ReferenceIdeal := by
  intro m ρ m' ρ' _ hagree
  refine ⟨fun c => Cert.Level.level (H := 128) (W := 128) 0 Cert.Level.slabs0 0x46800000#32 (m ((c.tc : Thread Cert.KernelIdeal.nD Cert.KernelIdeal.τ).loc Cert.KernelIdeal.main_arg0))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Level.level (H := 64) (W := 64) 1 Cert.Level.slabs1 0x45800000#32 (m ((c.tc : Thread Cert.KernelIdeal.nD Cert.KernelIdeal.τ).loc Cert.KernelIdeal.main_arg1))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Level.level (H := 32) (W := 32) 2 Cert.Level.slabs2 0x44800000#32 (m ((c.tc : Thread Cert.KernelIdeal.nD Cert.KernelIdeal.τ).loc Cert.KernelIdeal.main_arg2))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Level.level (H := 16) (W := 16) 3 Cert.Level.slabs3 0x43800000#32 (m ((c.tc : Thread Cert.KernelIdeal.nD Cert.KernelIdeal.τ).loc Cert.KernelIdeal.main_arg3))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Level.level (H := 8) (W := 8) 4 Cert.Level.slabs4 0x42800000#32 (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Values.run_at (F := Ideal) m ρ)
    exact ⟨(h c Cert.KernelIdeal.main_v30 (by decide)).trans
        (Cert.KernelIdeal.Values.level0 m ρ c (Cert.KernelIdeal.PoolValue0.final _ c) (Cert.KernelIdeal.ScaleValue1.final _ c)),
      (h c Cert.KernelIdeal.main_v61 (by decide)).trans
        (Cert.KernelIdeal.Values.level1 m ρ c (Cert.KernelIdeal.PoolValue2.final _ c) (Cert.KernelIdeal.ScaleValue3.final _ c)),
      (h c Cert.KernelIdeal.main_v98 (by decide)).trans (Cert.KernelIdeal.Values.level2 m ρ c),
      (h c Cert.KernelIdeal.main_v135 (by decide)).trans (Cert.KernelIdeal.Values.level3 m ρ c),
      (h c Cert.KernelIdeal.main_v172 (by decide)).trans (Cert.KernelIdeal.Values.level4 m ρ c),
      (h c Cert.KernelIdeal.main_arg0 (by decide)).trans (Cert.KernelIdeal.Gen.W9_main_arg0 m ρ c),
      (h c Cert.KernelIdeal.main_arg1 (by decide)).trans (Cert.KernelIdeal.Gen.W9_main_arg1 m ρ c),
      (h c Cert.KernelIdeal.main_arg2 (by decide)).trans (Cert.KernelIdeal.Gen.W9_main_arg2 m ρ c),
      (h c Cert.KernelIdeal.main_arg3 (by decide)).trans (Cert.KernelIdeal.Gen.W9_main_arg3 m ρ c),
      (h c Cert.KernelIdeal.main_arg4 (by decide)).trans (Cert.KernelIdeal.Gen.W9_main_arg4 m ρ c),
      (h c Cert.KernelIdeal.main_arg5 (by decide)).trans (Cert.KernelIdeal.Gen.W9_main_arg5 m ρ c),
      (h c Cert.KernelIdeal.main_arg6 (by decide)).trans (Cert.KernelIdeal.Gen.W9_main_arg6 m ρ c),
      (h c Cert.KernelIdeal.main_arg7 (by decide)).trans (Cert.KernelIdeal.Gen.W9_main_arg7 m ρ c),
      (h c Cert.KernelIdeal.main_arg8 (by decide)).trans (Cert.KernelIdeal.Gen.W9_main_arg8 m ρ c),
      (h c Cert.KernelIdeal.main_arg9 (by decide)).trans (Cert.KernelIdeal.Gen.W9_main_arg9 m ρ c),
      (h c Cert.KernelIdeal.main_arg10 (by decide)).trans (Cert.KernelIdeal.Gen.W9_main_arg10 m ρ c)⟩
  · refine (θ_run Cert.ReferenceIdeal.defs _ _).mono (fun r h c => ?_) (Cert.ReferenceIdeal.Value.run (F := Ideal) m' ρ')
    obtain ⟨h0, h1, h2, h3, h4, hargs⟩ := h c
    obtain ⟨e0, e1, e2, e3, e4, e5, e6, e7, e8, e9, e10⟩ := hagree c
    exact ⟨h0.trans ((Cert.ReferenceIdeal.Value.val4_main_v36 (StableHlo.launchContents m' c)).symm.trans
        (Cert.ReferenceIdeal.RefValue.result0_of (StableHlo.launchContents m' c) e0 e5 e6 e7 e8 e9 e10)),
      h1.trans ((Cert.ReferenceIdeal.Value.val4_main_v73 (StableHlo.launchContents m' c)).symm.trans
        (Cert.ReferenceIdeal.RefValue.result1_of (StableHlo.launchContents m' c) e1 e5 e6 e7 e8 e9 e10)),
      h2.trans ((Cert.ReferenceIdeal.Value.val4_main_v110 (StableHlo.launchContents m' c)).symm.trans
        (Cert.ReferenceIdeal.RefValue.result2_of (StableHlo.launchContents m' c) e2 e5 e6 e7 e8 e9 e10)),
      h3.trans ((Cert.ReferenceIdeal.Value.val4_main_v147 (StableHlo.launchContents m' c)).symm.trans
        (Cert.ReferenceIdeal.RefValue.result3_of (StableHlo.launchContents m' c) e3 e5 e6 e7 e8 e9 e10)),
      h4.trans ((Cert.ReferenceIdeal.Value.val4_main_v184 (StableHlo.launchContents m' c)).symm.trans
        (Cert.ReferenceIdeal.RefValue.result4_of (StableHlo.launchContents m' c) e4 e5 e6 e7 e8 e9 e10)),
      hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
